-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024x128 : Shape := ⟨3, ![1024, 1024, 128]⟩
abbrev S128x128 : Shape := ⟨2, ![128, 128]⟩
abbrev S128x1 : Shape := ⟨2, ![128, 1]⟩
abbrev S256x128 : Shape := ⟨2, ![256, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024x128 : S_.BroadcastsInDim S1024x1024x128 (![] : Fin 0 → Fin S1024x1024x128.rank)
  reducesTo_S1024x1024x128_S_d0_1_2 : S1024x1024x128.ReducesTo [0, 1, 2] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128x1 .f32) (main_arg5 : FVec F S256x128 .f32) (main_arg6 : FVec F S128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S1024x128 .f32) (main_arg1 : FVec F S1024x1024x128 .f32) (main_arg2 : FVec F S128x128 .f32) (main_arg3 : FVec F S128x128 .f32) (main_arg4 : FVec F S128x1 .f32) (main_arg5 : FVec F S256x128 .f32) (main_arg6 : FVec F S128 .f32) (main_arg7 : FVec F S128 .f32) (main_arg8 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x1024x128 .f32 := Host.absf main_arg1
  let main_cst_0 : FVec F S_ .f32 := constant S_ .f32 0x7F800000#32
  let main_v5 : FVec F S1024x1024x128 .f32 := broadcastInDim S1024x1024x128 ![] bcast_S_S1024x1024x128 main_cst_0
  let main_v6 : IVec S1024x1024x128 1 := cmpf .olt main_v4 main_v5
  let main_c_1 : IVec S_ 1 := constantI S_ 1 1#1
  let main_v7 : IVec S_ 1 := (fun x v => Host.reduce IntOp.andi x v reducesTo_S1024x1024x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S1024x128 : Shape := ⟨2, ![1024, 128]⟩
abbrev S1024x1024x128 : Shape := ⟨3, ![1024, 1024, 128]⟩
abbrev S128x128 : Shape := ⟨2, ![128, 128]⟩
abbrev S128x1 : Shape := ⟨2, ![128, 1]⟩
abbrev S256x128 : Shape := ⟨2, ![256, 128]⟩
abbrev S128 : Shape := ⟨1, ![128]⟩
abbrev S128x128x128 : Shape := ⟨3, ![128, 128, 128]⟩
abbrev S16384x128 : Shape := ⟨2, ![16384, 128]⟩
abbrev S128x1x128 : Shape := ⟨3, ![128, 1, 128]⟩
abbrev S16384x1 : Shape := ⟨2, ![16384, 1]⟩
abbrev S128x128x1 : Shape := ⟨3, ![128, 128, 1]⟩
abbrev S128x256 : Shape := ⟨2, ![128, 256]⟩
abbrev S1x128 : Shape := ⟨2, ![1, 128]⟩

abbrev nBuf : Space → Nat
  | .hbm => 10
  | .vmem => 16
  | .smem => 0
  | _ => 0

abbrev bufTy : (tb : Table) → Fin (tcTables nBuf tb) → BufTy
  | .hbm, ⟨0, _⟩ => ⟨S1024x128, .f32⟩
  | .hbm, ⟨1, _⟩ => ⟨S1024x1024x128, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1024x128, .f32⟩
  | .local _ .vmem, ⟨0, _⟩ => ⟨S128x128, .f32⟩
  | .local _ .vmem, ⟨1, _⟩ => ⟨S128x128, .f32⟩
  | .local _ .vmem, ⟨2, _⟩ => ⟨S128x128x128, .f32⟩
  | .local _ .vmem, ⟨3, _⟩ => ⟨S128x128x128, .f32⟩
  | .local _ .vmem, ⟨4, _⟩ => ⟨S128x128, .f32⟩
  | .local _ .vmem, ⟨5, _⟩ => ⟨S128x128, .f32⟩
  | .local _ .vmem, ⟨6, _⟩ => ⟨S128x1, .f32⟩
  | .local _ .vmem, ⟨7, _⟩ => ⟨S256x128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128x128, .f32⟩
  | .local _ .vmem, ⟨12, _⟩ => ⟨S128x128, .f32⟩
  | .local _ .vmem, ⟨13, _⟩ => ⟨S128x1, .f32⟩
  | .local _ .vmem, ⟨14, _⟩ => ⟨S128x1, .f32⟩
  | .local _ .vmem, ⟨15, _⟩ => ⟨S128x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x128x128_S128x128x128_0_0_0 : ∀ a, (![0, 0, 0] : Fin 3 → Nat) a + S128x128x128.size a ≤ S128x128x128.size a
  h_S128x128x128 : 0 < S128x128x128.numel
  shapeCasts_S128x128x128_S16384x128 : S128x128x128.ShapeCasts S16384x128
  shapeCasts_S16384x128_S128x128x128 : S16384x128.ShapeCasts S128x128x128
  shapeCasts_S128x128_S128x1x128 : S128x128.ShapeCasts S128x1x128
  broadcasts_S128x1x128_S128x128x128 : S128x1x128.Broadcasts S128x128x128
  shapeCasts_S16384x1_S128x128 : S16384x1.ShapeCasts S128x128
  reduces_S128x128_S128 : S128x128.Reduces [1] S128
  shapeCasts_S128_S128x1 : S128.ShapeCasts S128x1
  broadcasts_S128x1_S128x128 : S128x1.Broadcasts S128x128
  shapeCasts_S128x128_S128x128x1 : S128x128.ShapeCasts S128x128x1
  broadcasts_S128x128x1_S128x128x128 : S128x128x1.Broadcasts S128x128x128
  reduces_S128x128x128_S128x128 : S128x128x128.Reduces [1] S128x128
  concatenates_S128x128_S128x128_S128x256_d1 : Shape.Concatenates [S128x128, S128x128] S128x256 1
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  dot_S128x128_S128x128_S128x128_1_0_0_1_n_n_wf : DotDims.WF S128x128 S128x128 S128x128 [1] [0] [0] [1] [] []
  dot_S16384x128_S128x128_S16384x128_1_0_0_1_n_n_wf : DotDims.WF S16384x128 S128x128 S16384x128 [1] [0] [0] [1] [] []
  dot_S16384x128_S128x1_S16384x1_1_0_0_1_n_n_wf : DotDims.WF S16384x128 S128x1 S16384x1 [1] [0] [0] [1] [] []
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x128.size a
  hwx0_0 : ∀ i : grid0.Coords, EltTy.bits .f32 = 32 ∨ (Rect.block (s := S1024x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x128.size a ≤ S1024x1024x128.size a
  hwx0_1 : ∀ i : grid0.Coords, EltTy.bits .f32 = 32 ∨ (Rect.block (s := S1024x1024x128) S128x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S1024x128.size a
  hwx0_9 : ∀ i : grid0.Coords, EltTy.bits .f32 = 32 ∨ (Rect.block (s := S1024x128) S128x128.size (cc0_transform_9 i) (hinb0_9 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S1024x128 : Shape := ⟨2, ![1024, 128]⟩
abbrev S1024x1024x128 : Shape := ⟨3, ![1024, 1024, 128]⟩
abbrev S128x128 : Shape := ⟨2, ![128, 128]⟩
abbrev S128x1 : Shape := ⟨2, ![128, 1]⟩
abbrev S256x128 : Shape := ⟨2, ![256, 128]⟩
abbrev S128 : Shape := ⟨1, ![128]⟩
abbrev S1024x1x128 : Shape := ⟨3, ![1024, 1, 128]⟩
abbrev S1024x1024x1 : Shape := ⟨3, ![1024, 1024, 1]⟩
abbrev S_ : Shape := ⟨0, ![]⟩
abbrev S1024x1 : Shape := ⟨2, ![1024, 1]⟩
abbrev S1024x1x1 : Shape := ⟨3, ![1024, 1, 1]⟩
abbrev S1024x256 : Shape := ⟨2, ![1024, 256]⟩
abbrev S1x128 : Shape := ⟨2, ![1, 128]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x1024x128, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1024x128, .f32⟩
  | .hbm, ⟨10, _⟩ => ⟨S1024x1024x128, .f32⟩
  | .hbm, ⟨11, _⟩ => ⟨S1024x1x128, .f32⟩
  | .hbm, ⟨12, _⟩ => ⟨S1024x1024x128, .f32⟩
  | .hbm, ⟨13, _⟩ => ⟨S1024x1024x128, .f32⟩
  | .hbm, ⟨14, _⟩ => ⟨S1024x1024x128, .f32⟩
  | .hbm, ⟨15, _⟩ => ⟨S1024x1024x1, .f32⟩
  | .hbm, ⟨16, _⟩ => ⟨S_, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x1x1, .f32⟩
  | .hbm, ⟨22, _⟩ => ⟨S1024x1024x1, .f32⟩
  | .hbm, ⟨23, _⟩ => ⟨S1024x1024x1, .f32⟩
  | .hbm, ⟨24, _⟩ => ⟨S1024x1024x1, .f32⟩
  | .hbm, ⟨25, _⟩ => ⟨S_, .f32⟩
  | .hbm, ⟨26, _⟩ => ⟨S1024x1, .f32⟩
  | .hbm, ⟨27, _⟩ => ⟨S1024x1x1, .f32⟩
  | .hbm, ⟨28, _⟩ => ⟨S1024x1024x1, .f32⟩
  | .hbm, ⟨29, _⟩ => ⟨S1024x1024x1, .f32⟩
  | .hbm, ⟨30, _⟩ => ⟨S1024x1024x128, .f32⟩
  | .hbm, ⟨31, _⟩ => ⟨S1024x1024x128, .f32⟩
  | .hbm, ⟨32, _⟩ => ⟨S_, .f32⟩
  | .hbm, ⟨33, _⟩ => ⟨S1024x128, .f32⟩
  | .hbm, ⟨34, _⟩ => ⟨S1024x256, .f32⟩
  | .hbm, ⟨35, _⟩ => ⟨S1024x128, .f32⟩
  | .hbm, ⟨36, _⟩ => ⟨S1x128, .f32⟩
  | .hbm, ⟨37, _⟩ => ⟨S1024x128, .f32⟩
  | .hbm, ⟨38, _⟩ => ⟨S1024x128, .f32⟩
  | .hbm, ⟨39, _⟩ => ⟨S1024x128, .f32⟩
  | .hbm, ⟨40, _⟩ => ⟨S_, .f32⟩
  | .hbm, ⟨41, _⟩ => ⟨S1024, .f32⟩
  | .hbm, ⟨42, _⟩ => ⟨S1024x1, .f32⟩
  | .hbm, ⟨43, _⟩ => ⟨S_, .f32⟩
  | .hbm, ⟨44, _⟩ => ⟨S1024x1, .f32⟩
  | .hbm, ⟨45, _⟩ => ⟨S1024x1, .f32⟩
  | .hbm, ⟨46, _⟩ => ⟨S1024x128, .f32⟩
  | .hbm, ⟨47, _⟩ => ⟨S1024x128, .f32⟩
  | .hbm, ⟨48, _⟩ => ⟨S1024x128, .f32⟩
  | .hbm, ⟨49, _⟩ => ⟨S_, .f32⟩
  | .hbm, ⟨50, _⟩ => ⟨S1024, .f32⟩
  | .hbm, ⟨51, _⟩ => ⟨S1024x1, .f32⟩
  | .hbm, ⟨52, _⟩ => ⟨S_, .f32⟩
  | .hbm, ⟨53, _⟩ => ⟨S1024x1, .f32⟩
  | .hbm, ⟨54, _⟩ => ⟨S1024x1, .f32⟩
  | .hbm, ⟨55, _⟩ => ⟨S1024x128, .f32⟩
  | .hbm, ⟨56, _⟩ => ⟨S1024x128, .f32⟩
  | .hbm, ⟨57, _⟩ => ⟨S_, .f32⟩
  | .hbm, ⟨58, _⟩ => ⟨S1024x1, .f32⟩
  | .hbm, ⟨59, _⟩ => ⟨S1024x1, .f32⟩
  | .hbm, ⟨60, _⟩ => ⟨S1024x1, .f32⟩
  | .hbm, ⟨61, _⟩ => ⟨S1024x128, .f32⟩
  | .hbm, ⟨62, _⟩ => ⟨S1024x128, .f32⟩
  | .hbm, ⟨63, _⟩ => ⟨S1x128, .f32⟩
  | .hbm, ⟨64, _⟩ => ⟨S1024x128, .f32⟩
  | .hbm, ⟨65, _⟩ => ⟨S1024x128, .f32⟩
  | .hbm, ⟨66, _⟩ => ⟨S1x128, .f32⟩
  | .hbm, ⟨67, _⟩ => ⟨S1024x128, .f32⟩
  | .hbm, ⟨68, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S1024x128_S1024x1x128_0_2 : S1024x128.BroadcastsInDim S1024x1x128 (![0, 2] : Fin 2 → Fin S1024x1x128.rank)
  bcast_S1024x1x128_S1024x1024x128_0_1_2 : S1024x1x128.BroadcastsInDim S1024x1024x128 (![0, 1, 2] : Fin 3 → Fin S1024x1024x128.rank)
  reducesTo_S1024x1024x1_S1024x1_d1 : S1024x1024x1.ReducesTo [1] S1024x1
  h_S_ : 0 < S_.numel
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x1024x1_0_1_2 : S1024x1x1.BroadcastsInDim S1024x1024x1 (![0, 1, 2] : Fin 3 → Fin S1024x1024x1.rank)
  bcast_S1024x1024x1_S1024x1024x128_0_1_2 : S1024x1024x1.BroadcastsInDim S1024x1024x128 (![0, 1, 2] : Fin 3 → Fin S1024x1024x128.rank)
  reducesTo_S1024x1024x128_S1024x128_d1 : S1024x1024x128.ReducesTo [1] S1024x128
  concatenates_S1024x128_S1024x128_S1024x256_d1 : Shape.Concatenates [S1024x128, S1024x128] S1024x256 1
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024x128_S1024_d1 : S1024x128.ReducesTo [1] S1024
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  dot_S1024x128_S128x128_S1024x128_1_0_0_1_n_n_wf : DotDims.WF S1024x128 S128x128 S1024x128 [1] [0] [0] [1] [] []
  dot_S1024x1024x128_S128x128_S1024x1024x128_2_0_01_1_n_n_wf : DotDims.WF S1024x1024x128 S128x128 S1024x1024x128 [2] [0] [0, 1] [1] [] []
  dot_S1024x1024x128_S128x1_S1024x1024x1_2_0_01_1_n_n_wf : DotDims.WF S1024x1024x128 S128x1 S1024x1024x1 [2] [0] [0, 1] [1] [] []
  dot_S1024x256_S256x128_S1024x128_1_0_0_1_n_n_wf : DotDims.WF S1024x256 S256x128 S1024x128 [1] [0] [0] [1] [] []

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024x128_S128x128_S1024x1024x128_2_0_01_1_n_n : DotDims S1024x1024x128 S128x128 S1024x1024x128 where
  lhsContracting := [2]
  rhsContracting := [0]
  lhsNonContracting := [0, 1]
  rhsNonContracting := [1]
  lhsBatch := []
  rhsBatch := []
  wf := dot_S1024x1024x128_S128x128_S1024x1024x128_2_0_01_1_n_n_wf
def dot_S1024x1024x128_S128x1_S1024x1024x1_2_0_01_1_n_n : DotDims S1024x1024x128 S128x1 S1024x1024x1 where
  lhsContracting := [2]
  rhsContracting := [0]
  lhsNonContracting := [0, 1]
  rhsNonContracting := [1]
  lhsBatch := []
  rhsBatch := []
  wf := dot_S1024x1024x128_S128x1_S1024x1024x1_2_0_01_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.Pieces.lean ====
/-
  What one grid point leaves in the three carried buffers (running shift, running sum, running weighted sum) and,
  at the last sequence tile, in the output block — each as ONE pure term of the point's input blocks and of what
  the point before left.  At the first tile the buffers are first reset (−∞, 0, 0), so the reset values stand
  where the previous contents would.
-/
import proofs.«138197_j28973849379558_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Attn.Pieces

open Cert.KernelIdeal Cert.KernelIdeal.Gen

variable {F : FTy → Type} [FloatOps F]

theorem hz1 : (![0] : Fin 1 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

variable (c : Dev nD) (i : grid0.Coords) (arg2 : Memref sig .tc .vmem S128x128 .f32) (harg2 : arg2.IsWhole) (arg3 : Memref sig .tc .vmem S128x128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S256x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x128 .f32) (harg14 : arg14.IsWhole)
variable (x0 : Vec F S128x128 .f32) (x1 : Vec F S128x128x128 .f32) (x2 : Vec F S128x128 .f32) (x3 : Vec F S128x128 .f32) (x4 : Vec F S128x1 .f32) (x5 : Vec F S256x128 .f32) (x6 : Vec F S128 .f32) (x7 : Vec F S128 .f32) (x8 : Vec F S128 .f32)

theorem sA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 (k0_pay9 x0 x1 x2 x3 x4 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S128x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

theorem sA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay2 (k0_pay12 x0 x1 x2 x3 x4 k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S128x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

theorem sA2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay3 x1 (k0_pay10 x0 x1 x2 x3 x4 k0_pay5) (k0_pay13 x0 x1 x2 x3 x4 k0_pay5) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S128x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

theorem sB0 (hc0 : ¬cond0_0 i) (hc1 : ¬cond0_1 i) (xs0 : Vec F S128x1 .f32) (xs1 : Vec F S128x1 .f32) (xs2 : Vec F S128x128 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay1 (k0_pay9 x0 x1 x2 x3 x4 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

theorem sB1 (hc0 : ¬cond0_0 i) (hc1 : ¬cond0_1 i) (xs0 : Vec F S128x1 .f32) (xs1 : Vec F S128x1 .f32) (xs2 : Vec F S128x128 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay2 (k0_pay12 x0 x1 x2 x3 x4 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

theorem sB2 (hc0 : ¬cond0_0 i) (hc1 : ¬cond0_1 i) (xs0 : Vec F S128x1 .f32) (xs1 : Vec F S128x1 .f32) (xs2 : Vec F S128x128 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay3 x1 (k0_pay10 x0 x1 x2 x3 x4 xs0) (k0_pay13 x0 x1 x2 x3 x4 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

theorem sC0 (hc0 : ¬cond0_0 i) (hc1 : cond0_1 i) (xs0 : Vec F S128x1 .f32) (xs1 : Vec F S128x1 .f32) (xs2 : Vec F S128x128 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay1 (k0_pay9 x0 x1 x2 x3 x4 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

theorem sC1 (hc0 : ¬cond0_0 i) (hc1 : cond0_1 i) (xs0 : Vec F S128x1 .f32) (xs1 : Vec F S128x1 .f32) (xs2 : Vec F S128x128 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay2 (k0_pay12 x0 x1 x2 x3 x4 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

theorem sC2 (hc0 : ¬cond0_0 i) (hc1 : cond0_1 i) (xs0 : Vec F S128x1 .f32) (xs1 : Vec F S128x1 .f32) (xs2 : Vec F S128x128 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay3 x1 (k0_pay10 x0 x1 x2 x3 x4 xs0) (k0_pay13 x0 x1 x2 x3 x4 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

theorem oC9 (hc0 : ¬cond0_0 i) (hc1 : cond0_1 i) (xs0 : Vec F S128x1 .f32) (xs1 : Vec F S128x1 .f32) (xs2 : Vec F S128x128 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay4 x0 (k0_pay3 x1 (k0_pay10 x0 x1 x2 x3 x4 xs0) (k0_pay13 x0 x1 x2 x3 x4 xs0) xs2) (k0_pay2 (k0_pay12 x0 x1 x2 x3 x4 xs0 xs1)) x5 x6 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x128) hz2, View.ld_unit_zero (S := S128x1) hz2, View.ld_unit_zero (S := S128x128x128) hz3, View.ld_unit_zero (S := S256x128) hz2, View.ld_unit_zero (S := S128) hz1, View.readCov_unit_zero (S := S128x1) _ hz2, View.readCov_unit_zero (S := S128x128) _ hz2]

end Cert.Attn.Pieces

end
-- ==== Proof.Blocks.lean ====
/-
  What each window's block holds at a grid point, read off the argument arrays.  The grid has 8 × 8 points,
  the sequence tile innermost: point t handles the batch rows 128·(t / 8) … and the sequence positions
  128·(t % 8) ….  The query block is rows 128·(t / 8) + r of the query array; the sequence block is rows
  128·(t / 8) + r, positions 128·(t % 8) + q of the sequence array; the seven weight windows stage their whole
  arrays at every point.
-/
import proofs.«138197_j28973849379558_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Attn.Blocks

open Cert.KernelIdeal Cert.KernelIdeal.Gen

variable {F : FTy → Type} [FloatOps F]
variable (m : (ℓ : Loc nD τ sig) → Buf (Elt F) ℓ) (c : Dev nD)

theorem N64 : cfg0.N = 64 := N_0

/-- The batch row of block row r at point t. -/
abbrev brow (t : Fin cfg0.N) (r : Fin 128) : Fin 1024 :=
  ⟨128 * (t.val / 8) + r.val, by have := t.isLt; have := r.isLt; have h64 : cfg0.N = 64 := N_0; omega⟩

/-- The sequence position of block position q at point t. -/
abbrev spos (t : Fin cfg0.N) (q : Fin 128) : Fin 1024 :=
  ⟨128 * (t.val % 8) + q.val, by have := q.isLt; omega⟩

/-- The query block at point t. -/
theorem iblk0_apply (t : Fin cfg0.N) (r d : Fin 128) :
    (iblk m c 0 t : Vec F S128x128 .f32) (ix2 r d) = m ((c : Thread nD τ).loc main_arg0) (ix2 (brow t r) d) := by
  have hi : win0_0.index t 0 = t.val / 8 ∧ win0_0.index t 1 = 0 :=
    (by decide +kernel : ∀ t : Fin grid0.N, win0_0.index t 0 = t.val / 8 ∧ win0_0.index t 1 = 0) t
  unfold iblk
  rw [View.read_apply]
  show V m c main_arg0 _ = m (c.tc.loc main_arg0) _
  congr 1
  funext a
  apply Fin.ext
  match a with
  | ⟨0, _⟩ => show win0_0.index t 0 * 128 + 1 * r.val = 128 * (t.val / 8) + r.val; rw [hi.1]; omega
  | ⟨1, _⟩ => show win0_0.index t 1 * 128 + 1 * d.val = d.val; rw [hi.2]; omega

/-- The sequence block at point t. -/
theorem iblk1_apply (t : Fin cfg0.N) (r q d : Fin 128) :
    (iblk m c 1 t : Vec F S128x128x128 .f32) (ix3 r q d) = m ((c : Thread nD τ).loc main_arg1) (ix3 (brow t r) (spos t q) d) := by
  have hi : win0_1.index t 0 = t.val / 8 ∧ win0_1.index t 1 = t.val % 8 ∧ win0_1.index t 2 = 0 :=
    (by decide +kernel : ∀ t : Fin grid0.N, win0_1.index t 0 = t.val / 8 ∧ win0_1.index t 1 = t.val % 8 ∧ win0_1.index t 2 = 0) t
  unfold iblk
  rw [View.read_apply]
  show V m c main_arg1 _ = m (c.tc.loc main_arg1) _
  congr 1
  funext a
  apply Fin.ext
  match a with
  | ⟨0, _⟩ => show win0_1.index t 0 * 128 + 1 * r.val = 128 * (t.val / 8) + r.val; rw [hi.1]; omega
  | ⟨1, _⟩ => show win0_1.index t 1 * 128 + 1 * q.val = 128 * (t.val % 8) + q.val; rw [hi.2.1]; omega
  | ⟨2, _⟩ => show win0_1.index t 2 * 128 + 1 * d.val = d.val; rw [hi.2.2]; omega

/-- Window 2 stages its whole array at every point. -/
theorem iblk2_eq (t : Fin cfg0.N) : (iblk m c 2 t : Vec F S128x128 .f32) = m ((c : Thread nD τ).loc main_arg2) := by
  have hi : win0_2.index t 0 = 0 ∧ win0_2.index t 1 = 0 := (by decide +kernel : ∀ t : Fin grid0.N, win0_2.index t 0 = 0 ∧ win0_2.index t 1 = 0) t
  funext j
  unfold iblk
  rw [View.read_apply]
  show V m c main_arg2 _ = m (c.tc.loc main_arg2) _
  congr 1
  funext a
  apply Fin.ext
  match a with
  | ⟨0, _⟩ => show win0_2.index t 0 * 128 + 1 * (j 0).val = (j 0).val; rw [hi.1]; omega
  | ⟨1, _⟩ => show win0_2.index t 1 * 128 + 1 * (j 1).val = (j 1).val; rw [hi.2]; omega

/-- Window 3 stages its whole array at every point. -/
theorem iblk3_eq (t : Fin cfg0.N) : (iblk m c 3 t : Vec F S128x128 .f32) = m ((c : Thread nD τ).loc main_arg3) := by
  have hi : win0_3.index t 0 = 0 ∧ win0_3.index t 1 = 0 := (by decide +kernel : ∀ t : Fin grid0.N, win0_3.index t 0 = 0 ∧ win0_3.index t 1 = 0) t
  funext j
  unfold iblk
  rw [View.read_apply]
  show V m c main_arg3 _ = m (c.tc.loc main_arg3) _
  congr 1
  funext a
  apply Fin.ext
  match a with
  | ⟨0, _⟩ => show win0_3.index t 0 * 128 + 1 * (j 0).val = (j 0).val; rw [hi.1]; omega
  | ⟨1, _⟩ => show win0_3.index t 1 * 128 + 1 * (j 1).val = (j 1).val; rw [hi.2]; omega

/-- Window 4 stages its whole array at every point. -/
theorem iblk4_eq (t : Fin cfg0.N) : (iblk m c 4 t : Vec F S128x1 .f32) = m ((c : Thread nD τ).loc main_arg4) := by
  have hi : win0_4.index t 0 = 0 ∧ win0_4.index t 1 = 0 := (by decide +kernel : ∀ t : Fin grid0.N, win0_4.index t 0 = 0 ∧ win0_4.index t 1 = 0) t
  funext j
  unfold iblk
  rw [View.read_apply]
  show V m c main_arg4 _ = m (c.tc.loc main_arg4) _
  congr 1
  funext a
  apply Fin.ext
  match a with
  | ⟨0, _⟩ => show win0_4.index t 0 * 128 + 1 * (j 0).val = (j 0).val; rw [hi.1]; omega
  | ⟨1, _⟩ => show win0_4.index t 1 * 1 + 1 * (j 1).val = (j 1).val; rw [hi.2]; omega

/-- Window 5 stages its whole array at every point. -/
theorem iblk5_eq (t : Fin cfg0.N) : (iblk m c 5 t : Vec F S256x128 .f32) = m ((c : Thread nD τ).loc main_arg5) := by
  have hi : win0_5.index t 0 = 0 ∧ win0_5.index t 1 = 0 := (by decide +kernel : ∀ t : Fin grid0.N, win0_5.index t 0 = 0 ∧ win0_5.index t 1 = 0) t
  funext j
  unfold iblk
  rw [View.read_apply]
  show V m c main_arg5 _ = m (c.tc.loc main_arg5) _
  congr 1
  funext a
  apply Fin.ext
  match a with
  | ⟨0, _⟩ => show win0_5.index t 0 * 256 + 1 * (j 0).val = (j 0).val; rw [hi.1]; omega
  | ⟨1, _⟩ => show win0_5.index t 1 * 128 + 1 * (j 1).val = (j 1).val; rw [hi.2]; omega

/-- Window 6 stages its whole array at every point. -/
theorem iblk6_eq (t : Fin cfg0.N) : (iblk m c 6 t : Vec F S128 .f32) = m ((c : Thread nD τ).loc main_arg6) := by
  have hi : win0_6.index t 0 = 0 := (by decide +kernel : ∀ t : Fin grid0.N, win0_6.index t 0 = 0) t
  funext j
  unfold iblk
  rw [View.read_apply]
  show V m c main_arg6 _ = m (c.tc.loc main_arg6) _
  congr 1
  funext a
  apply Fin.ext
  match a with
  | ⟨0, _⟩ => show win0_6.index t 0 * 128 + 1 * (j 0).val = (j 0).val; rw [hi]; omega

/-- Window 7 stages its whole array at every point. -/
theorem iblk7_eq (t : Fin cfg0.N) : (iblk m c 7 t : Vec F S128 .f32) = m ((c : Thread nD τ).loc main_arg7) := by
  have hi : win0_7.index t 0 = 0 := (by decide +kernel : ∀ t : Fin grid0.N, win0_7.index t 0 = 0) t
  funext j
  unfold iblk
  rw [View.read_apply]
  show V m c main_arg7 _ = m (c.tc.loc main_arg7) _
  congr 1
  funext a
  apply Fin.ext
  match a with
  | ⟨0, _⟩ => show win0_7.index t 0 * 128 + 1 * (j 0).val = (j 0).val; rw [hi]; omega

/-- Window 8 stages its whole array at every point. -/
theorem iblk8_eq (t : Fin cfg0.N) : (iblk m c 8 t : Vec F S128 .f32) = m ((c : Thread nD τ).loc main_arg8) := by
  have hi : win0_8.index t 0 = 0 := (by decide +kernel : ∀ t : Fin grid0.N, win0_8.index t 0 = 0) t
  funext j
  unfold iblk
  rw [View.read_apply]
  show V m c main_arg8 _ = m (c.tc.loc main_arg8) _
  congr 1
  funext a
  apply Fin.ext
  match a with
  | ⟨0, _⟩ => show win0_8.index t 0 * 128 + 1 * (j 0).val = (j 0).val; rw [hi]; omega

end Cert.Attn.Blocks

end
-- ==== Proof.Spec.lean ====
/-
  The function both programs compute, stated once over the extended reals, index by index.

  For a batch row b the additive-attention score of sequence position s is
      score b s = ∑ₕ tanh(∑_d hs[b,s,d]·Ua[d,h] + ∑_d ht[b,d]·Wa[d,h]) · Va[h,0].
  The softmax weights over s (shifted by a number M b, exponentiated, normalised by their sum) weigh the
  rows hs[b,s,·] into a context vector; the context joined with ht[b,·] goes through a dense layer with
  tanh and a layer normalisation over the 128 features (`rowOut`).
-/
import Idealize.ShloMosaic.PureOps.Ideal
import Idealize.ShloMosaic.Lib.ValueIdx

noncomputable section

open scoped BigOperators

namespace Cert.Attn

open Idealize.ShloMosaic Idealize.ShloMosaic.ValueIdx

/-- Arrays of extended reals over literal shapes. -/
abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-- The two float literals of the layer normalisation: the feature count 128 and the variance offset (the
    single-precision word nearest to one thousandth). -/
abbrev c128 : EReal := Ideal.ofBits .f32 0x43000000#32
abbrev ceps : EReal := Ideal.ofBits .f32 0x3A83126F#32

/-- The energy of feature h at (row, position): tanh of the two projections' sum. Stated over one row `u` of
    the sequence array (128 features) and one row `v` of the query array, so that a block of a tiling and the
    whole array read it alike. -/
def energy (Wa Ua : Arr2 128 128) (u v : Fin 128 → EReal) (h : Fin 128) : EReal :=
  Ideal.tanh ((∑ d : Fin 128, u d * Ua (ix2 d h)) + (∑ d : Fin 128, v d * Wa (ix2 d h)))

/-- The score of one sequence row `u` against one query row `v`. -/
def scoreRow (Wa Ua : Arr2 128 128) (Va : Arr2 128 1) (u v : Fin 128 → EReal) : EReal :=
  ∑ h : Fin 128, energy Wa Ua u v h * Va (ix2 h 0)

/-- The score of sequence position s for batch row b. -/
def score (ht : Arr2 1024 128) (hs : Arr3 1024 1024 128) (Wa Ua : Arr2 128 128) (Va : Arr2 128 1)
    (b s : Fin 1024) : EReal :=
  scoreRow Wa Ua Va (fun d => hs (ix3 b s d)) (fun d => ht (ix2 b d))

/-- The joined vector: 128 context features, then the 128 query features. -/
def joined (ctx v : Fin 128 → EReal) (k : Fin 256) : EReal :=
  if h : k.val < 128 then ctx ⟨k.val, h⟩ else v ⟨k.val - 128, by have := k.isLt; omega⟩

/-- The dense layer with tanh. -/
def attnVec (Wc : Arr2 256 128) (bc : Arr1 128) (ctx v : Fin 128 → EReal) (j : Fin 128) : EReal :=
  Ideal.tanh ((∑ k : Fin 256, joined ctx v k * Wc (ix2 k j)) + bc (ix1 j))

/-- The mean of a row of 128 numbers (the sum divided by the literal 128). -/
def mean128 (a : Fin 128 → EReal) : EReal := Ideal.div (∑ j : Fin 128, a j) c128

/-- One output row: the layer normalisation of the dense layer's row. -/
def rowOut (Wc : Arr2 256 128) (bc g be : Arr1 128) (ctx v : Fin 128 → EReal) (j : Fin 128) : EReal :=
  let a := attnVec Wc bc ctx v
  let mu := mean128 a
  let var := mean128 (fun j' => (a j' - mu) * (a j' - mu))
  (a j - mu) * Ideal.rsqrt (var + ceps) * g (ix1 j) + be (ix1 j)

/-- The reference's context: softmax weights with the shift `M`, each weight a quotient, then the weighted sum. -/
def ctxRef (x : Fin 1024 → EReal) (w : Fin 1024 → EReal) (M : EReal) : EReal :=
  ∑ s : Fin 1024, Ideal.div (Ideal.exp (x s - M)) (∑ s' : Fin 1024, Ideal.exp (x s' - M)) * w s

/-- The shift the reference uses: the maximum of the scores of a row (a fold of `max` from −∞, joined once more
    with −∞). -/
def shiftRef (x : Fin 1024 → EReal) : EReal :=
  max (Ideal.ofBits .f32 0xFF800000#32) ((Finset.univ : Finset (Fin 1024)).fold max (Ideal.ofBits .f32 0xFF800000#32) x)

/-- THE RESULT, index by index: row b, feature j. -/
def G (ht : Arr2 1024 128) (hs : Arr3 1024 1024 128) (Wa Ua : Arr2 128 128) (Va : Arr2 128 1) (Wc : Arr2 256 128)
    (bc g be : Arr1 128) : Arr2 1024 128 := fun i =>
  rowOut Wc bc g be
    (fun d => ctxRef (score ht hs Wa Ua Va (i 0)) (fun s => hs (ix3 (i 0) s d)) (shiftRef (score ht hs Wa Ua Va (i 0))))
    (fun d => ht (ix2 (i 0) d)) (i 1)

end Cert.Attn

end
-- ==== Proof.Payload.lean ====
/-
  The kernel body's pure values, read one element at a time over the extended reals.

  One grid point sees 128 batch rows, 128 sequence positions and 128 features. For a row r and a position q
  the score is  ∑ₕ tanh(∑_d hs[r,q,d]·Ua[d,h] + ∑_d ht[r,d]·Wa[d,h]) · Va[h,0]; the body keeps a running
  maximum m, rescales the running sum l and the running weighted sum by exp(m_old − m_new), and adds the new
  weights exp(score − m_new). Each lemma below states one of these values at an index.
-/
import proofs.«138197_j28973849379558_2_alg».proof.Proof.Gen.KernelIdeal.Skeleton
import proofs.«138197_j28973849379558_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Attn.Ker

open Cert.KernelIdeal Cert.KernelIdeal.Gen Idealize.ShloMosaic Idealize.ShloMosaic.ValueIdx Cert.Attn

/-! ## Layout operations at an index, by coordinates -/

section Layout
variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `[a, b]` cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, c]` reads, at `(p, q, d)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (d : Fin c) :
    broadcastTo ⟨3, ![a, b, c]⟩ v h (ix3 p q d) = v (ix3 p q (0 : Fin 1)) := by
  refine broadcastTo_apply v h (ix3 p q d) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Layout

/-! ## The reshapes between [128,128,128] and [16384,128], and the middle unit axis -/

section Reshapes
variable {α : Type}

/-- [128,128,128] read as [16384,128]: row `r * 128 + q` is the pair (r, q). -/
theorem shapeCast_rqd_md_apply (x : S128x128x128.Idx → α) (h : S128x128x128.ShapeCasts S16384x128) (r q d : Fin 128)
    (m : Fin 16384) (hm : m.val = r.val * 128 + q.val) :
    shapeCast S16384x128 x h (ix2 m d) = x (ix3 r q d) :=
  shapeCast_apply x h _ _ (by
    rw [Shape.rowMajor_val_three, Shape.rowMajor_val_two]
    show (r.val * 128 + q.val) * 128 + d.val = m.val * 128 + d.val
    rw [hm])

/-- [16384,128] read as [128,128,128]: the pair (r, q) is row `r * 128 + q`. -/
theorem shapeCast_md_rqd_apply (x : S16384x128.Idx → α) (h : S16384x128.ShapeCasts S128x128x128) (r q d : Fin 128)
    (m : Fin 16384) (hm : m.val = r.val * 128 + q.val) :
    shapeCast S128x128x128 x h (ix3 r q d) = x (ix2 m d) :=
  shapeCast_apply x h _ _ (by
    rw [Shape.rowMajor_val_three, Shape.rowMajor_val_two]
    show m.val * 128 + d.val = (r.val * 128 + q.val) * 128 + d.val
    rw [hm])

/-- The column [16384,1] read as [128,128]. -/
theorem shapeCast_m1_rq_apply (x : S16384x1.Idx → α) (h : S16384x1.ShapeCasts S128x128) (r q : Fin 128)
    (m : Fin 16384) (hm : m.val = r.val * 128 + q.val) :
    shapeCast S128x128 x h (ix2 r q) = x (ix2 m (0 : Fin 1)) :=
  shapeCast_apply x h _ _ (by
    rw [Shape.rowMajor_val_two, Shape.rowMajor_val_two]
    show m.val * 1 + 0 = r.val * 128 + q.val
    rw [hm, Nat.mul_one, Nat.add_zero])

/-- `[a, c]` cast to `[a, 1, c]` reads, at `(p, u, d)`, the operand at `(p, d)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- `[a, 1, c]` broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

end Reshapes

/-! ## The three block products at an index

Each is the sum over the one contracted coordinate of the operands' products: the contraction index is carried to
its coordinate, and the operand indices are read off the dimension numbers. -/

section Products

/-- [128,128] · [128,128] into a zero accumulator: the operand indices off the contracted axis. -/
theorem matmul_q_lhs0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl
theorem matmul_q_rhs1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl
theorem matmul_q_apply (A : FVec Ideal S128x128 .f32) (B : FVec Ideal S128x128 .f32) (m : Fin 128) (h : Fin 128) :
    matmul dot_S128x128_S128x128_S128x128_1_0_0_1_n_n (some .fp32) A B (constant S128x128 .f32 0x00000000#32) (ix2 m h)
      = ∑ d : Fin 128, A (ix2 m d) * B (ix2 d h) := by
  simp only [matmul]
  rw [Ideal.matmul_constant_zero_apply,
    ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 m h)
      ((contrEquiv1 dot_S128x128_S128x128_S128x128_1_0_0_1_n_n 128 rfl rfl).symm k) = ix2 m k :=
    funext fun a => Fin.ext (by
      match a with
      | ⟨0, _⟩ => exact matmul_q_lhs0 _ _
      | ⟨1, _⟩ => exact (dot_S128x128_S128x128_S128x128_1_0_0_1_n_n.lhsIdx_val_of_single rfl _ _).trans hk)
  have er : dot_S128x128_S128x128_S128x128_1_0_0_1_n_n.rhsIdx (ix2 m h)
      ((contrEquiv1 dot_S128x128_S128x128_S128x128_1_0_0_1_n_n 128 rfl rfl).symm k) = ix2 k h :=
    funext fun a => Fin.ext (by
      match a with
      | ⟨0, _⟩ => exact (dot_S128x128_S128x128_S128x128_1_0_0_1_n_n.rhsIdx_val_of_single rfl _ _).trans hk
      | ⟨1, _⟩ => exact matmul_q_rhs1 _ _)
  rw [el, er]

/-- [16384,128] · [128,128] into a zero accumulator: the operand indices off the contracted axis. -/
theorem matmul_s_lhs0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl
theorem matmul_s_rhs1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl
theorem matmul_s_apply (A : FVec Ideal S16384x128 .f32) (B : FVec Ideal S128x128 .f32) (m : Fin 16384) (h : Fin 128) :
    matmul dot_S16384x128_S128x128_S16384x128_1_0_0_1_n_n (some .fp32) A B (constant S16384x128 .f32 0x00000000#32) (ix2 m h)
      = ∑ d : Fin 128, A (ix2 m d) * B (ix2 d h) := by
  simp only [matmul]
  rw [Ideal.matmul_constant_zero_apply,
    ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 m h)
      ((contrEquiv1 dot_S16384x128_S128x128_S16384x128_1_0_0_1_n_n 128 rfl rfl).symm k) = ix2 m k :=
    funext fun a => Fin.ext (by
      match a with
      | ⟨0, _⟩ => exact matmul_s_lhs0 _ _
      | ⟨1, _⟩ => exact (dot_S16384x128_S128x128_S16384x128_1_0_0_1_n_n.lhsIdx_val_of_single rfl _ _).trans hk)
  have er : dot_S16384x128_S128x128_S16384x128_1_0_0_1_n_n.rhsIdx (ix2 m h)
      ((contrEquiv1 dot_S16384x128_S128x128_S16384x128_1_0_0_1_n_n 128 rfl rfl).symm k) = ix2 k h :=
    funext fun a => Fin.ext (by
      match a with
      | ⟨0, _⟩ => exact (dot_S16384x128_S128x128_S16384x128_1_0_0_1_n_n.rhsIdx_val_of_single rfl _ _).trans hk
      | ⟨1, _⟩ => exact matmul_s_rhs1 _ _)
  rw [el, er]

/-- [16384,128] · [128,1] into a zero accumulator: the operand indices off the contracted axis. -/
theorem matmul_v_lhs0 (i : S16384x1.Idx) (q : dot_S16384x128_S128x1_S16384x1_1_0_0_1_n_n.contr.Idx) :
    (dot_S16384x128_S128x1_S16384x1_1_0_0_1_n_n.lhsIdx i q 0).val = (i 0).val := by
  unfold DotDims.lhsIdx
  rw [dif_neg (show ¬(0 : Fin S16384x128.rank) ∈ dot_S16384x128_S128x1_S16384x1_1_0_0_1_n_n.lhsBatch by decide),
    dif_pos (show (0 : Fin S16384x128.rank) ∈ dot_S16384x128_S128x1_S16384x1_1_0_0_1_n_n.lhsNonContracting by decide)]
  rfl
theorem matmul_v_rhs1 (i : S16384x1.Idx) (q : dot_S16384x128_S128x1_S16384x1_1_0_0_1_n_n.contr.Idx) :
    (dot_S16384x128_S128x1_S16384x1_1_0_0_1_n_n.rhsIdx i q 1).val = (i 1).val := by
  unfold DotDims.rhsIdx
  rw [dif_neg (show ¬(1 : Fin S128x1.rank) ∈ dot_S16384x128_S128x1_S16384x1_1_0_0_1_n_n.rhsBatch by decide),
    dif_pos (show (1 : Fin S128x1.rank) ∈ dot_S16384x128_S128x1_S16384x1_1_0_0_1_n_n.rhsNonContracting by decide)]
  rfl
theorem matmul_v_apply (A : FVec Ideal S16384x128 .f32) (B : FVec Ideal S128x1 .f32) (m : Fin 16384) (h : Fin 1) :
    matmul dot_S16384x128_S128x1_S16384x1_1_0_0_1_n_n (some .fp32) A B (constant S16384x1 .f32 0x00000000#32) (ix2 m h)
      = ∑ d : Fin 128, A (ix2 m d) * B (ix2 d h) := by
  simp only [matmul]
  rw [Ideal.matmul_constant_zero_apply,
    ← Equiv.sum_comp (contrEquiv1 dot_S16384x128_S128x1_S16384x1_1_0_0_1_n_n 128 rfl rfl).symm]
  refine Finset.sum_congr rfl fun k _ => ?_
  have hk := contrEquiv1_symm_val dot_S16384x128_S128x1_S16384x1_1_0_0_1_n_n 128 rfl rfl k
  have el : dot_S16384x128_S128x1_S16384x1_1_0_0_1_n_n.lhsIdx (ix2 m h)
      ((contrEquiv1 dot_S16384x128_S128x1_S16384x1_1_0_0_1_n_n 128 rfl rfl).symm k) = ix2 m k :=
    funext fun a => Fin.ext (by
      match a with
      | ⟨0, _⟩ => exact matmul_v_lhs0 _ _
      | ⟨1, _⟩ => exact (dot_S16384x128_S128x1_S16384x1_1_0_0_1_n_n.lhsIdx_val_of_single rfl _ _).trans hk)
  have er : dot_S16384x128_S128x1_S16384x1_1_0_0_1_n_n.rhsIdx (ix2 m h)
      ((contrEquiv1 dot_S16384x128_S128x1_S16384x1_1_0_0_1_n_n 128 rfl rfl).symm k) = ix2 k h :=
    funext fun a => Fin.ext (by
      match a with
      | ⟨0, _⟩ => exact (dot_S16384x128_S128x1_S16384x1_1_0_0_1_n_n.rhsIdx_val_of_single rfl _ _).trans hk
      | ⟨1, _⟩ => exact matmul_v_rhs1 _ _)
  rw [el, er]

end Products

/-! ## Identity shape casts and the three initial splats -/

section Simple

theorem pay1_eq (v : FVec Ideal S128x1 .f32) : k0_pay1 v = v := by
  unfold k0_pay1
  exact shapeCast_self v _

theorem pay2_eq (v : FVec Ideal S128x1 .f32) : k0_pay2 v = v := by
  unfold k0_pay2
  exact shapeCast_self v _

/-- The running maximum starts at −∞. -/
theorem pay5_apply (i : S128x1.Idx) : k0_pay5 (F := Ideal) i = Ideal.ofBits .f32 0xFF800000#32 := by
  unfold k0_pay5
  rw [shapeCast_self]
  rfl

/-- The running sum starts at zero. -/
theorem pay6_apply (i : S128x1.Idx) : k0_pay6 (F := Ideal) i = 0 := by
  unfold k0_pay6
  rw [shapeCast_self]
  exact Ideal.ofBits_zero_f32

/-- The running weighted sum starts at zero. -/
theorem pay7_apply (i : S128x128.Idx) : k0_pay7 (F := Ideal) i = 0 := by
  unfold k0_pay7
  rw [shapeCast_self]
  exact Ideal.ofBits_zero_f32

end Simple

/-! ## The pointwise values -/

section Pointwise

/-- The factor that rescales the running sums: exp(m_old − m_new). -/
theorem pay10_apply (v3 : Vec Ideal S128x128 .f32) (v4 : Vec Ideal S128x128x128 .f32) (v5 v8 : Vec Ideal S128x128 .f32)
    (v16 v19 : Vec Ideal S128x1 .f32) (r : Fin 128) :
    k0_pay10 v3 v4 v5 v8 v16 v19 (ix2 r 0)
      = Ideal.exp (v19 (ix2 r 0) - k0_pay9 v3 v4 v5 v8 v16 v19 (ix2 r 0)) := by
  unfold k0_pay10
  rfl

/-- The new weights: exp(score − m_new). -/
theorem pay11_apply (v3 : Vec Ideal S128x128 .f32) (v4 : Vec Ideal S128x128x128 .f32) (v5 v8 : Vec Ideal S128x128 .f32)
    (v16 v19 : Vec Ideal S128x1 .f32) (r q : Fin 128) :
    k0_pay11 v3 v4 v5 v8 v16 v19 (ix2 r q)
      = Ideal.exp (k0_pay8 v3 v4 v5 v8 v16 (ix2 r q) - k0_pay9 v3 v4 v5 v8 v16 v19 (ix2 r 0)) := by
  unfold k0_pay11
  show Ideal.exp (k0_pay8 v3 v4 v5 v8 v16 (ix2 r q)
    - broadcastTo S128x128 (k0_pay9 v3 v4 v5 v8 v16 v19) broadcasts_S128x1_S128x128 (ix2 r q)) = _
  rw [broadcastTo_a1_ab_apply]

/-- The weights laid along the feature axis. -/
theorem pay13_apply (v3 : Vec Ideal S128x128 .f32) (v4 : Vec Ideal S128x128x128 .f32) (v5 v8 : Vec Ideal S128x128 .f32)
    (v16 v19 : Vec Ideal S128x1 .f32) (r q d : Fin 128) :
    k0_pay13 v3 v4 v5 v8 v16 v19 (ix3 r q d) = k0_pay11 v3 v4 v5 v8 v16 v19 (ix2 r q) := by
  unfold k0_pay13
  refine (broadcastTo_ab1_abc_apply _ _ r q d).trans ?_
  exact shapeCast_ab_ab1_apply _ _ r q 0

end Pointwise

/-! ## The score -/

section Score

/-- The block's score at (r, q) is the additive-attention score of sequence row (r, q, ·) against query row (r, ·). -/
theorem pay8_apply (v3 : Vec Ideal S128x128 .f32) (v4 : Vec Ideal S128x128x128 .f32) (v5 v8 : Vec Ideal S128x128 .f32)
    (v16 : Vec Ideal S128x1 .f32) (r q : Fin 128) :
    k0_pay8 v3 v4 v5 v8 v16 (ix2 r q)
      = scoreRow v5 v8 v16 (fun d => v4 (ix3 r q d)) (fun d => v3 (ix2 r d)) := by
  have hm : r.val * 128 + q.val < 16384 := by have := r.isLt; have := q.isLt; omega
  unfold k0_pay8 scoreRow energy
  dsimp only
  refine (shapeCast_m1_rq_apply _ _ r q ⟨r.val * 128 + q.val, hm⟩ rfl).trans ?_
  refine (matmul_v_apply _ _ _ _).trans ?_
  refine Finset.sum_congr rfl fun h _ => ?_
  refine congrArg (· * v16 (ix2 h 0)) ?_
  refine (shapeCast_rqd_md_apply _ _ r q h ⟨_, hm⟩ rfl).trans ?_
  show Ideal.tanh (_ + _) = Ideal.tanh (_ + _)
  refine congrArg Ideal.tanh ?_
  refine congrArg₂ (· + ·) ?_ ?_
  · refine (shapeCast_md_rqd_apply _ _ r q h ⟨_, hm⟩ rfl).trans ?_
    refine (matmul_s_apply _ _ _ _).trans ?_
    refine Finset.sum_congr rfl fun d _ => ?_
    refine congrArg (· * v8 (ix2 d h)) ?_
    exact shapeCast_rqd_md_apply _ _ r q d ⟨_, hm⟩ rfl
  · refine (broadcastTo_a1c_abc_apply _ _ r q h).trans ?_
    refine (shapeCast_ac_a1c_apply _ _ r 0 h).trans ?_
    exact matmul_q_apply _ _ r h

end Score

/-! ## The reductions over the sequence positions of the block -/

section Reductions

/-- The row maximum, joined with the running maximum. -/
theorem pay9_apply (v3 : Vec Ideal S128x128 .f32) (v4 : Vec Ideal S128x128x128 .f32) (v5 v8 : Vec Ideal S128x128 .f32)
    (v16 v19 : Vec Ideal S128x1 .f32) (r : Fin 128) :
    k0_pay9 v3 v4 v5 v8 v16 v19 (ix2 r 0)
      = max (v19 (ix2 r 0)) ((Finset.univ : Finset (Fin 128)).fold max (Ideal.ofBits .f32 0xFF800000#32)
          (fun q => k0_pay8 v3 v4 v5 v8 v16 (ix2 r q))) := by
  unfold k0_pay9
  generalize k0_pay8 v3 v4 v5 v8 v16 = X
  refine congrArg (max (v19 (ix2 r 0))) ?_
  refine (shapeCast_a_a1_apply _ _ r 0).trans ?_
  refine (Ideal.multiReduction_maximumf_single X 0xFF800000#32 reduces_S128x128_S128 (.inl rfl) rfl (ix1 r)).trans ?_
  show (Finset.univ : Finset (Fin 128)).fold max (Ideal.ofBits .f32 0xFF800000#32)
      (fun q : Fin 128 => X (reduces_S128x128_S128.lift (ix1 r) q)) = _
  refine congrArg (fun f => (Finset.univ : Finset (Fin 128)).fold max (Ideal.ofBits .f32 0xFF800000#32) f) ?_
  funext q
  exact congrArg X (funext fun a => Fin.ext (by match a with | ⟨0, _⟩ => rfl | ⟨1, _⟩ => rfl))

/-- The running sum of the weights. -/
theorem pay12_apply (v3 : Vec Ideal S128x128 .f32) (v4 : Vec Ideal S128x128x128 .f32) (v5 v8 : Vec Ideal S128x128 .f32)
    (v16 v19 v20 : Vec Ideal S128x1 .f32) (r : Fin 128) :
    k0_pay12 v3 v4 v5 v8 v16 v19 v20 (ix2 r 0)
      = k0_pay10 v3 v4 v5 v8 v16 v19 (ix2 r 0) * v20 (ix2 r 0) + ∑ q : Fin 128, k0_pay11 v3 v4 v5 v8 v16 v19 (ix2 r q) := by
  unfold k0_pay12
  generalize k0_pay11 v3 v4 v5 v8 v16 v19 = X
  refine congrArg (k0_pay10 v3 v4 v5 v8 v16 v19 (ix2 r 0) * v20 (ix2 r 0) + ·) ?_
  refine (shapeCast_a_a1_apply _ _ r 0).trans ?_
  refine (Ideal.multiReduction_add_single X 0x00000000#32 reduces_S128x128_S128 (.inl rfl) rfl (ix1 r)).trans ?_
  show ∑ q : Fin 128, X (reduces_S128x128_S128.lift (ix1 r) q) = _
  refine Finset.sum_congr rfl fun q _ => ?_
  exact congrArg X (funext fun a => Fin.ext (by match a with | ⟨0, _⟩ => rfl | ⟨1, _⟩ => rfl))

/-- The running weighted sum of the sequence rows. -/
theorem pay3_apply (v4 : Vec Ideal S128x128x128 .f32) (v25 : FVec Ideal S128x1 .f32) (v34 : FVec Ideal S128x128x128 .f32)
    (v37 : Vec Ideal S128x128 .f32) (r d : Fin 128) :
    k0_pay3 v4 v25 v34 v37 (ix2 r d)
      = v25 (ix2 r 0) * v37 (ix2 r d) + ∑ q : Fin 128, v34 (ix3 r q d) * v4 (ix3 r q d) := by
  unfold k0_pay3
  rw [shapeCast_self]
  show broadcastTo S128x128 v25 broadcasts_S128x1_S128x128 (ix2 r d) * v37 (ix2 r d)
    + multiReduction .add [1] S128x128 (mulf v34 v4) 0x00000000#32 reduces_S128x128x128_S128x128 (.inl rfl) rfl (ix2 r d) = _
  rw [broadcastTo_a1_ab_apply]
  refine congrArg (v25 (ix2 r 0) * v37 (ix2 r d) + ·) ?_
  refine (Ideal.multiReduction_add_single (mulf v34 v4) 0x00000000#32 reduces_S128x128x128_S128x128 (.inl rfl) rfl (ix2 r d)).trans ?_
  show ∑ q : Fin 128, (mulf v34 v4) (reduces_S128x128x128_S128x128.lift (ix2 r d) q) = _
  refine Finset.sum_congr rfl fun q _ => ?_
  have e : reduces_S128x128x128_S128x128.lift (ix2 r d) q = ix3 r q d :=
    funext fun a => Fin.ext (by match a with | ⟨0, _⟩ => rfl | ⟨1, _⟩ => rfl | ⟨2, _⟩ => rfl)
  rw [e]
  rfl

end Reductions

end Cert.Attn.Ker

end
-- ==== Proof.Softmax.lean ====
/-
  Softmax-weighted sums over the extended reals, when the data are real numbers.

  Write e_M(s) = exp(x s − M). For any two real shifts M, M' one has e_M'(s) = exp(M − M')·e_M(s), so
    · a running pair (∑_{s<n} e_M(s), ∑_{s<n} e_M(s)·w s) is carried to the shift M' by one multiplication with
      exp(M − M'), after which a further tile of T terms at the shift M' is simply added (`step_sum`, `step_wsum`);
    · the quotient (∑ e_M(s)·w s) / (∑ e_M(s)) does not depend on M, and it is the sum of the normalised weights
      e_M(s)/∑e_M times w s (`quotient_eq`).
  Neither fact needs M to be the maximum of the x s: it only has to be a real number.  A fold of `max` from −∞ over
  finitely many (at least one) real numbers is a real number (`fold_max_real`).
-/
import Idealize.ShloMosaic.PureOps.Ideal

noncomputable section

open scoped BigOperators

namespace Cert.Attn.Soft

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a difference of two reals, on the extended reals. -/
theorem exp_coe_sub (a b : ℝ) : Ideal.exp ((a : EReal) - (b : EReal)) = ((Real.exp (a - b) : ℝ) : EReal) := by
  rw [← EReal.coe_sub]; rfl

/-- The single-precision word of −∞ denotes the bottom of the extended reals. -/
theorem negInf_eq : Ideal.ofBits .f32 0xFF800000#32 = (⊥ : EReal) := by
  simp [Ideal.ofBits, Ideal.ieee]

/-- A quotient of two reals with a nonzero divisor, on the extended reals. -/
theorem div_coe_coe (a l : ℝ) (hl : l ≠ 0) : Ideal.div (a : EReal) (l : EReal) = ((a / l : ℝ) : EReal) := by
  rw [Ideal.div_coe hl, ← EReal.coe_mul]; congr 1; field_simp

/-- A fold of `max` from −∞ over a nonempty finite family of reals is a real. -/
theorem fold_max_real {ι : Type*} [Fintype ι] [Nonempty ι] (f : ι → ℝ) :
    ∃ r : ℝ, (Finset.univ : Finset ι).fold max (⊥ : EReal) (fun k => (f k : EReal)) = (r : EReal) := by
  obtain ⟨k0⟩ := ‹Nonempty ι›
  have h1 : ((f k0 : ℝ) : EReal) ≤ (Finset.univ : Finset ι).fold max (⊥ : EReal) (fun k => (f k : EReal)) :=
    (Finset.le_fold_max _).mpr (Or.inr ⟨k0, Finset.mem_univ _, le_refl _⟩)
  have h2 : (Finset.univ : Finset ι).fold max (⊥ : EReal) (fun k => (f k : EReal)) < ⊤ :=
    (Finset.fold_max_lt _).mpr ⟨bot_lt_top, fun k _ => EReal.coe_lt_top _⟩
  have hb : (Finset.univ : Finset ι).fold max (⊥ : EReal) (fun k => (f k : EReal)) ≠ ⊥ :=
    fun h => absurd (h ▸ h1) (not_le.mpr (EReal.bot_lt_coe _))
  exact ⟨_, (EReal.coe_toReal h2.ne hb).symm⟩

open Finset in
/-- Carrying the running sum from the shift `mr` to the shift `mr'` and adding a tile of `T` terms. -/
theorem step_sum (mr mr' : ℝ) (n T : ℕ) (x : ℕ → ℝ) :
    Ideal.exp ((mr : EReal) - (mr' : EReal)) * ((∑ s ∈ range n, Real.exp (x s - mr) : ℝ) : EReal)
      + ∑ q : Fin T, Ideal.exp ((x (n + q.val) : EReal) - (mr' : EReal))
    = ((∑ s ∈ range (n + T), Real.exp (x s - mr') : ℝ) : EReal) := by
  simp only [exp_coe_sub]
  rw [← coe_sum, ← EReal.coe_mul, ← EReal.coe_add]
  congr 1
  rw [sum_range_add, mul_sum, Fin.sum_univ_eq_sum_range (fun q => Real.exp (x (n + q) - mr')) T]
  congr 1
  apply sum_congr rfl; intro s _
  rw [← Real.exp_add]; congr 1; ring

open Finset in
/-- The same for the weighted running sum. -/
theorem step_wsum (mr mr' : ℝ) (n T : ℕ) (x w : ℕ → ℝ) :
    Ideal.exp ((mr : EReal) - (mr' : EReal)) * ((∑ s ∈ range n, Real.exp (x s - mr) * w s : ℝ) : EReal)
      + ∑ q : Fin T, Ideal.exp ((x (n + q.val) : EReal) - (mr' : EReal)) * (w (n + q.val) : EReal)
    = ((∑ s ∈ range (n + T), Real.exp (x s - mr') * w s : ℝ) : EReal) := by
  simp only [exp_coe_sub, ← EReal.coe_mul]
  rw [← coe_sum, ← EReal.coe_add]
  congr 1
  rw [sum_range_add, mul_sum, Fin.sum_univ_eq_sum_range (fun q => Real.exp (x (n + q) - mr') * w (n + q)) T]
  congr 1
  apply sum_congr rfl; intro s _
  rw [← mul_assoc, ← Real.exp_add]; congr 2; ring

open Finset in
/-- The first tile: whatever the rescaling factor `a` is, it multiplies a zero. -/
theorem first_sum (a : EReal) (mr' : ℝ) (T : ℕ) (x : ℕ → ℝ) :
    a * (0 : EReal) + ∑ q : Fin T, Ideal.exp ((x q.val : EReal) - (mr' : EReal))
    = ((∑ s ∈ range T, Real.exp (x s - mr') : ℝ) : EReal) := by
  simp only [exp_coe_sub]
  rw [mul_zero, zero_add, ← coe_sum, Fin.sum_univ_eq_sum_range (fun q => Real.exp (x q - mr')) T]

open Finset in
theorem first_wsum (a : EReal) (mr' : ℝ) (T : ℕ) (x w : ℕ → ℝ) :
    a * (0 : EReal) + ∑ q : Fin T, Ideal.exp ((x q.val : EReal) - (mr' : EReal)) * (w q.val : EReal)
    = ((∑ s ∈ range T, Real.exp (x s - mr') * w s : ℝ) : EReal) := by
  simp only [exp_coe_sub, ← EReal.coe_mul]
  rw [mul_zero, zero_add, ← coe_sum, Fin.sum_univ_eq_sum_range (fun q => Real.exp (x q - mr') * w q) T]

open Finset in
/-- The quotient of the weighted sum by the sum is the sum of the normalised weights times the values, at any
    two real shifts. -/
theorem quotient_eq (mr M : ℝ) (N : ℕ) (hN : 0 < N) (x w : ℕ → ℝ) :
    Ideal.div ((∑ s ∈ range N, Real.exp (x s - mr) * w s : ℝ) : EReal) ((∑ s ∈ range N, Real.exp (x s - mr) : ℝ) : EReal)
    = ∑ s : Fin N, Ideal.div (Ideal.exp ((x s.val : EReal) - (M : EReal)))
        (∑ s' : Fin N, Ideal.exp ((x s'.val : EReal) - (M : EReal))) * (w s.val : EReal) := by
  have hne : (range N).Nonempty := ⟨0, mem_range.mpr hN⟩
  have hL : 0 < ∑ s ∈ range N, Real.exp (x s - mr) := sum_pos (fun s _ => Real.exp_pos _) hne
  have hL' : 0 < ∑ s ∈ range N, Real.exp (x s - M) := sum_pos (fun s _ => Real.exp_pos _) hne
  have e1 : ∑ s' : Fin N, Ideal.exp ((x s'.val : EReal) - (M : EReal)) = ((∑ s ∈ range N, Real.exp (x s - M) : ℝ) : EReal) := by
    simp only [exp_coe_sub]
    rw [← coe_sum, Fin.sum_univ_eq_sum_range (fun q => Real.exp (x q - M)) N]
  rw [e1, div_coe_coe _ _ hL.ne']
  simp only [exp_coe_sub, div_coe_coe _ _ hL'.ne', ← EReal.coe_mul]
  rw [← coe_sum, Fin.sum_univ_eq_sum_range (fun q => Real.exp (x q - M) / (∑ s ∈ range N, Real.exp (x s - M)) * w q) N]
  congr 1
  have hA : ∑ s ∈ range N, Real.exp (x s - mr) * w s = Real.exp (M - mr) * ∑ s ∈ range N, Real.exp (x s - M) * w s := by
    rw [mul_sum]; apply sum_congr rfl; intro s _
    rw [← mul_assoc, ← Real.exp_add]; congr 2; ring
  have hB : ∑ s ∈ range N, Real.exp (x s - mr) = Real.exp (M - mr) * ∑ s ∈ range N, Real.exp (x s - M) := by
    rw [mul_sum]; apply sum_congr rfl; intro s _
    rw [← Real.exp_add]; congr 1; ring
  rw [hA, hB, mul_div_mul_left _ _ (Real.exp_pos _).ne', sum_div]
  apply sum_congr rfl; intro s _
  ring

end Cert.Attn.Soft

end
-- ==== Proof.Online.lean ====
/-
  The running shift, running sum and running weighted sum that the kernel carries along the eight sequence
  tiles of a batch row, and the output block it writes at the last tile.

  Under finite inputs every score is a real number x s and every sequence entry a real number w s.  After the
  tile that ends at position n the three carried values of a block row are, for SOME real shift M (the kernel
  takes a running maximum, but nothing below uses that),
        M,    ∑_{s<n} exp(x s − M),    ∑_{s<n} exp(x s − M)·w s      (one such sum per feature).
  The first tile starts from (−∞, 0, 0); every later tile rescales by exp(M − M') and adds its 128 terms.  After
  the eighth tile the quotient of the weighted sum by the sum is the reference's softmax-weighted sum, whatever
  the shifts are, and the epilogue (dense layer, tanh, layer normalisation) is the same function of that context
  row on both sides.
-/
import proofs.«138197_j28973849379558_2_alg».proof.Proof.Pieces
import proofs.«138197_j28973849379558_2_alg».proof.Proof.Blocks
import proofs.«138197_j28973849379558_2_alg».proof.Proof.Payload
import proofs.«138197_j28973849379558_2_alg».proof.Proof.Softmax
import proofs.«138197_j28973849379558_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.Attn.Online

open Cert.KernelIdeal Cert.KernelIdeal.Gen Cert.Attn Cert.Attn.Blocks Finset

/-! ## One block row through one tile, over variables -/

section Row

variable (B0 : Vec Ideal S128x128 .f32) (B1 : Vec Ideal S128x128x128 .f32) (B2 B3 : Vec Ideal S128x128 .f32) (B4 : Vec Ideal S128x1 .f32)

/-- A later tile: from the carried values at the shift `mr` over the first `n0` positions to the carried values at
    a new real shift over `n0 + 128` positions. -/
theorem step_row (xs0 xs1 : Vec Ideal S128x1 .f32) (xs2 : Vec Ideal S128x128 .f32) (r : Fin 128) (n0 : ℕ)
    (x : ℕ → ℝ) (w : Fin 128 → ℕ → ℝ) (mr : ℝ)
    (h0 : xs0 (ix2 r 0) = ((mr : ℝ) : EReal))
    (h1 : xs1 (ix2 r 0) = ((∑ s ∈ range n0, Real.exp (x s - mr) : ℝ) : EReal))
    (h2 : ∀ d : Fin 128, xs2 (ix2 r d) = ((∑ s ∈ range n0, Real.exp (x s - mr) * w d s : ℝ) : EReal))
    (hx : ∀ q : Fin 128, k0_pay8 B0 B1 B2 B3 B4 (ix2 r q) = ((x (n0 + q.val) : ℝ) : EReal))
    (hw : ∀ q d : Fin 128, B1 (ix3 r q d) = ((w d (n0 + q.val) : ℝ) : EReal)) :
    ∃ mr' : ℝ, k0_pay1 (k0_pay9 B0 B1 B2 B3 B4 xs0) (ix2 r 0) = ((mr' : ℝ) : EReal)
      ∧ k0_pay2 (k0_pay12 B0 B1 B2 B3 B4 xs0 xs1) (ix2 r 0) = ((∑ s ∈ range (n0 + 128), Real.exp (x s - mr') : ℝ) : EReal)
      ∧ ∀ d : Fin 128, k0_pay3 B1 (k0_pay10 B0 B1 B2 B3 B4 xs0) (k0_pay13 B0 B1 B2 B3 B4 xs0) xs2 (ix2 r d)
          = ((∑ s ∈ range (n0 + 128), Real.exp (x s - mr') * w d s : ℝ) : EReal) := by
  obtain ⟨tm, htm⟩ := Soft.fold_max_real (fun q : Fin 128 => x (n0 + q.val))
  have e9 : k0_pay9 B0 B1 B2 B3 B4 xs0 (ix2 r 0) = ((max mr tm : ℝ) : EReal) := by
    rw [Ker.pay9_apply, h0]
    simp only [hx]
    rw [Soft.negInf_eq, htm]
    exact (EReal.coe_strictMono.monotone.map_max).symm
  refine ⟨max mr tm, by rw [Ker.pay1_eq]; exact e9, ?_, ?_⟩
  · rw [Ker.pay2_eq, Ker.pay12_apply, Ker.pay10_apply, h0, e9, h1]
    simp only [Ker.pay11_apply, hx, e9]
    exact Soft.step_sum mr (max mr tm) n0 128 x
  · intro d
    rw [Ker.pay3_apply, Ker.pay10_apply, h0, e9, h2 d]
    simp only [Ker.pay13_apply, Ker.pay11_apply, hx, e9, hw]
    exact Soft.step_wsum mr (max mr tm) n0 128 x (w d)

/-- The first tile: from the reset values (−∞, 0, 0). -/
theorem first_row (r : Fin 128) (x : ℕ → ℝ) (w : Fin 128 → ℕ → ℝ)
    (hx : ∀ q : Fin 128, k0_pay8 B0 B1 B2 B3 B4 (ix2 r q) = ((x q.val : ℝ) : EReal))
    (hw : ∀ q d : Fin 128, B1 (ix3 r q d) = ((w d q.val : ℝ) : EReal)) :
    ∃ mr' : ℝ, k0_pay1 (k0_pay9 B0 B1 B2 B3 B4 (k0_pay5 (F := Ideal))) (ix2 r 0) = ((mr' : ℝ) : EReal)
      ∧ k0_pay2 (k0_pay12 B0 B1 B2 B3 B4 (k0_pay5 (F := Ideal)) (k0_pay6 (F := Ideal))) (ix2 r 0) = ((∑ s ∈ range 128, Real.exp (x s - mr') : ℝ) : EReal)
      ∧ ∀ d : Fin 128, k0_pay3 B1 (k0_pay10 B0 B1 B2 B3 B4 (k0_pay5 (F := Ideal))) (k0_pay13 B0 B1 B2 B3 B4 (k0_pay5 (F := Ideal))) (k0_pay7 (F := Ideal)) (ix2 r d)
          = ((∑ s ∈ range 128, Real.exp (x s - mr') * w d s : ℝ) : EReal) := by
  obtain ⟨tm, htm⟩ := Soft.fold_max_real (fun q : Fin 128 => x q.val)
  have e9 : k0_pay9 B0 B1 B2 B3 B4 (k0_pay5 (F := Ideal)) (ix2 r 0) = ((tm : ℝ) : EReal) := by
    rw [Ker.pay9_apply, Ker.pay5_apply]
    simp only [hx]
    rw [Soft.negInf_eq, htm, max_eq_right bot_le]
  refine ⟨tm, by rw [Ker.pay1_eq]; exact e9, ?_, ?_⟩
  · rw [Ker.pay2_eq, Ker.pay12_apply, Ker.pay6_apply]
    simp only [Ker.pay11_apply, hx, e9]
    exact Soft.first_sum _ tm 128 x
  · intro d
    rw [Ker.pay3_apply, Ker.pay7_apply]
    simp only [Ker.pay13_apply, Ker.pay11_apply, hx, e9, hw]
    exact Soft.first_wsum _ tm 128 x (w d)

end Row

/-! ## The arrays, and the real numbers behind them -/

variable (m : (ℓ : Loc nD τ sig) → Buf (Elt Ideal) ℓ) (c : Dev nD)

abbrev HT : Arr2 1024 128 := m ((c : Thread nD τ).loc main_arg0)
abbrev HS : Arr3 1024 1024 128 := m ((c : Thread nD τ).loc main_arg1)
abbrev WA : Arr2 128 128 := m ((c : Thread nD τ).loc main_arg2)
abbrev UA : Arr2 128 128 := m ((c : Thread nD τ).loc main_arg3)
abbrev VA : Arr2 128 1 := m ((c : Thread nD τ).loc main_arg4)
abbrev WC : Arr2 256 128 := m ((c : Thread nD τ).loc main_arg5)
abbrev BC : Arr1 128 := m ((c : Thread nD τ).loc main_arg6)
abbrev GA : Arr1 128 := m ((c : Thread nD τ).loc main_arg7)
abbrev BE : Arr1 128 := m ((c : Thread nD τ).loc main_arg8)

/-- The scores of batch row b. -/
abbrev sc (b : Fin 1024) : Fin 1024 → EReal := score (HT m c) (HS m c) (WA m c) (UA m c) (VA m c) b

/-- The result array. -/
abbrev GG : Arr2 1024 128 := G (HT m c) (HS m c) (WA m c) (UA m c) (VA m c) (WC m c) (BC m c) (GA m c) (BE m c)

theorem tanh_real (y : EReal) : ∃ r : ℝ, Ideal.tanh y = ((r : ℝ) : EReal) := by
  induction y using EReal.rec with
  | bot => exact ⟨-1, rfl⟩
  | top => exact ⟨1, rfl⟩
  | coe a => exact ⟨Real.tanh a, rfl⟩

/-- A score against a finite score vector is a real number. -/
theorem scoreRow_real (Wa Ua : Arr2 128 128) (Va : Arr2 128 1) (hV : ∀ i, Va i ≠ ⊤ ∧ Va i ≠ ⊥) (u v : Fin 128 → EReal) :
    ∃ x : ℝ, scoreRow Wa Ua Va u v = ((x : ℝ) : EReal) := by
  have h : ∀ h : Fin 128, ∃ y : ℝ, energy Wa Ua u v h * Va (ix2 h 0) = ((y : ℝ) : EReal) := fun h => by
    obtain ⟨a, ha⟩ := tanh_real ((∑ d : Fin 128, u d * Ua (ix2 d h)) + (∑ d : Fin 128, v d * Wa (ix2 d h)))
    refine ⟨a * (Va (ix2 h 0)).toReal, ?_⟩
    unfold energy
    rw [ha, EReal.coe_mul, EReal.coe_toReal (hV _).1 (hV _).2]
  choose y hy using h
  exact ⟨∑ h, y h, by unfold scoreRow; rw [Soft.coe_sum]; exact Finset.sum_congr rfl (fun h _ => hy h)⟩

section Finite

variable (hS : ∀ i, HS m c i ≠ ⊤ ∧ HS m c i ≠ ⊥) (hV : ∀ i, VA m c i ≠ ⊤ ∧ VA m c i ≠ ⊥)

/-- The real scores of batch row b, as a sequence. -/
def xr (b : Fin 1024) (s : ℕ) : ℝ := if h : s < 1024 then (sc m c b ⟨s, h⟩).toReal else 0

/-- The real sequence entries of batch row b, feature d. -/
def wr (b : Fin 1024) (d : Fin 128) (s : ℕ) : ℝ := if h : s < 1024 then (HS m c (ix3 b ⟨s, h⟩ d)).toReal else 0

include hV in
theorem sc_eq (b s : Fin 1024) : sc m c b s = ((xr m c b s.val : ℝ) : EReal) := by
  obtain ⟨x, hx⟩ := scoreRow_real (WA m c) (UA m c) (VA m c) hV (fun d => HS m c (ix3 b s d)) (fun d => HT m c (ix2 b d))
  have e : sc m c b s = ((x : ℝ) : EReal) := hx
  unfold xr
  rw [dif_pos s.isLt, Fin.eta, e, EReal.toReal_coe]

include hS in
theorem hs_eq (b s : Fin 1024) (d : Fin 128) : HS m c (ix3 b s d) = ((wr m c b d s.val : ℝ) : EReal) := by
  unfold wr
  rw [dif_pos s.isLt, Fin.eta, EReal.coe_toReal (hS _).1 (hS _).2]

/-! ## A tile's block, in those real numbers -/

theorem blk_score (t : Fin cfg0.N) (r q : Fin 128) :
    k0_pay8 (iblk m c 0 t) (iblk m c 1 t) (iblk m c 2 t) (iblk m c 3 t) (iblk m c 4 t) (ix2 r q) = sc m c (brow t r) (spos t q) := by
  refine (Ker.pay8_apply (iblk m c 0 t) (iblk m c 1 t) (iblk m c 2 t) (iblk m c 3 t) (iblk m c 4 t) r q).trans ?_
  rw [iblk2_eq m c t, iblk3_eq m c t, iblk4_eq m c t]
  show scoreRow _ _ _ _ _ = scoreRow _ _ _ _ _
  congr 1
  · funext d; exact iblk1_apply m c t r q d
  · funext d; exact iblk0_apply m c t r d

/-! ## What the carried buffers hold after each point -/

theorem O_A (t : Fin cfg0.N) (h0 : t.val % 8 = 0) (h1 : ¬t.val % 8 = 7) :
    (outsAt0 m c t.val t.isLt).2.1 = k0_pay1 (k0_pay9 (iblk m c 0 t) (iblk m c 1 t) (iblk m c 2 t) (iblk m c 3 t) (iblk m c 4 t) (k0_pay5 (F := Ideal)))
    ∧ (outsAt0 m c t.val t.isLt).2.2.1 = k0_pay2 (k0_pay12 (iblk m c 0 t) (iblk m c 1 t) (iblk m c 2 t) (iblk m c 3 t) (iblk m c 4 t) (k0_pay5 (F := Ideal)) (k0_pay6 (F := Ideal)))
    ∧ (outsAt0 m c t.val t.isLt).2.2.2 = k0_pay3 (iblk m c 1 t) (k0_pay10 (iblk m c 0 t) (iblk m c 1 t) (iblk m c 2 t) (iblk m c 3 t) (iblk m c 4 t) (k0_pay5 (F := Ideal))) (k0_pay13 (iblk m c 0 t) (iblk m c 1 t) (iblk m c 2 t) (iblk m c 3 t) (iblk m c 4 t) (k0_pay5 (F := Ideal))) (k0_pay7 (F := Ideal)) := by
  rw [outsAt0_A m c t h0 h1]
  exact ⟨Pieces.sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => h1 ((hcond0_1 t).mp h)),
    Pieces.sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => h1 ((hcond0_1 t).mp h)),
    Pieces.sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => h1 ((hcond0_1 t).mp h))⟩

theorem O_B (t : Fin cfg0.N) (h0 : ¬t.val % 8 = 0) (h1 : ¬t.val % 8 = 7) :
    (outsAt0 m c t.val t.isLt).2.1 = k0_pay1 (k0_pay9 (iblk m c 0 t) (iblk m c 1 t) (iblk m c 2 t) (iblk m c 3 t) (iblk m c 4 t) (outsAt0 m c (t.val - 1) (Nat.lt_of_le_of_lt (Nat.sub_le _ _) t.isLt)).2.1)
    ∧ (outsAt0 m c t.val t.isLt).2.2.1 = k0_pay2 (k0_pay12 (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1)
    ∧ (outsAt0 m c t.val t.isLt).2.2.2 = k0_pay3 (iblk m c 1 t) (k0_pay10 (iblk m c 0 t) (iblk m c 1 t) (iblk m c 2 t) (iblk m c 3 t) (iblk m c 4 t) (outsAt0 m c (t.val - 1) (Nat.lt_of_le_of_lt (Nat.sub_le _ _) t.isLt)).2.1) (k0_pay13 (iblk m c 0 t) (iblk m c 1 t) (iblk m c 2 t) (iblk m c 3 t) (iblk m c 4 t) (outsAt0 m c (t.val - 1) (Nat.lt_of_le_of_lt (Nat.sub_le _ _) t.isLt)).2.1) (outsAt0 m c (t.val - 1) (Nat.lt_of_le_of_lt (Nat.sub_le _ _) t.isLt)).2.2.2 := by
  rw [outsAt0_B m c t h0 h1]
  exact ⟨Pieces.sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

theorem O_C (t : Fin cfg0.N) (h0 : ¬t.val % 8 = 0) (h1 : t.val % 8 = 7) :
    (outsAt0 m c t.val t.isLt).2.1 = k0_pay1 (k0_pay9 (iblk m c 0 t) (iblk m c 1 t) (iblk m c 2 t) (iblk m c 3 t) (iblk m c 4 t) (outsAt0 m c (t.val - 1) (Nat.lt_of_le_of_lt (Nat.sub_le _ _) t.isLt)).2.1)
    ∧ (outsAt0 m c t.val t.isLt).2.2.1 = k0_pay2 (k0_pay12 (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1)
    ∧ (outsAt0 m c t.val t.isLt).2.2.2 = k0_pay3 (iblk m c 1 t) (k0_pay10 (iblk m c 0 t) (iblk m c 1 t) (iblk m c 2 t) (iblk m c 3 t) (iblk m c 4 t) (outsAt0 m c (t.val - 1) (Nat.lt_of_le_of_lt (Nat.sub_le _ _) t.isLt)).2.1) (k0_pay13 (iblk m c 0 t) (iblk m c 1 t) (iblk m c 2 t) (iblk m c 3 t) (iblk m c 4 t) (outsAt0 m c (t.val - 1) (Nat.lt_of_le_of_lt (Nat.sub_le _ _) t.isLt)).2.1) (outsAt0 m c (t.val - 1) (Nat.lt_of_le_of_lt (Nat.sub_le _ _) t.isLt)).2.2.2
    ∧ (outsAt0 m c t.val t.isLt).1 = k0_pay4 (iblk m c 0 t) (k0_pay3 (iblk m c 1 t) (k0_pay10 (iblk m c 0 t) (iblk m c 1 t) (iblk m c 2 t) (iblk m c 3 t) (iblk m c 4 t) (outsAt0 m c (t.val - 1) (Nat.lt_of_le_of_lt (Nat.sub_le _ _) t.isLt)).2.1) (k0_pay13 (iblk m c 0 t) (iblk m c 1 t) (iblk m c 2 t) (iblk m c 3 t) (iblk m c 4 t) (outsAt0 m c (t.val - 1) (Nat.lt_of_le_of_lt (Nat.sub_le _ _) t.isLt)).2.1) (outsAt0 m c (t.val - 1) (Nat.lt_of_le_of_lt (Nat.sub_le _ _) t.isLt)).2.2.2) (k0_pay2 (k0_pay12 (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1)) (iblk m c 5 t) (iblk m c 6 t) (iblk m c 7 t) (iblk m c 8 t) := by
  rw [outsAt0_C m c t h0 h1]
  exact ⟨Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.oC9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- THE INVARIANT of a block row r after point n: the three carried values over the positions below
    128·(n % 8) + 128, at some real shift. -/
def Inv (n : ℕ) (hn : n < cfg0.N) : Prop :=
  ∀ r : Fin 128, ∃ mr : ℝ,
    (outsAt0 m c n hn).2.1 (ix2 r 0) = ((mr : ℝ) : EReal)
    ∧ (outsAt0 m c n hn).2.2.1 (ix2 r 0)
        = ((∑ s ∈ range (128 * (n % 8) + 128), Real.exp (xr m c (brow ⟨n, hn⟩ r) s - mr) : ℝ) : EReal)
    ∧ ∀ d : Fin 128, (outsAt0 m c n hn).2.2.2 (ix2 r d)
        = ((∑ s ∈ range (128 * (n % 8) + 128), Real.exp (xr m c (brow ⟨n, hn⟩ r) s - mr) * wr m c (brow ⟨n, hn⟩ r) d s : ℝ) : EReal)

include hS hV in
theorem inv_all : ∀ (n : ℕ) (hn : n < cfg0.N), Inv m c n hn := by
  intro n
  induction n with
  | zero =>
    intro hn r
    obtain ⟨e0, e1, e2⟩ := O_A m c ⟨0, hn⟩ rfl (by show ¬(0 : ℕ) % 8 = 7; decide)
    obtain ⟨mr', a0, a1, a2⟩ := first_row (iblk m c 0 ⟨0, hn⟩) (iblk m c 1 ⟨0, hn⟩) (iblk m c 2 ⟨0, hn⟩) (iblk m c 3 ⟨0, hn⟩) (iblk m c 4 ⟨0, hn⟩) r (xr m c (brow ⟨0, hn⟩ r)) (wr m c (brow ⟨0, hn⟩ r))
      (fun q => (blk_score m c ⟨0, hn⟩ r q).trans ((sc_eq m c hV _ _).trans (by show ((xr m c _ (128 * (0 % 8) + q.val) : ℝ) : EReal) = _; rw [Nat.zero_mod, Nat.mul_zero, Nat.zero_add])))
      (fun q d => (iblk1_apply m c ⟨0, hn⟩ r q d).trans ((hs_eq m c hS _ _ _).trans (by show ((wr m c _ d (128 * (0 % 8) + q.val) : ℝ) : EReal) = _; rw [Nat.zero_mod, Nat.mul_zero, Nat.zero_add])))
    refine ⟨mr', ?_, ?_, ?_⟩
    · show (outsAt0 m c (⟨0, hn⟩ : Fin cfg0.N).val _).2.1 (ix2 r 0) = _
      rw [e0]; exact a0
    · show (outsAt0 m c (⟨0, hn⟩ : Fin cfg0.N).val _).2.2.1 (ix2 r 0) = _
      rw [e1]; exact a1
    · intro d
      show (outsAt0 m c (⟨0, hn⟩ : Fin cfg0.N).val _).2.2.2 (ix2 r d) = _
      rw [e2]; exact a2 d
  | succ n ih =>
    intro hn r
    have hN : n + 1 < 64 := lt_of_lt_of_eq hn N_0
    by_cases h0 : (n + 1) % 8 = 0
    · have h1 : ¬(n + 1) % 8 = 7 := by omega
      obtain ⟨e0, e1, e2⟩ := O_A m c ⟨n + 1, hn⟩ h0 h1
      obtain ⟨mr', a0, a1, a2⟩ := first_row (iblk m c 0 ⟨n + 1, hn⟩) (iblk m c 1 ⟨n + 1, hn⟩) (iblk m c 2 ⟨n + 1, hn⟩) (iblk m c 3 ⟨n + 1, hn⟩) (iblk m c 4 ⟨n + 1, hn⟩) r (xr m c (brow ⟨n + 1, hn⟩ r)) (wr m c (brow ⟨n + 1, hn⟩ r))
        (fun q => (blk_score m c ⟨n + 1, hn⟩ r q).trans ((sc_eq m c hV _ _).trans (by show ((xr m c _ (128 * ((n + 1) % 8) + q.val) : ℝ) : EReal) = _; rw [h0, Nat.mul_zero, Nat.zero_add])))
        (fun q d => (iblk1_apply m c ⟨n + 1, hn⟩ r q d).trans ((hs_eq m c hS _ _ _).trans (by show ((wr m c _ d (128 * ((n + 1) % 8) + q.val) : ℝ) : EReal) = _; rw [h0, Nat.mul_zero, Nat.zero_add])))
      refine ⟨mr', ?_, ?_, ?_⟩
      · show (outsAt0 m c (⟨n + 1, hn⟩ : Fin cfg0.N).val _).2.1 (ix2 r 0) = _
        rw [e0]; exact a0
      · show (outsAt0 m c (⟨n + 1, hn⟩ : Fin cfg0.N).val _).2.2.1 (ix2 r 0) = _
        rw [e1, h0]; exact a1
      · intro d
        show (outsAt0 m c (⟨n + 1, hn⟩ : Fin cfg0.N).val _).2.2.2 (ix2 r d) = _
        rw [e2, h0]; exact a2 d
    · obtain ⟨mr, p0, p1, p2⟩ := ih (Nat.lt_of_succ_lt hn) r
      have hb : brow ⟨n, Nat.lt_of_succ_lt hn⟩ r = brow ⟨n + 1, hn⟩ r := Fin.ext (by show 128 * (n / 8) + r.val = 128 * ((n + 1) / 8) + r.val; omega)
      have hm : 128 * (n % 8) + 128 = 128 * ((n + 1) % 8) := by omega
      rw [hb, hm] at p1 p2
      have key : ∃ mr' : ℝ, (outsAt0 m c (n + 1) hn).2.1 (ix2 r 0) = ((mr' : ℝ) : EReal)
          ∧ (outsAt0 m c (n + 1) hn).2.2.1 (ix2 r 0) = ((∑ s ∈ range (128 * ((n + 1) % 8) + 128), Real.exp (xr m c (brow ⟨n + 1, hn⟩ r) s - mr') : ℝ) : EReal)
          ∧ ∀ d : Fin 128, (outsAt0 m c (n + 1) hn).2.2.2 (ix2 r d) = ((∑ s ∈ range (128 * ((n + 1) % 8) + 128), Real.exp (xr m c (brow ⟨n + 1, hn⟩ r) s - mr') * wr m c (brow ⟨n + 1, hn⟩ r) d s : ℝ) : EReal) := by
        have st := fun (xs0 xs1 : Vec Ideal S128x1 .f32) (xs2 : Vec Ideal S128x128 .f32) h0' h1' h2' =>
          step_row (iblk m c 0 ⟨n + 1, hn⟩) (iblk m c 1 ⟨n + 1, hn⟩) (iblk m c 2 ⟨n + 1, hn⟩) (iblk m c 3 ⟨n + 1, hn⟩) (iblk m c 4 ⟨n + 1, hn⟩) xs0 xs1 xs2 r (128 * ((n + 1) % 8))
            (xr m c (brow ⟨n + 1, hn⟩ r)) (wr m c (brow ⟨n + 1, hn⟩ r)) mr h0' h1' h2'
            (fun q => (blk_score m c ⟨n + 1, hn⟩ r q).trans (sc_eq m c hV _ _))
            (fun q d => (iblk1_apply m c ⟨n + 1, hn⟩ r q d).trans (hs_eq m c hS _ _ _))
        by_cases h1 : (n + 1) % 8 = 7
        · obtain ⟨e0, e1, e2, _⟩ := O_C m c ⟨n + 1, hn⟩ h0 h1
          obtain ⟨mr', a0, a1, a2⟩ := st _ _ _ p0 p1 p2
          exact ⟨mr', by show (outsAt0 m c (⟨n + 1, hn⟩ : Fin cfg0.N).val _).2.1 (ix2 r 0) = _; rw [e0]; exact a0,
            by show (outsAt0 m c (⟨n + 1, hn⟩ : Fin cfg0.N).val _).2.2.1 (ix2 r 0) = _; rw [e1]; exact a1,
            fun d => by show (outsAt0 m c (⟨n + 1, hn⟩ : Fin cfg0.N).val _).2.2.2 (ix2 r d) = _; rw [e2]; exact a2 d⟩
        · obtain ⟨e0, e1, e2⟩ := O_B m c ⟨n + 1, hn⟩ h0 h1
          obtain ⟨mr', a0, a1, a2⟩ := st _ _ _ p0 p1 p2
          exact ⟨mr', by show (outsAt0 m c (⟨n + 1, hn⟩ : Fin cfg0.N).val _).2.1 (ix2 r 0) = _; rw [e0]; exact a0,
            by show (outsAt0 m c (⟨n + 1, hn⟩ : Fin cfg0.N).val _).2.2.1 (ix2 r 0) = _; rw [e1]; exact a1,
            fun d => by show (outsAt0 m c (⟨n + 1, hn⟩ : Fin cfg0.N).val _).2.2.2 (ix2 r d) = _; rw [e2]; exact a2 d⟩
      exact key

end Finite

end Cert.Attn.Online

end
-- ==== Proof.Tail.lean ====
/-
  The kernel's epilogue on a block of 128 rows, read at an index (row r, lane j): the context row
  (accumulator over normaliser), joined with the query row, through the dense layer with tanh, then the
  layer normalisation over the 128 lanes — the specification's `rowOut`.
-/
import proofs.«138197_j28973849379558_2_alg».proof.Proof.Gen.KernelIdeal.Skeleton
import proofs.«138197_j28973849379558_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Tail

open Cert.KernelIdeal Cert.KernelIdeal.Gen Idealize.ShloMosaic Idealize.ShloMosaic.ValueIdx Cert.Attn

/-! ## Layout operations read at an index -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The joined block and the dense layer's product -/

/-- The two blocks joined along the lanes, read at `(r, k)`: the joined vector of the two rows. -/
theorem concat_apply (x₁ x₂ : FVec Ideal S128x128 .f32) (r : Fin 128) (k : Fin 256) :
    concatenate S128x256 1 [⟨S128x128, x₁⟩, ⟨S128x128, x₂⟩] concatenates_S128x128_S128x128_S128x256_d1 (ix2 r k)
      = joined (fun d => x₁ (ix2 r d)) (fun d => x₂ (ix2 r d)) k := by
  unfold joined
  split
  · next hk =>
    exact concatenate_pair_apply_left (1 : Fin S128x256.rank) x₁ x₂ _ (ix2 r k) rfl (ix2 r ⟨k.val, hk⟩)
      (fun b => match b with | ⟨0, _⟩ => rfl | ⟨1, _⟩ => rfl)
  · next hk =>
    exact concatenate_pair_apply_right (1 : Fin S128x256.rank) x₁ x₂ _ (ix2 r k) rfl rfl
      (ix2 r ⟨k.val - 128, by have := k.isLt; omega⟩)
      (fun b hb => match b, hb with | ⟨0, _⟩, _ => rfl | ⟨1, _⟩, hb => absurd rfl hb)
      (by show (k.val - 128) + 128 = k.val; omega)

/-- The left operand's index of the product: its row is the output's row. -/
theorem lhsIdx_row (i : S128x128.Idx) (q : dot_S128x256_S256x128_S128x128_1_0_0_1_n_n.contr.Idx) :
    (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide),
    dif_pos (show (0 : Fin S128x256.rank) ∈ dot_S128x256_S256x128_S128x128_1_0_0_1_n_n.lhsNonContracting by decide)]
  rfl

/-- The left operand's index of the product: its lane is the contracted position. -/
theorem lhsIdx_lane (i : S128x128.Idx) (q : dot_S128x256_S256x128_S128x128_1_0_0_1_n_n.contr.Idx) :
    (dot_S128x256_S256x128_S128x128_1_0_0_1_n_n.lhsIdx i q 1).val = (q ⟨0, by decide⟩).val :=
  dot_S128x256_S256x128_S128x128_1_0_0_1_n_n.lhsIdx_val_of_single rfl i q

/-- The right operand's index of the product: its row is the contracted position. -/
theorem rhsIdx_row (i : S128x128.Idx) (q : dot_S128x256_S256x128_S128x128_1_0_0_1_n_n.contr.Idx) :
    (dot_S128x256_S256x128_S128x128_1_0_0_1_n_n.rhsIdx i q 0).val = (q ⟨0, by decide⟩).val :=
  dot_S128x256_S256x128_S128x128_1_0_0_1_n_n.rhsIdx_val_of_single rfl i q

/-- The right operand's index of the product: its lane is the output's lane. -/
theorem rhsIdx_lane (i : S128x128.Idx) (q : dot_S128x256_S256x128_S128x128_1_0_0_1_n_n.contr.Idx) :
    (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide),
    dif_pos (show (1 : Fin S256x128.rank) ∈ dot_S128x256_S256x128_S128x128_1_0_0_1_n_n.rhsNonContracting by decide)]
  rfl

/-- The product of a `[128, 256]` block with a `[256, 128]` matrix into a zero accumulator, read at `(r, j)`:
    the sum over the 256 contracted positions. -/
theorem matmul_apply_ix (lhs : FVec Ideal S128x256 .f32) (rhs : FVec Ideal S256x128 .f32) (r j : Fin 128) :
    matmul dot_S128x256_S256x128_S128x128_1_0_0_1_n_n (some .fp32) lhs rhs (constant S128x128 .f32 0x00000000#32) (ix2 r j)
      = ∑ k : Fin 256, lhs (ix2 r k) * rhs (ix2 k j) := by
  simp only [matmul]
  rw [Ideal.matmul_constant_zero_apply,
    ← Equiv.sum_comp (contrEquiv1 dot_S128x256_S256x128_S128x128_1_0_0_1_n_n 256 rfl rfl).symm]
  refine Finset.sum_congr rfl fun k _ => ?_
  have hk := contrEquiv1_symm_val dot_S128x256_S256x128_S128x128_1_0_0_1_n_n 256 rfl rfl k
  have el : dot_S128x256_S256x128_S128x128_1_0_0_1_n_n.lhsIdx (ix2 r j)
      ((contrEquiv1 dot_S128x256_S256x128_S128x128_1_0_0_1_n_n 256 rfl rfl).symm k) = ix2 r k :=
    funext fun a => Fin.ext (by
      match a with
      | ⟨0, _⟩ => exact lhsIdx_row _ _
      | ⟨1, _⟩ => exact (lhsIdx_lane _ _).trans hk)
  have er : dot_S128x256_S256x128_S128x128_1_0_0_1_n_n.rhsIdx (ix2 r j)
      ((contrEquiv1 dot_S128x256_S256x128_S128x128_1_0_0_1_n_n 256 rfl rfl).symm k) = ix2 k j :=
    funext fun a => Fin.ext (by
      match a with
      | ⟨0, _⟩ => exact (rhsIdx_row _ _).trans hk
      | ⟨1, _⟩ => exact rhsIdx_lane _ _)
  rw [el, er]

/-! ## A lane sum, and the pointwise transcendental operations, read at an index -/

/-- The sum over the lanes of a `[128, 128]` block, read at row `r` (the accumulator word is the zero of the sum,
    whatever proof of that the term carries). -/
theorem laneSum_apply (src : FVec Ideal S128x128 .f32) (hφ : FKind.Formats .f32)
    (hacc : (0x00000000#32 : BitVec 32) = 0x00000000#32) (r : Fin 128) :
    multiReduction (F := Ideal) .add [1] S128 src 0x00000000#32 reduces_S128x128_S128 hφ hacc (ix1 r)
      = ∑ k : Fin 128, src (ix2 r k) := by
  refine (Ideal.multiReduction_add_single src 0x00000000#32 reduces_S128x128_S128 hφ hacc (ix1 r)).trans ?_
  show ∑ k : Fin 128, src (reduces_S128x128_S128.lift (ix1 r) k) = _
  refine Finset.sum_congr rfl fun k _ => congrArg src (funext fun c => Fin.ext ?_)
  show reduces_S128x128_S128.liftVal (ix1 r) k.val c = _
  match c with
  | ⟨0, _⟩ => rfl
  | ⟨1, _⟩ => rfl

theorem tanh_apply {s : Shape} {φ : FTy} (a : FVec Ideal s φ) (i : s.Idx) : tanh a i = Ideal.tanh (a i) := rfl

theorem rsqrt_apply {s : Shape} {φ : FTy} (a : FVec Ideal s φ) (i : s.Idx) : rsqrt a i = Ideal.rsqrt (a i) := rfl

/-! ## The stages of the epilogue, read at an index -/

/-- A `[128]` vector laid as one row and broadcast over the 128 rows reads, at `(r, j)`, the vector at `j`. -/
theorem rowBroadcast_apply (g : FVec Ideal S128 .f32) (r j : Fin 128) :
    broadcastTo S128x128 (shapeCast S1x128 g shapeCasts_S128_S1x128) broadcasts_S1x128_S128x128 (ix2 r j) = g (ix1 j) :=
  (broadcastTo_1b_ab_apply _ broadcasts_S1x128_S128x128 r j).trans
    (shapeCast_a_1a_apply g shapeCasts_S128_S1x128 0 j)

/-- A `[128, 1]` column broadcast along the lanes reads, at `(r, j)`, the column at row `r`. -/
theorem colBroadcast_apply (c : FVec Ideal S128x1 .f32) (r j : Fin 128) :
    broadcastTo S128x128 c broadcasts_S128x1_S128x128 (ix2 r j) = c (ix2 r (0 : Fin 1)) :=
  broadcastTo_a1_ab_apply c broadcasts_S128x1_S128x128 r j

/-- A `[128]` vector laid as a column reads, at `(r, u)`, the vector at `r`. -/
theorem colCast_apply (x : FVec Ideal S128 .f32) (r : Fin 128) (u : Fin 1) :
    shapeCast S128x1 x shapeCasts_S128_S128x1 (ix2 r u) = x (ix1 r) :=
  shapeCast_a_a1_apply x shapeCasts_S128_S128x1 r u

/-- THE EPILOGUE AT AN INDEX: row `r`, lane `j` of what the kernel stores is the specification's output row of the
    context row (accumulator over normaliser) and the query row, at `j`. -/
theorem pay4_apply (v3 v53 : Vec Ideal S128x128 .f32) (v54 : Vec Ideal S128x1 .f32) (v58 : Vec Ideal S256x128 .f32)
    (v60 v83 v87 : Vec Ideal S128 .f32) (r j : Fin 128) :
    k0_pay4 v3 v53 v54 v58 v60 v83 v87 (ix2 r j)
      = rowOut v58 v60 v83 v87 (fun d => Ideal.div (v53 (ix2 r d)) (v54 (ix2 r 0))) (fun d => v3 (ix2 r d)) j := by
  unfold k0_pay4
  repeat (first
    | rewrite [laneSum_apply]
    | simp only [addf_apply, mulf_apply, subf_apply, divf_apply, tanh_apply, rsqrt_apply, broadcast_apply,
        colBroadcast_apply, rowBroadcast_apply, colCast_apply, matmul_apply_ix, concat_apply,
        Scalar.ofBits, Ideal.ofBits_def, rowOut, attnVec, mean128])

end Cert.Attn.Tail

end
-- ==== Proof.Final.lean ====
/-
  From the carried values to the result array.  At the last sequence tile of a batch block the kernel divides the
  weighted sum by the sum, row by row; that quotient is the reference's softmax-weighted context whatever shifts
  were used, so the output block is the block of the result function G.  The eight writing points (one per batch
  block) cover the result array: row b is written by the last point of batch block b / 128.
-/
import proofs.«138197_j28973849379558_2_alg».proof.Proof.Online
import proofs.«138197_j28973849379558_2_alg».proof.Proof.Tail
import proofs.«138197_j28973849379558_2_alg».proof.Proof.Gen.KernelIdeal.Value

noncomputable section

open scoped BigOperators
open Idealize.ShloMosaic Idealize.ShloMosaic.TcCoe Idealize.SL.Sem Idealize.ShloMosaic.ValueIdx
open Idealize.ShloMosaic.Pipeline (Dat)

namespace Cert.Attn.Final

open Cert.KernelIdeal Cert.KernelIdeal.Gen Cert.Attn Cert.Attn.Blocks Cert.Attn.Online Finset

variable (m : (ℓ : Loc nD τ sig) → Buf (Elt Ideal) ℓ) (c : Dev nD)
variable (hS : ∀ i, HS m c i ≠ ⊤ ∧ HS m c i ≠ ⊥) (hV : ∀ i, VA m c i ≠ ⊤ ∧ VA m c i ≠ ⊥)

include hS hV in
/-- The kernel's quotient over all 1024 positions is the reference's context. -/
theorem ctx_eq (b : Fin 1024) (d : Fin 128) (mr : ℝ) :
    Ideal.div ((∑ s ∈ range 1024, Real.exp (xr m c b s - mr) * wr m c b d s : ℝ) : EReal)
        ((∑ s ∈ range 1024, Real.exp (xr m c b s - mr) : ℝ) : EReal)
      = ctxRef (sc m c b) (fun s => HS m c (ix3 b s d)) (shiftRef (sc m c b)) := by
  obtain ⟨M, hM⟩ := Soft.fold_max_real (fun s : Fin 1024 => xr m c b s.val)
  have hx : (sc m c b) = fun s => ((xr m c b s.val : ℝ) : EReal) := funext (sc_eq m c hV b)
  have hw : (fun s => HS m c (ix3 b s d)) = fun s : Fin 1024 => ((wr m c b d s.val : ℝ) : EReal) := funext fun s => hs_eq m c hS b s d
  have hsh : shiftRef (sc m c b) = ((M : ℝ) : EReal) := by
    unfold shiftRef
    rw [Soft.negInf_eq, hx, hM, max_eq_right bot_le]
  rw [hsh, hw, hx]
  exact Soft.quotient_eq mr M 1024 (by norm_num) (xr m c b) (wr m c b d)

include hS hV in
/-- The output block at the last tile of a batch block, entry by entry. -/
theorem out_row (t : Fin cfg0.N) (h0 : ¬t.val % 8 = 0) (h1 : t.val % 8 = 7) (r j : Fin 128) :
    (outsAt0 m c t.val t.isLt).1 (ix2 r j) = GG m c (ix2 (brow t r) j) := by
  obtain ⟨e0, e1, e2, e9⟩ := O_C m c t h0 h1
  obtain ⟨mr, p0, p1, p2⟩ := inv_all m c hS hV t.val t.isLt r
  have h1024 : 128 * (t.val % 8) + 128 = 1024 := by omega
  rw [h1024] at p1 p2
  rw [e9, ← e2, ← e1]
  refine (Tail.pay4_apply (iblk m c 0 t) (outsAt0 m c t.val t.isLt).2.2.2 (outsAt0 m c t.val t.isLt).2.2.1 (iblk m c 5 t) (iblk m c 6 t) (iblk m c 7 t) (iblk m c 8 t) r j).trans ?_
  rw [iblk5_eq m c t, iblk6_eq m c t, iblk7_eq m c t, iblk8_eq m c t]
  have hc : (fun d : Fin 128 => Ideal.div ((outsAt0 m c t.val t.isLt).2.2.2 (ix2 r d)) ((outsAt0 m c t.val t.isLt).2.2.1 (ix2 r 0)))
      = fun d => ctxRef (sc m c (brow t r)) (fun s => HS m c (ix3 (brow t r) s d)) (shiftRef (sc m c (brow t r))) := by
    funext d
    rw [p1, p2 d]
    exact ctx_eq m c hS hV (brow t r) d mr
  have hv : (fun d : Fin 128 => iblk m c 0 t (ix2 r d)) = fun d => HT m c (ix2 (brow t r) d) := funext fun d => iblk0_apply m c t r d
  rw [hc, hv]
  rfl

/-- Where the output window's block sits at point t. -/
theorem out_idx : ∀ t : Fin cfg0.N, win0_9.index t (0 : Fin 2) = t.val / 8 ∧ win0_9.index t (1 : Fin 2) = 0 :=
  (by decide +kernel : ∀ t : Fin grid0.N, win0_9.index t (0 : Fin 2) = t.val / 8 ∧ win0_9.index t (1 : Fin 2) = 0)

include hS hV in
/-- What a writing point writes back is its block of the result function. -/
theorem flushed_eq (t : Fin cfg0.N) (hf : (cfg0.win 9).flush t = true) :
    (dats m 0 c).flushed 9 t = ((cfg0.win 9).blk t).view.read (Elt Ideal) (GG m c) := by
  have h7 : t.val % 8 = 7 := (flush0_9 t).mp hf
  have h0 : ¬t.val % 8 = 0 := by omega
  obtain ⟨i0, i1⟩ := out_idx t
  show (cfg0.win 9).cut (grid0.coords t) ((dats m 0 c).after 9 t) = _
  rw [after0_9]
  funext y
  obtain ⟨r, j, rfl⟩ : ∃ (r j : Fin 128), y = ix2 r j := ⟨y 0, y 1, eq_ix2 y⟩
  show (outsAt0 m c t.val t.isLt).1 (ix2 r j) = GG m c (((cfg0.win 9).blk t).view.emb (ix2 r j))
  rw [out_row m c hS hV t h0 h7 r j]
  congr 1
  funext a
  apply Fin.ext
  match a with
  | ⟨0, _⟩ => show 128 * (t.val / 8) + r.val = win0_9.index t (0 : Fin 2) * 128 + 1 * r.val; rw [i0]; omega
  | ⟨1, _⟩ => show j.val = win0_9.index t (1 : Fin 2) * 128 + 1 * j.val; rw [i1]; omega

/-- An index of the result array is in point t's block iff each coordinate is in the block's range. -/
theorem mem_blk (t : Fin cfg0.N) (i : S1024x128.Idx) :
    i ∈ ((cfg0.win 9).blk t).view.set ↔ ∀ a : Fin 2, win0_9.index t a * S128x128.size a ≤ (i a).val ∧ (i a).val < win0_9.index t a * S128x128.size a + S128x128.size a := by
  show i ∈ ((View.whole main_v0).slice (win0_9.rect t)).set ↔ _
  rw [View.set_slice_whole, Rect.mem_set_unit]
  exact Iff.rfl

include hS hV in
/-- THE RESULT ARRAY after the run is the result function. -/
theorem final : (dats m 0 c).arrAt 9 cfg0.N = GG m c :=
  (dats m 0 c).arrAt_eq_of_cover 9 (GG m c) (flushed_eq m c hS hV) fun i => by
    have hi0 : (i 0).val < 1024 := (i 0).isLt
    have hi1 : (i 1).val < 128 := (i 1).isLt
    have hN : cfg0.N = 64 := N_0
    refine ⟨⟨8 * ((i 0).val / 128) + 7, by omega⟩, (flush0_9 _).mpr (by show (8 * ((i 0).val / 128) + 7) % 8 = 7; omega), ?_⟩
    obtain ⟨i0, i1⟩ := out_idx ⟨8 * ((i 0).val / 128) + 7, by omega⟩
    rw [mem_blk]
    intro a
    match a with
    | ⟨0, _⟩ =>
      show win0_9.index _ (0 : Fin 2) * 128 ≤ (i 0).val ∧ (i 0).val < win0_9.index _ (0 : Fin 2) * 128 + 128
      rw [i0]; show (8 * ((i 0).val / 128) + 7) / 8 * 128 ≤ (i 0).val ∧ (i 0).val < (8 * ((i 0).val / 128) + 7) / 8 * 128 + 128; omega
    | ⟨1, _⟩ =>
      show win0_9.index _ (1 : Fin 2) * 128 ≤ (i 1).val ∧ (i 1).val < win0_9.index _ (1 : Fin 2) * 128 + 128
      rw [i1]; omega

/-- The kernel's run, read: the result array at the result function, the arguments unchanged. -/
theorem run (ρ : Dev nD → PrngReg) (hSall : ∀ c, ∀ i, HS m c i ≠ ⊤ ∧ HS m c i ≠ ⊥) (hVall : ∀ c, ∀ i, VA m c i ≠ ⊤ ∧ VA m c i ≠ ⊥) :
    θ_run defs (onTc (τ := τ) (main (F := Ideal))) ⟨m, fun _ => 0, ρ⟩ fun r => ∀ c : Dev nD,
      r.2.mem ((c : Thread nD τ).loc main_v0) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c' => ⟨(h c').1.trans (final m c' (hSall c') (hVall c')), (h c').2⟩)
    (Cert.KernelIdeal.Value.run_blocks m ρ)

end Cert.Attn.Final

end
-- ==== Proof.Finite.lean ====
import proofs.«138197_j28973849379558_2_alg».proof.Pre_finite_inputs
import proofs.«138197_j28973849379558_2_alg».proof.Proof.Gen.Pre_finite_inputs
import Idealize.ShloMosaic.Lib.ReduceAll
import Idealize.ShloMosaic.Lib.ValueIdx
import Idealize.ShloMosaic.PureOps.Ideal

noncomputable section

namespace Cert.Attn.Fin

open Idealize.ShloMosaic
open Cert.Pre_finite_inputs

/-- The rank-0 shape has exactly one index. -/
instance subsingleton_S_ : Subsingleton S_.Idx := ⟨fun a b => funext fun d => d.elim0⟩

/-- The f32 pattern 0x7F800000 denotes +∞. -/
theorem inf_eq_top : Ideal.ofBits .f32 0x7F800000#32 = (⊤ : EReal) := by
  simp [Ideal.ofBits, Ideal.ieee]

/-- An extended real whose absolute value max x (−x) lies strictly below +∞ is neither infinity. -/
theorem finite_of_abs_lt (x : EReal)
    (h : Ideal.cmp .olt (max x (-x)) (Ideal.ofBits .f32 0x7F800000#32) = 1#1) : x ≠ ⊤ ∧ x ≠ ⊥ := by
  rw [inf_eq_top] at h
  constructor
  · rintro rfl
    simp [Ideal.cmp] at h
  · rintro rfl
    simp [Ideal.cmp] at h

/-- One array's test read back: when the conjunction over all indices of |a i| < +∞ holds, every entry of a is finite. -/
theorem all_finite {s : Shape} {axes : List (Fin s.rank)} (hb : S_.BroadcastsInDim s (![] : Fin 0 → Fin s.rank))
    (hr : s.ReducesTo axes S_) (hu : 0 < S_.numel) (a : FVec Ideal s .f32)
    (e : Host.reduce IntOp.andi
          (cmpf CmpFPredicate.olt (Host.absf a) (broadcastInDim s ![] hb (constant S_ FTy.f32 0x7F800000#32)))
          (constantI S_ 1 1#1) hr hu ValueIdx.ix0 = 1#1) :
    ∀ i, a i ≠ ⊤ ∧ a i ≠ ⊥ := fun i =>
  finite_of_abs_lt (a i) (Host.reduce_andi_all _ _ hr hu _ e i)

theorem finite_of_pre [Facts]
    (a0 : FVec Ideal S1024x128 .f32) (a1 : FVec Ideal S1024x1024x128 .f32)
    (a2 a3 : FVec Ideal S128x128 .f32) (a4 : FVec Ideal S128x1 .f32)
    (a5 : FVec Ideal S256x128 .f32) (a6 a7 a8 : FVec Ideal S128 .f32)
    (h : fn (F := Ideal) a0 a1 a2 a3 a4 a5 a6 a7 a8 = fun _ => 1#1) :
    (∀ i, a1 i ≠ ⊤ ∧ a1 i ≠ ⊥) ∧ (∀ i, a4 i ≠ ⊤ ∧ a4 i ≠ ⊥) := by
  have e := congrFun h ValueIdx.ix0
  dsimp only [fn, fn_part1, fn_part2] at e
  simp only [andi, IntOp.andi_eq_one] at e
  obtain ⟨⟨⟨⟨⟨⟨⟨⟨e0, e1⟩, e2⟩, e3⟩, e4⟩, e5⟩, e6⟩, e7⟩, e8⟩ := e
  exact ⟨all_finite _ _ _ a1 e1, all_finite _ _ _ a4 e4⟩

/-- All nine arrays at once. -/
theorem finite_of_pre_all [Facts]
    (a0 : FVec Ideal S1024x128 .f32) (a1 : FVec Ideal S1024x1024x128 .f32)
    (a2 a3 : FVec Ideal S128x128 .f32) (a4 : FVec Ideal S128x1 .f32)
    (a5 : FVec Ideal S256x128 .f32) (a6 a7 a8 : FVec Ideal S128 .f32)
    (h : fn (F := Ideal) a0 a1 a2 a3 a4 a5 a6 a7 a8 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧
    (∀ i, a3 i ≠ ⊤ ∧ a3 i ≠ ⊥) ∧ (∀ i, a4 i ≠ ⊤ ∧ a4 i ≠ ⊥) ∧ (∀ i, a5 i ≠ ⊤ ∧ a5 i ≠ ⊥) ∧
    (∀ i, a6 i ≠ ⊤ ∧ a6 i ≠ ⊥) ∧ (∀ i, a7 i ≠ ⊤ ∧ a7 i ≠ ⊥) ∧ (∀ i, a8 i ≠ ⊤ ∧ a8 i ≠ ⊥) := by
  have e := congrFun h ValueIdx.ix0
  dsimp only [fn, fn_part1, fn_part2] at e
  simp only [andi, IntOp.andi_eq_one] at e
  obtain ⟨⟨⟨⟨⟨⟨⟨⟨e0, e1⟩, e2⟩, e3⟩, e4⟩, e5⟩, e6⟩, e7⟩, e8⟩ := e
  exact ⟨all_finite _ _ _ a0 e0, all_finite _ _ _ a1 e1, all_finite _ _ _ a2 e2, all_finite _ _ _ a3 e3,
    all_finite _ _ _ a4 e4, all_finite _ _ _ a5 e5, all_finite _ _ _ a6 e6, all_finite _ _ _ a7 e7,
    all_finite _ _ _ a8 e8⟩

end Cert.Attn.Fin

end
-- ==== Proof.RefRead.lean ====
/-
  The reference program one operation at a time: each operation's value as a function of the argument arrays
  (`val_…`), and that value read at an index from its operands at an index (`val_…_apply`): a broadcast reads
  its operand at the index with the broadcast axes dropped, a contraction is the sum over the contracted
  coordinate of the products, a sum reduction the initial value plus the sum over the reduced coordinate.
-/
import proofs.«138197_j28973849379558_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.Attn.RefRead

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.dot_general %arg0, %arg2, contracting_dims = [1] x [0], precision = [DEFAULT, DEFAULT] : (tensor<1024x128xf32>, tensor<128x128xf32>) -> tensor<1024x128xf32>
def val_main_v0 (x0 : (⟨S1024x128, .f32⟩ : BufTy).Contents (Elt F)) (x2 : (⟨S128x128, .f32⟩ : BufTy).Contents (Elt F)) : (⟨S1024x128, .f32⟩ : BufTy).Contents (Elt F) :=
  Host.dotGeneral dot_S1024x128_S128x128_S1024x128_1_0_0_1_n_n none (x0) (x2)
theorem lhs_main_v0_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_main_v0_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_main_v0_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_main_v0_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
abbrev lidx_main_v0 (i : S1024x128.Idx) (k : Fin 128) : S1024x128.Idx := fun a => match a with
  | ⟨0, _⟩ => ⟨(i 0).val, (i 0).isLt⟩
  | ⟨1, _⟩ => ⟨k.val, k.isLt⟩
abbrev ridx_main_v0 (i : S1024x128.Idx) (k : Fin 128) : S128x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v0_apply (x0 : (⟨S1024x128, .f32⟩ : BufTy).Contents (Elt Ideal)) (x2 : (⟨S128x128, .f32⟩ : BufTy).Contents (Elt Ideal)) (i : S1024x128.Idx) :
    val_main_v0 (F := Ideal) x0 x2 i = ∑ k : Fin 128, x0 (lidx_main_v0 i k) * x2 (ridx_main_v0 i k) := by
  unfold val_main_v0
  simp only [Host.dotGeneral]
  rw [Ideal.dotGeneral_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx i ((ValueIdx.contrEquiv1 dot_S1024x128_S128x128_S1024x128_1_0_0_1_n_n 128 rfl rfl).symm k) = lidx_main_v0 i k := funext fun a => Fin.ext (by
    match a with
    | ⟨0, _⟩ => exact lhs_main_v0_0 _ _
    | ⟨1, _⟩ => exact (lhs_main_v0_1 _ _).trans hk)
  have er : dot_S1024x128_S128x128_S1024x128_1_0_0_1_n_n.rhsIdx i ((ValueIdx.contrEquiv1 dot_S1024x128_S128x128_S1024x128_1_0_0_1_n_n 128 rfl rfl).symm k) = ridx_main_v0 i k := funext fun a => Fin.ext (by
    match a with
    | ⟨0, _⟩ => exact (rhs_main_v0_0 _ _).trans hk
    | ⟨1, _⟩ => exact rhs_main_v0_1 _ _)
  rw [el, er]

-- %1 = stablehlo.dot_general %arg1, %arg3, contracting_dims = [2] x [0], precision = [DEFAULT, DEFAULT] : (tensor<1024x1024x128xf32>, tensor<128x128xf32>) -> tensor<1024x1024x128xf32>
def val_main_v1 (x1 : (⟨S1024x1024x128, .f32⟩ : BufTy).Contents (Elt F)) (x3 : (⟨S128x128, .f32⟩ : BufTy).Contents (Elt F)) : (⟨S1024x1024x128, .f32⟩ : BufTy).Contents (Elt F) :=
  Host.dotGeneral dot_S1024x1024x128_S128x128_S1024x1024x128_2_0_01_1_n_n none (x1) (x3)
theorem lhs_main_v1_0 (i : S1024x1024x128.Idx) (q : dot_S1024x1024x128_S128x128_S1024x1024x128_2_0_01_1_n_n.contr.Idx) :
    (dot_S1024x1024x128_S128x128_S1024x1024x128_2_0_01_1_n_n.lhsIdx i q 0).val = (i 0).val := by
  unfold DotDims.lhsIdx
  rw [dif_neg (show ¬(0 : Fin S1024x1024x128.rank) ∈ dot_S1024x1024x128_S128x128_S1024x1024x128_2_0_01_1_n_n.lhsBatch by decide), dif_pos (show (0 : Fin S1024x1024x128.rank) ∈ dot_S1024x1024x128_S128x128_S1024x1024x128_2_0_01_1_n_n.lhsNonContracting by decide)]
  rfl
theorem lhs_main_v1_1 (i : S1024x1024x128.Idx) (q : dot_S1024x1024x128_S128x128_S1024x1024x128_2_0_01_1_n_n.contr.Idx) :
    (dot_S1024x1024x128_S128x128_S1024x1024x128_2_0_01_1_n_n.lhsIdx i q 1).val = (i 1).val := by
  unfold DotDims.lhsIdx
  rw [dif_neg (show ¬(1 : Fin S1024x1024x128.rank) ∈ dot_S1024x1024x128_S128x128_S1024x1024x128_2_0_01_1_n_n.lhsBatch by decide), dif_pos (show (1 : Fin S1024x1024x128.rank) ∈ dot_S1024x1024x128_S128x128_S1024x1024x128_2_0_01_1_n_n.lhsNonContracting by decide)]
  rfl
theorem lhs_main_v1_2 (i : S1024x1024x128.Idx) (q : dot_S1024x1024x128_S128x128_S1024x1024x128_2_0_01_1_n_n.contr.Idx) :
    (dot_S1024x1024x128_S128x128_S1024x1024x128_2_0_01_1_n_n.lhsIdx i q 2).val = (q ⟨0, by decide⟩).val :=
  dot_S1024x1024x128_S128x128_S1024x1024x128_2_0_01_1_n_n.lhsIdx_val_of_single rfl i q
theorem rhs_main_v1_0 (i : S1024x1024x128.Idx) (q : dot_S1024x1024x128_S128x128_S1024x1024x128_2_0_01_1_n_n.contr.Idx) :
    (dot_S1024x1024x128_S128x128_S1024x1024x128_2_0_01_1_n_n.rhsIdx i q 0).val = (q ⟨0, by decide⟩).val :=
  dot_S1024x1024x128_S128x128_S1024x1024x128_2_0_01_1_n_n.rhsIdx_val_of_single rfl i q
theorem rhs_main_v1_1 (i : S1024x1024x128.Idx) (q : dot_S1024x1024x128_S128x128_S1024x1024x128_2_0_01_1_n_n.contr.Idx) :
    (dot_S1024x1024x128_S128x128_S1024x1024x128_2_0_01_1_n_n.rhsIdx i q 1).val = (i 2).val := by
  unfold DotDims.rhsIdx
  rw [dif_neg (show ¬(1 : Fin S128x128.rank) ∈ dot_S1024x1024x128_S128x128_S1024x1024x128_2_0_01_1_n_n.rhsBatch by decide), dif_pos (show (1 : Fin S128x128.rank) ∈ dot_S1024x1024x128_S128x128_S1024x1024x128_2_0_01_1_n_n.rhsNonContracting by decide)]
  rfl
abbrev lidx_main_v1 (i : S1024x1024x128.Idx) (k : Fin 128) : S1024x1024x128.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v1 (i : S1024x1024x128.Idx) (k : Fin 128) : S128x128.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v1_apply (x1 : (⟨S1024x1024x128, .f32⟩ : BufTy).Contents (Elt Ideal)) (x3 : (⟨S128x128, .f32⟩ : BufTy).Contents (Elt Ideal)) (i : S1024x1024x128.Idx) :
    val_main_v1 (F := Ideal) x1 x3 i = ∑ k : Fin 128, x1 (lidx_main_v1 i k) * x3 (ridx_main_v1 i k) := by
  unfold val_main_v1
  simp only [Host.dotGeneral]
  rw [Ideal.dotGeneral_apply, ← Equiv.sum_comp (ValueIdx.contrEquiv1 dot_S1024x1024x128_S128x128_S1024x1024x128_2_0_01_1_n_n 128 rfl rfl).symm]
  refine Finset.sum_congr rfl fun k _ => ?_
  have hk := ValueIdx.contrEquiv1_symm_val dot_S1024x1024x128_S128x128_S1024x1024x128_2_0_01_1_n_n 128 rfl rfl k
  have el : dot_S1024x1024x128_S128x128_S1024x1024x128_2_0_01_1_n_n.lhsIdx i ((ValueIdx.contrEquiv1 dot_S1024x1024x128_S128x128_S1024x1024x128_2_0_01_1_n_n 128 rfl rfl).symm k) = lidx_main_v1 i k := funext fun a => Fin.ext (by
    match a with
    | ⟨0, _⟩ => exact lhs_main_v1_0 _ _
    | ⟨1, _⟩ => exact lhs_main_v1_1 _ _
    | ⟨2, _⟩ => exact (lhs_main_v1_2 _ _).trans hk)
  have er : dot_S1024x1024x128_S128x128_S1024x1024x128_2_0_01_1_n_n.rhsIdx i ((ValueIdx.contrEquiv1 dot_S1024x1024x128_S128x128_S1024x1024x128_2_0_01_1_n_n 128 rfl rfl).symm k) = ridx_main_v1 i k := funext fun a => Fin.ext (by
    match a with
    | ⟨0, _⟩ => exact (rhs_main_v1_0 _ _).trans hk
    | ⟨1, _⟩ => exact rhs_main_v1_1 _ _)
  rw [el, er]

-- %2 = stablehlo.broadcast_in_dim %0, dims = [0, 2] : (tensor<1024x128xf32>) -> tensor<1024x1x128xf32>
def val_main_v2 (x0 : (⟨S1024x128, .f32⟩ : BufTy).Contents (Elt F)) (x2 : (⟨S128x128, .f32⟩ : BufTy).Contents (Elt F)) : (⟨S1024x1x128, .f32⟩ : BufTy).Contents (Elt F) :=
  broadcastInDim S1024x1x128 ![0, 2] bcast_S1024x128_S1024x1x128_0_2 (val_main_v0 (F := F) x0 x2)
abbrev idx_main_v2 (i : S1024x1x128.Idx) : S1024x128.Idx := fun a => match a with
  | ⟨0, _⟩ => ⟨(i 0).val, (i 0).isLt⟩
  | ⟨1, _⟩ => ⟨(i 2).val, (i 2).isLt⟩
theorem val_main_v2_apply (x0 : (⟨S1024x128, .f32⟩ : BufTy).Contents (Elt F)) (x2 : (⟨S128x128, .f32⟩ : BufTy).Contents (Elt F)) (i : S1024x1x128.Idx) :
    val_main_v2 (F := F) x0 x2 i = val_main_v0 (F := F) x0 x2 (idx_main_v2 i) := by
  unfold val_main_v2
  generalize val_main_v0 (F := F) x0 x2 = y
  exact broadcastInDim_apply _ bcast_S1024x128_S1024x1x128_0_2 y i (idx_main_v2 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

-- %3 = stablehlo.broadcast_in_dim %2, dims = [0, 1, 2] : (tensor<1024x1x128xf32>) -> tensor<1024x1024x128xf32>
def val_main_v3 (x0 : (⟨S1024x128, .f32⟩ : BufTy).Contents (Elt F)) (x2 : (⟨S128x128, .f32⟩ : BufTy).Contents (Elt F)) : (⟨S1024x1024x128, .f32⟩ : BufTy).Contents (Elt F) :=
  broadcastInDim S1024x1024x128 ![0, 1, 2] bcast_S1024x1x128_S1024x1024x128_0_1_2 (val_main_v2 (F := F) x0 x2)
abbrev idx_main_v3 (i : S1024x1024x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v3_apply (x0 : (⟨S1024x128, .f32⟩ : BufTy).Contents (Elt F)) (x2 : (⟨S128x128, .f32⟩ : BufTy).Contents (Elt F)) (i : S1024x1024x128.Idx) :
    val_main_v3 (F := F) x0 x2 i = val_main_v2 (F := F) x0 x2 (idx_main_v3 i) := by
  unfold val_main_v3
  generalize val_main_v2 (F := F) x0 x2 = y
  exact broadcastInDim_apply _ bcast_S1024x1x128_S1024x1024x128_0_1_2 y i (idx_main_v3 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

-- %4 = stablehlo.add %1, %3 : tensor<1024x1024x128xf32>
def val_main_v4 (x0 : (⟨S1024x128, .f32⟩ : BufTy).Contents (Elt F)) (x1 : (⟨S1024x1024x128, .f32⟩ : BufTy).Contents (Elt F)) (x2 x3 : (⟨S128x128, .f32⟩ : BufTy).Contents (Elt F)) : (⟨S1024x1024x128, .f32⟩ : BufTy).Contents (Elt F) :=
  addf (val_main_v1 (F := F) x1 x3) (val_main_v3 (F := F) x0 x2)
theorem val_main_v4_apply (x0 : (⟨S1024x128, .f32⟩ : BufTy).Contents (Elt F)) (x1 : (⟨S1024x1024x128, .f32⟩ : BufTy).Contents (Elt F)) (x2 x3 : (⟨S128x128, .f32⟩ : BufTy).Contents (Elt F)) (i : S1024x1024x128.Idx) :
    val_main_v4 (F := F) x0 x1 x2 x3 i = FloatOps.addf (val_main_v1 (F := F) x1 x3 i) (val_main_v3 (F := F) x0 x2 i) := rfl

-- %5 = stablehlo.tanh %4 : tensor<1024x1024x128xf32>
def val_main_v5 (x0 : (⟨S1024x128, .f32⟩ : BufTy).Contents (Elt F)) (x1 : (⟨S1024x1024x128, .f32⟩ : BufTy).Contents (Elt F)) (x2 x3 : (⟨S128x128, .f32⟩ : BufTy).Contents (Elt F)) : (⟨S1024x1024x128, .f32⟩ : BufTy).Contents (Elt F) :=
  Host.tanh (val_main_v4 (F := F) x0 x1 x2 x3)
theorem val_main_v5_apply (x0 : (⟨S1024x128, .f32⟩ : BufTy).Contents (Elt F)) (x1 : (⟨S1024x1024x128, .f32⟩ : BufTy).Contents (Elt F)) (x2 x3 : (⟨S128x128, .f32⟩ : BufTy).Contents (Elt F)) (i : S1024x1024x128.Idx) :
    val_main_v5 (F := F) x0 x1 x2 x3 i = FloatOps.hostUnary .tanh (val_main_v4 (F := F) x0 x1 x2 x3 i) := rfl

-- %6 = stablehlo.dot_general %5, %arg4, contracting_dims = [2] x [0], precision = [DEFAULT, DEFAULT] : (tensor<1024x1024x128xf32>, tensor<128x1xf32>) -> tensor<1024x1024x1xf32>
def val_main_v6 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1024x1, .f32⟩ : BufTy).Contents (Elt F) :=
  Host.dotGeneral dot_S1024x1024x128_S128x1_S1024x1024x1_2_0_01_1_n_n none (val_main_v5 (F := F) x0 x1 x2 x3) (x4)
theorem lhs_main_v6_0 (i : S1024x1024x1.Idx) (q : dot_S1024x1024x128_S128x1_S1024x1024x1_2_0_01_1_n_n.contr.Idx) :
    (dot_S1024x1024x128_S128x1_S1024x1024x1_2_0_01_1_n_n.lhsIdx i q 0).val = (i 0).val := by
  unfold DotDims.lhsIdx
  rw [dif_neg (show ¬(0 : Fin S1024x1024x128.rank) ∈ dot_S1024x1024x128_S128x1_S1024x1024x1_2_0_01_1_n_n.lhsBatch by decide), dif_pos (show (0 : Fin S1024x1024x128.rank) ∈ dot_S1024x1024x128_S128x1_S1024x1024x1_2_0_01_1_n_n.lhsNonContracting by decide)]
  rfl
theorem lhs_main_v6_1 (i : S1024x1024x1.Idx) (q : dot_S1024x1024x128_S128x1_S1024x1024x1_2_0_01_1_n_n.contr.Idx) :
    (dot_S1024x1024x128_S128x1_S1024x1024x1_2_0_01_1_n_n.lhsIdx i q 1).val = (i 1).val := by
  unfold DotDims.lhsIdx
  rw [dif_neg (show ¬(1 : Fin S1024x1024x128.rank) ∈ dot_S1024x1024x128_S128x1_S1024x1024x1_2_0_01_1_n_n.lhsBatch by decide), dif_pos (show (1 : Fin S1024x1024x128.rank) ∈ dot_S1024x1024x128_S128x1_S1024x1024x1_2_0_01_1_n_n.lhsNonContracting by decide)]
  rfl
theorem lhs_main_v6_2 (i : S1024x1024x1.Idx) (q : dot_S1024x1024x128_S128x1_S1024x1024x1_2_0_01_1_n_n.contr.Idx) :
    (dot_S1024x1024x128_S128x1_S1024x1024x1_2_0_01_1_n_n.lhsIdx i q 2).val = (q ⟨0, by decide⟩).val :=
  dot_S1024x1024x128_S128x1_S1024x1024x1_2_0_01_1_n_n.lhsIdx_val_of_single rfl i q
theorem rhs_main_v6_0 (i : S1024x1024x1.Idx) (q : dot_S1024x1024x128_S128x1_S1024x1024x1_2_0_01_1_n_n.contr.Idx) :
    (dot_S1024x1024x128_S128x1_S1024x1024x1_2_0_01_1_n_n.rhsIdx i q 0).val = (q ⟨0, by decide⟩).val :=
  dot_S1024x1024x128_S128x1_S1024x1024x1_2_0_01_1_n_n.rhsIdx_val_of_single rfl i q
theorem rhs_main_v6_1 (i : S1024x1024x1.Idx) (q : dot_S1024x1024x128_S128x1_S1024x1024x1_2_0_01_1_n_n.contr.Idx) :
    (dot_S1024x1024x128_S128x1_S1024x1024x1_2_0_01_1_n_n.rhsIdx i q 1).val = (i 2).val := by
  unfold DotDims.rhsIdx
  rw [dif_neg (show ¬(1 : Fin S128x1.rank) ∈ dot_S1024x1024x128_S128x1_S1024x1024x1_2_0_01_1_n_n.rhsBatch by decide), dif_pos (show (1 : Fin S128x1.rank) ∈ dot_S1024x1024x128_S128x1_S1024x1024x1_2_0_01_1_n_n.rhsNonContracting by decide)]
  rfl
abbrev lidx_main_v6 (i : S1024x1024x1.Idx) (k : Fin 128) : S1024x1024x128.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v6 (i : S1024x1024x1.Idx) (k : Fin 128) : S128x1.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v6_apply (x0 : (⟨S1024x128, .f32⟩ : BufTy).Contents (Elt Ideal)) (x1 : (⟨S1024x1024x128, .f32⟩ : BufTy).Contents (Elt Ideal)) (x2 x3 : (⟨S128x128, .f32⟩ : BufTy).Contents (Elt Ideal)) (x4 : (⟨S128x1, .f32⟩ : BufTy).Contents (Elt Ideal)) (i : S1024x1024x1.Idx) :
    val_main_v6 (F := Ideal) x0 x1 x2 x3 x4 i = ∑ k : Fin 128, (val_main_v5 (F := Ideal) x0 x1 x2 x3) (lidx_main_v6 i k) * x4 (ridx_main_v6 i k) := by
  unfold val_main_v6
  generalize val_main_v5 (F := Ideal) x0 x1 x2 x3 = y0
  simp only [Host.dotGeneral]
  rw [Ideal.dotGeneral_apply, ← Equiv.sum_comp (ValueIdx.contrEquiv1 dot_S1024x1024x128_S128x1_S1024x1024x1_2_0_01_1_n_n 128 rfl rfl).symm]
  refine Finset.sum_congr rfl fun k _ => ?_
  have hk := ValueIdx.contrEquiv1_symm_val dot_S1024x1024x128_S128x1_S1024x1024x1_2_0_01_1_n_n 128 rfl rfl k
  have el : dot_S1024x1024x128_S128x1_S1024x1024x1_2_0_01_1_n_n.lhsIdx i ((ValueIdx.contrEquiv1 dot_S1024x1024x128_S128x1_S1024x1024x1_2_0_01_1_n_n 128 rfl rfl).symm k) = lidx_main_v6 i k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S1024x1024x128_S128x1_S1024x1024x1_2_0_01_1_n_n.rhsIdx i ((ValueIdx.contrEquiv1 dot_S1024x1024x128_S128x1_S1024x1024x1_2_0_01_1_n_n 128 rfl rfl).symm k) = ridx_main_v6 i k := funext fun a => Fin.ext (by
    match a with
    | ⟨0, _⟩ => exact (rhs_main_v6_0 _ _).trans hk
    | ⟨1, _⟩ => exact rhs_main_v6_1 _ _)
  rw [el, er]

-- %cst = stablehlo.constant dense<0xFF800000> : tensor<f32>
def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

-- %7 = stablehlo.reduce(%6 init: %cst) applies stablehlo.maximum across dimensions = [1] : (tensor<1024x1024x1xf32>, tensor<f32>) -> tensor<1024x1xf32> {
def val_main_v7 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1, .f32⟩ : BufTy).Contents (Elt F) :=
  Host.reduce FloatOps.maximumf (val_main_v6 (F := F) x0 x1 x2 x3 x4) (val_main_cst (F := F)) reducesTo_S1024x1024x1_S1024x1_d1 h_S_

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- %8 = stablehlo.broadcast_in_dim %cst_0, dims = [] : (tensor<f32>) -> tensor<1024x1xf32>
def val_main_v8 : (⟨S1024x1, .f32⟩ : BufTy).Contents (Elt F) :=
  broadcastInDim S1024x1 ![] bcast_S_S1024x1 (val_main_cst_0 (F := F))
abbrev idx_main_v8 (i : S1024x1.Idx) : S_.Idx := fun a => a.elim0
theorem val_main_v8_apply (i : S1024x1.Idx) :
    val_main_v8 (F := F) i = val_main_cst_0 (F := F) (idx_main_v8 i) := by
  unfold val_main_v8
  generalize val_main_cst_0 (F := F) = y
  exact broadcastInDim_apply _ bcast_S_S1024x1 y i (idx_main_v8 i) (fun a => a.elim0)

-- %9 = stablehlo.maximum %8, %7 : tensor<1024x1xf32>
def val_main_v9 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1, .f32⟩ : BufTy).Contents (Elt F) :=
  maximumf (val_main_v8 (F := F)) (val_main_v7 (F := F) x0 x1 x2 x3 x4)
theorem val_main_v9_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1.Idx) :
    val_main_v9 (F := F) x0 x1 x2 x3 x4 i = FloatOps.maximumf (val_main_v8 (F := F) i) (val_main_v7 (F := F) x0 x1 x2 x3 x4 i) := rfl

-- %10 = stablehlo.broadcast_in_dim %9, dims = [0, 2] : (tensor<1024x1xf32>) -> tensor<1024x1x1xf32>
def val_main_v10 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1x1, .f32⟩ : BufTy).Contents (Elt F) :=
  broadcastInDim S1024x1x1 ![0, 2] bcast_S1024x1_S1024x1x1_0_2 (val_main_v9 (F := F) x0 x1 x2 x3 x4)
abbrev idx_main_v10 (i : S1024x1x1.Idx) : S1024x1.Idx := fun a => match a with
  | ⟨0, _⟩ => ⟨(i 0).val, (i 0).isLt⟩
  | ⟨1, _⟩ => ⟨0, Nat.one_pos⟩
theorem val_main_v10_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1x1.Idx) :
    val_main_v10 (F := F) x0 x1 x2 x3 x4 i = val_main_v9 (F := F) x0 x1 x2 x3 x4 (idx_main_v10 i) := by
  unfold val_main_v10
  generalize val_main_v9 (F := F) x0 x1 x2 x3 x4 = y
  exact broadcastInDim_apply _ bcast_S1024x1_S1024x1x1_0_2 y i (idx_main_v10 i) (fun a => match a with
    | ⟨0, _⟩ => by show (i 0).val = if (1024 : Nat) = 1 then 0 else (i 0).val; rw [if_neg (by decide)]
    | ⟨1, _⟩ => by show 0 = if (1 : Nat) = 1 then 0 else (i 2).val; rw [if_pos rfl])

-- %11 = stablehlo.broadcast_in_dim %10, dims = [0, 1, 2] : (tensor<1024x1x1xf32>) -> tensor<1024x1024x1xf32>
def val_main_v11 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1024x1, .f32⟩ : BufTy).Contents (Elt F) :=
  broadcastInDim S1024x1024x1 ![0, 1, 2] bcast_S1024x1x1_S1024x1024x1_0_1_2 (val_main_v10 (F := F) x0 x1 x2 x3 x4)
abbrev idx_main_v11 (i : S1024x1024x1.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v11_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1024x1.Idx) :
    val_main_v11 (F := F) x0 x1 x2 x3 x4 i = val_main_v10 (F := F) x0 x1 x2 x3 x4 (idx_main_v11 i) := by
  unfold val_main_v11
  generalize val_main_v10 (F := F) x0 x1 x2 x3 x4 = y
  exact broadcastInDim_apply _ bcast_S1024x1x1_S1024x1024x1_0_1_2 y i (idx_main_v11 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %12 = stablehlo.subtract %6, %11 : tensor<1024x1024x1xf32>
def val_main_v12 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1024x1, .f32⟩ : BufTy).Contents (Elt F) :=
  subf (val_main_v6 (F := F) x0 x1 x2 x3 x4) (val_main_v11 (F := F) x0 x1 x2 x3 x4)
theorem val_main_v12_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1024x1.Idx) :
    val_main_v12 (F := F) x0 x1 x2 x3 x4 i = FloatOps.subf (val_main_v6 (F := F) x0 x1 x2 x3 x4 i) (val_main_v11 (F := F) x0 x1 x2 x3 x4 i) := rfl

-- %13 = stablehlo.exponential %12 : tensor<1024x1024x1xf32>
def val_main_v13 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1024x1, .f32⟩ : BufTy).Contents (Elt F) :=
  Host.exp (val_main_v12 (F := F) x0 x1 x2 x3 x4)
theorem val_main_v13_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1024x1.Idx) :
    val_main_v13 (F := F) x0 x1 x2 x3 x4 i = FloatOps.hostUnary .exp (val_main_v12 (F := F) x0 x1 x2 x3 x4 i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %14 = stablehlo.reduce(%13 init: %cst_1) applies stablehlo.add across dimensions = [1] : (tensor<1024x1024x1xf32>, tensor<f32>) -> tensor<1024x1xf32> {
def val_main_v14 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1, .f32⟩ : BufTy).Contents (Elt F) :=
  Host.reduceAdd (val_main_v13 (F := F) x0 x1 x2 x3 x4) (val_main_cst_1 (F := F)) reducesTo_S1024x1024x1_S1024x1_d1 h_S_
abbrev idx_main_v14 (i : S1024x1.Idx) (k : Fin 1024) : S1024x1024x1.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v14_apply (x0 : (⟨S1024x128, .f32⟩ : BufTy).Contents (Elt Ideal)) (x1 : (⟨S1024x1024x128, .f32⟩ : BufTy).Contents (Elt Ideal)) (x2 x3 : (⟨S128x128, .f32⟩ : BufTy).Contents (Elt Ideal)) (x4 : (⟨S128x1, .f32⟩ : BufTy).Contents (Elt Ideal)) (i : S1024x1.Idx) :
    val_main_v14 (F := Ideal) x0 x1 x2 x3 x4 i = (val_main_cst_1 (F := Ideal)) (Shape.Idx.first h_S_) + ∑ k : Fin 1024, (val_main_v13 (F := Ideal) x0 x1 x2 x3 x4) (idx_main_v14 i k) := by
  unfold val_main_v14
  generalize val_main_v13 (F := Ideal) x0 x1 x2 x3 x4 = y0
  simp only [Host.reduceAdd, Ideal.hostReduceAdd_def]
  rw [Ideal.hostReduceAdd_single reducesTo_S1024x1024x1_S1024x1_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %15 = stablehlo.broadcast_in_dim %14, dims = [0, 2] : (tensor<1024x1xf32>) -> tensor<1024x1x1xf32>
def val_main_v15 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1x1, .f32⟩ : BufTy).Contents (Elt F) :=
  broadcastInDim S1024x1x1 ![0, 2] bcast_S1024x1_S1024x1x1_0_2 (val_main_v14 (F := F) x0 x1 x2 x3 x4)
abbrev idx_main_v15 (i : S1024x1x1.Idx) : S1024x1.Idx := fun a => match a with
  | ⟨0, _⟩ => ⟨(i 0).val, (i 0).isLt⟩
  | ⟨1, _⟩ => ⟨0, Nat.one_pos⟩
theorem val_main_v15_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1x1.Idx) :
    val_main_v15 (F := F) x0 x1 x2 x3 x4 i = val_main_v14 (F := F) x0 x1 x2 x3 x4 (idx_main_v15 i) := by
  unfold val_main_v15
  generalize val_main_v14 (F := F) x0 x1 x2 x3 x4 = y
  exact broadcastInDim_apply _ bcast_S1024x1_S1024x1x1_0_2 y i (idx_main_v15 i) (fun a => match a with
    | ⟨0, _⟩ => by show (i 0).val = if (1024 : Nat) = 1 then 0 else (i 0).val; rw [if_neg (by decide)]
    | ⟨1, _⟩ => by show 0 = if (1 : Nat) = 1 then 0 else (i 2).val; rw [if_pos rfl])

-- %16 = stablehlo.broadcast_in_dim %15, dims = [0, 1, 2] : (tensor<1024x1x1xf32>) -> tensor<1024x1024x1xf32>
def val_main_v16 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1024x1, .f32⟩ : BufTy).Contents (Elt F) :=
  broadcastInDim S1024x1024x1 ![0, 1, 2] bcast_S1024x1x1_S1024x1024x1_0_1_2 (val_main_v15 (F := F) x0 x1 x2 x3 x4)
abbrev idx_main_v16 (i : S1024x1024x1.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v16_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1024x1.Idx) :
    val_main_v16 (F := F) x0 x1 x2 x3 x4 i = val_main_v15 (F := F) x0 x1 x2 x3 x4 (idx_main_v16 i) := by
  unfold val_main_v16
  generalize val_main_v15 (F := F) x0 x1 x2 x3 x4 = y
  exact broadcastInDim_apply _ bcast_S1024x1x1_S1024x1024x1_0_1_2 y i (idx_main_v16 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %17 = stablehlo.divide %13, %16 : tensor<1024x1024x1xf32>
def val_main_v17 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1024x1, .f32⟩ : BufTy).Contents (Elt F) :=
  Host.divf (val_main_v13 (F := F) x0 x1 x2 x3 x4) (val_main_v16 (F := F) x0 x1 x2 x3 x4)
theorem val_main_v17_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1024x1.Idx) :
    val_main_v17 (F := F) x0 x1 x2 x3 x4 i = FloatOps.hostDivf (val_main_v13 (F := F) x0 x1 x2 x3 x4 i) (val_main_v16 (F := F) x0 x1 x2 x3 x4 i) := rfl

-- %18 = stablehlo.broadcast_in_dim %17, dims = [0, 1, 2] : (tensor<1024x1024x1xf32>) -> tensor<1024x1024x128xf32>
def val_main_v18 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1024x128, .f32⟩ : BufTy).Contents (Elt F) :=
  broadcastInDim S1024x1024x128 ![0, 1, 2] bcast_S1024x1024x1_S1024x1024x128_0_1_2 (val_main_v17 (F := F) x0 x1 x2 x3 x4)
abbrev idx_main_v18 (i : S1024x1024x128.Idx) : S1024x1024x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v18_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1024x128.Idx) :
    val_main_v18 (F := F) x0 x1 x2 x3 x4 i = val_main_v17 (F := F) x0 x1 x2 x3 x4 (idx_main_v18 i) := by
  unfold val_main_v18
  generalize val_main_v17 (F := F) x0 x1 x2 x3 x4 = y
  exact broadcastInDim_apply _ bcast_S1024x1024x1_S1024x1024x128_0_1_2 y i (idx_main_v18 i) (fun a => match a with
    | ⟨0, _⟩ => by show (i 0).val = if (1024 : Nat) = 1 then 0 else (i 0).val; rw [if_neg (by decide)]
    | ⟨1, _⟩ => by show (i 1).val = if (1024 : Nat) = 1 then 0 else (i 1).val; rw [if_neg (by decide)]
    | ⟨2, _⟩ => by show 0 = if (1 : Nat) = 1 then 0 else (i 2).val; rw [if_pos rfl])

-- %19 = stablehlo.multiply %18, %arg1 : tensor<1024x1024x128xf32>
def val_main_v19 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x1024x128, .f32⟩ : BufTy).Contents (Elt F) :=
  mulf (val_main_v18 (F := F) x0 x1 x2 x3 x4) (x1)
theorem val_main_v19_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (i : S1024x1024x128.Idx) :
    val_main_v19 (F := F) x0 x1 x2 x3 x4 i = FloatOps.mulf (val_main_v18 (F := F) x0 x1 x2 x3 x4 i) (x1 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- %20 = stablehlo.reduce(%19 init: %cst_2) applies stablehlo.add across dimensions = [1] : (tensor<1024x1024x128xf32>, tensor<f32>) -> tensor<1024x128xf32> {
def val_main_v20 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x128, .f32⟩ : BufTy).Contents (Elt F) :=
  Host.reduceAdd (val_main_v19 (F := F) x0 x1 x2 x3 x4) (val_main_cst_2 (F := F)) reducesTo_S1024x1024x128_S1024x128_d1 h_S_
abbrev idx_main_v20 (i : S1024x128.Idx) (k : Fin 1024) : S1024x1024x128.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v20_apply (x0 : (⟨S1024x128, .f32⟩ : BufTy).Contents (Elt Ideal)) (x1 : (⟨S1024x1024x128, .f32⟩ : BufTy).Contents (Elt Ideal)) (x2 x3 : (⟨S128x128, .f32⟩ : BufTy).Contents (Elt Ideal)) (x4 : (⟨S128x1, .f32⟩ : BufTy).Contents (Elt Ideal)) (i : S1024x128.Idx) :
    val_main_v20 (F := Ideal) x0 x1 x2 x3 x4 i = (val_main_cst_2 (F := Ideal)) (Shape.Idx.first h_S_) + ∑ k : Fin 1024, (val_main_v19 (F := Ideal) x0 x1 x2 x3 x4) (idx_main_v20 i k) := by
  unfold val_main_v20
  generalize val_main_v19 (F := Ideal) x0 x1 x2 x3 x4 = y0
  simp only [Host.reduceAdd, Ideal.hostReduceAdd_def]
  rw [Ideal.hostReduceAdd_single reducesTo_S1024x1024x128_S1024x128_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %21 = stablehlo.concatenate %20, %arg0, dim = 1 : (tensor<1024x128xf32>, tensor<1024x128xf32>) -> tensor<1024x256xf32>
def val_main_v21 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) : (⟨S1024x256, .f32⟩ : BufTy).Contents (Elt F) :=
  concatenate S1024x256 1 [⟨S1024x128, (val_main_v20 (F := F) x0 x1 x2 x3 x4)⟩, ⟨S1024x128, (x0)⟩] concatenates_S1024x128_S1024x128_S1024x256_d1

-- %22 = stablehlo.dot_general %21, %arg5, contracting_dims = [1] x [0], precision = [DEFAULT, DEFAULT] : (tensor<1024x256xf32>, tensor<256x128xf32>) -> tensor<1024x128xf32>
def val_main_v22 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) : (⟨S1024x128, .f32⟩ : BufTy).Contents (Elt F) :=
  Host.dotGeneral dot_S1024x256_S256x128_S1024x128_1_0_0_1_n_n none (val_main_v21 (F := F) x0 x1 x2 x3 x4) (x5)
theorem lhs_main_v22_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_main_v22_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_main_v22_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_main_v22_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl
abbrev lidx_main_v22 (i : S1024x128.Idx) (k : Fin 256) : S1024x256.Idx := fun a => match a with
  | ⟨0, _⟩ => ⟨(i 0).val, (i 0).isLt⟩
  | ⟨1, _⟩ => ⟨k.val, k.isLt⟩
abbrev ridx_main_v22 (i : S1024x128.Idx) (k : Fin 256) : S256x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v22_apply (x0 : (⟨S1024x128, .f32⟩ : BufTy).Contents (Elt Ideal)) (x1 : (⟨S1024x1024x128, .f32⟩ : BufTy).Contents (Elt Ideal)) (x2 x3 : (⟨S128x128, .f32⟩ : BufTy).Contents (Elt Ideal)) (x4 : (⟨S128x1, .f32⟩ : BufTy).Contents (Elt Ideal)) (x5 : (⟨S256x128, .f32⟩ : BufTy).Contents (Elt Ideal)) (i : S1024x128.Idx) :
    val_main_v22 (F := Ideal) x0 x1 x2 x3 x4 x5 i = ∑ k : Fin 256, (val_main_v21 (F := Ideal) x0 x1 x2 x3 x4) (lidx_main_v22 i k) * x5 (ridx_main_v22 i k) := by
  unfold val_main_v22
  generalize val_main_v21 (F := Ideal) x0 x1 x2 x3 x4 = y0
  simp only [Host.dotGeneral]
  rw [Ideal.dotGeneral_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx i ((ValueIdx.contrEquiv1 dot_S1024x256_S256x128_S1024x128_1_0_0_1_n_n 256 rfl rfl).symm k) = lidx_main_v22 i k := funext fun a => Fin.ext (by
    match a with
    | ⟨0, _⟩ => exact lhs_main_v22_0 _ _
    | ⟨1, _⟩ => exact (lhs_main_v22_1 _ _).trans hk)
  have er : dot_S1024x256_S256x128_S1024x128_1_0_0_1_n_n.rhsIdx i ((ValueIdx.contrEquiv1 dot_S1024x256_S256x128_S1024x128_1_0_0_1_n_n 256 rfl rfl).symm k) = ridx_main_v22 i k := funext fun a => Fin.ext (by
    match a with
    | ⟨0, _⟩ => exact (rhs_main_v22_0 _ _).trans hk
    | ⟨1, _⟩ => exact rhs_main_v22_1 _ _)
  rw [el, er]

-- %23 = stablehlo.broadcast_in_dim %arg6, dims = [1] : (tensor<128xf32>) -> tensor<1x128xf32>
def val_main_v23 (x6 : (⟨S128, .f32⟩ : BufTy).Contents (Elt F)) : (⟨S1x128, .f32⟩ : BufTy).Contents (Elt F) :=
  broadcastInDim S1x128 ![1] bcast_S128_S1x128_1 (x6)
abbrev idx_main_v23 (i : S1x128.Idx) : S128.Idx := fun a => match a with
  | ⟨0, _⟩ => ⟨(i 1).val, (i 1).isLt⟩
theorem val_main_v23_apply (x6 : (⟨S128, .f32⟩ : BufTy).Contents (Elt F)) (i : S1x128.Idx) :
    val_main_v23 (F := F) x6 i = x6 (idx_main_v23 i) := by
  unfold val_main_v23
  exact broadcastInDim_apply _ bcast_S128_S1x128_1 x6 i (idx_main_v23 i) (fun a => match a with
    | ⟨0, _⟩ => by show (i 1).val = if (128 : Nat) = 1 then 0 else (i 1).val; rw [if_neg (by decide)])

-- %24 = stablehlo.broadcast_in_dim %23, dims = [0, 1] : (tensor<1x128xf32>) -> tensor<1024x128xf32>
def val_main_v24 (x6 : (⟨S128, .f32⟩ : BufTy).Contents (Elt F)) : (⟨S1024x128, .f32⟩ : BufTy).Contents (Elt F) :=
  broadcastInDim S1024x128 ![0, 1] bcast_S1x128_S1024x128_0_1 (val_main_v23 (F := F) x6)
abbrev idx_main_v24 (i : S1024x128.Idx) : S1x128.Idx := fun a => match a with
  | ⟨0, _⟩ => ⟨0, Nat.one_pos⟩
  | ⟨1, _⟩ => ⟨(i 1).val, (i 1).isLt⟩
theorem val_main_v24_apply (x6 : (⟨S128, .f32⟩ : BufTy).Contents (Elt F)) (i : S1024x128.Idx) :
    val_main_v24 (F := F) x6 i = val_main_v23 (F := F) x6 (idx_main_v24 i) := by
  unfold val_main_v24
  generalize val_main_v23 (F := F) x6 = y
  exact broadcastInDim_apply _ bcast_S1x128_S1024x128_0_1 y i (idx_main_v24 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %25 = stablehlo.add %22, %24 : tensor<1024x128xf32>
def val_main_v25 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x128, .f32⟩ : BufTy).Contents (Elt F) :=
  addf (val_main_v22 (F := F) x0 x1 x2 x3 x4 x5) (val_main_v24 (F := F) x6)
theorem val_main_v25_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x128.Idx) :
    val_main_v25 (F := F) x0 x1 x2 x3 x4 x5 x6 i = FloatOps.addf (val_main_v22 (F := F) x0 x1 x2 x3 x4 x5 i) (val_main_v24 (F := F) x6 i) := rfl

-- %26 = stablehlo.tanh %25 : tensor<1024x128xf32>
def val_main_v26 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x128, .f32⟩ : BufTy).Contents (Elt F) :=
  Host.tanh (val_main_v25 (F := F) x0 x1 x2 x3 x4 x5 x6)
theorem val_main_v26_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x128.Idx) :
    val_main_v26 (F := F) x0 x1 x2 x3 x4 x5 x6 i = FloatOps.hostUnary .tanh (val_main_v25 (F := F) x0 x1 x2 x3 x4 x5 x6 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %27 = stablehlo.reduce(%26 init: %cst_3) applies stablehlo.add across dimensions = [1] : (tensor<1024x128xf32>, tensor<f32>) -> tensor<1024xf32> {
def val_main_v27 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024, .f32⟩ : BufTy).Contents (Elt F) :=
  Host.reduceAdd (val_main_v26 (F := F) x0 x1 x2 x3 x4 x5 x6) (val_main_cst_3 (F := F)) reducesTo_S1024x128_S1024_d1 h_S_
abbrev idx_main_v27 (i : S1024.Idx) (k : Fin 128) : S1024x128.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v27_apply (x0 : (⟨S1024x128, .f32⟩ : BufTy).Contents (Elt Ideal)) (x1 : (⟨S1024x1024x128, .f32⟩ : BufTy).Contents (Elt Ideal)) (x2 x3 : (⟨S128x128, .f32⟩ : BufTy).Contents (Elt Ideal)) (x4 : (⟨S128x1, .f32⟩ : BufTy).Contents (Elt Ideal)) (x5 : (⟨S256x128, .f32⟩ : BufTy).Contents (Elt Ideal)) (x6 : (⟨S128, .f32⟩ : BufTy).Contents (Elt Ideal)) (i : S1024.Idx) :
    val_main_v27 (F := Ideal) x0 x1 x2 x3 x4 x5 x6 i = (val_main_cst_3 (F := Ideal)) (Shape.Idx.first h_S_) + ∑ k : Fin 128, (val_main_v26 (F := Ideal) x0 x1 x2 x3 x4 x5 x6) (idx_main_v27 i k) := by
  unfold val_main_v27
  generalize val_main_v26 (F := Ideal) x0 x1 x2 x3 x4 x5 x6 = y0
  simp only [Host.reduceAdd, Ideal.hostReduceAdd_def]
  rw [Ideal.hostReduceAdd_single reducesTo_S1024x128_S1024_d1 (by decide)]
  refine congrArg (_ + ·) (Finset.sum_congr rfl fun k _ => ?_)
  exact congrArg y0 (funext fun a => Fin.ext (by match a with | ⟨0, _⟩ => rfl | ⟨1, _⟩ => rfl))

-- %28 = stablehlo.broadcast_in_dim %27, dims = [0] : (tensor<1024xf32>) -> tensor<1024x1xf32>
def val_main_v28 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x1, .f32⟩ : BufTy).Contents (Elt F) :=
  broadcastInDim S1024x1 ![0] bcast_S1024_S1024x1_0 (val_main_v27 (F := F) x0 x1 x2 x3 x4 x5 x6)
abbrev idx_main_v28 (i : S1024x1.Idx) : S1024.Idx := fun a => match a with
  | ⟨0, _⟩ => ⟨(i 0).val, (i 0).isLt⟩
theorem val_main_v28_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x1.Idx) :
    val_main_v28 (F := F) x0 x1 x2 x3 x4 x5 x6 i = val_main_v27 (F := F) x0 x1 x2 x3 x4 x5 x6 (idx_main_v28 i) := by
  unfold val_main_v28
  generalize val_main_v27 (F := F) x0 x1 x2 x3 x4 x5 x6 = y
  exact broadcastInDim_apply _ bcast_S1024_S1024x1_0 y i (idx_main_v28 i) (fun a => match a with
    | ⟨0, _⟩ => by show (i 0).val = if (1024 : Nat) = 1 then 0 else (i 0).val; rw [if_neg (by decide)])

-- %cst_4 = stablehlo.constant dense<1.280000e+02> : tensor<f32>
def val_main_cst_4 : (⟨S_, .f32⟩ : BufTy).Contents (Elt F) :=
  constant S_ .f32 0x43000000#32
theorem val_main_cst_4_apply (i : S_.Idx) :
    val_main_cst_4 (F := F) i = FloatOps.ofBits .f32 0x43000000#32 := rfl

-- %29 = stablehlo.broadcast_in_dim %cst_4, dims = [] : (tensor<f32>) -> tensor<1024x1xf32>
def val_main_v29 : (⟨S1024x1, .f32⟩ : BufTy).Contents (Elt F) :=
  broadcastInDim S1024x1 ![] bcast_S_S1024x1 (val_main_cst_4 (F := F))
abbrev idx_main_v29 (i : S1024x1.Idx) : S_.Idx := fun a => a.elim0
theorem val_main_v29_apply (i : S1024x1.Idx) :
    val_main_v29 (F := F) i = val_main_cst_4 (F := F) (idx_main_v29 i) := by
  unfold val_main_v29
  generalize val_main_cst_4 (F := F) = y
  exact broadcastInDim_apply _ bcast_S_S1024x1 y i (idx_main_v29 i) (fun a => a.elim0)

-- %30 = stablehlo.divide %28, %29 : tensor<1024x1xf32>
def val_main_v30 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x1, .f32⟩ : BufTy).Contents (Elt F) :=
  Host.divf (val_main_v28 (F := F) x0 x1 x2 x3 x4 x5 x6) (val_main_v29 (F := F))
theorem val_main_v30_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x1.Idx) :
    val_main_v30 (F := F) x0 x1 x2 x3 x4 x5 x6 i = FloatOps.hostDivf (val_main_v28 (F := F) x0 x1 x2 x3 x4 x5 x6 i) (val_main_v29 (F := F) i) := rfl

-- %31 = stablehlo.broadcast_in_dim %30, dims = [0, 1] : (tensor<1024x1xf32>) -> tensor<1024x128xf32>
def val_main_v31 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x128, .f32⟩ : BufTy).Contents (Elt F) :=
  broadcastInDim S1024x128 ![0, 1] bcast_S1024x1_S1024x128_0_1 (val_main_v30 (F := F) x0 x1 x2 x3 x4 x5 x6)
abbrev idx_main_v31 (i : S1024x128.Idx) : S1024x1.Idx := fun a => match a with
  | ⟨0, _⟩ => ⟨(i 0).val, (i 0).isLt⟩
  | ⟨1, _⟩ => ⟨0, Nat.one_pos⟩
theorem val_main_v31_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x128.Idx) :
    val_main_v31 (F := F) x0 x1 x2 x3 x4 x5 x6 i = val_main_v30 (F := F) x0 x1 x2 x3 x4 x5 x6 (idx_main_v31 i) := by
  unfold val_main_v31
  generalize val_main_v30 (F := F) x0 x1 x2 x3 x4 x5 x6 = y
  exact broadcastInDim_apply _ bcast_S1024x1_S1024x128_0_1 y i (idx_main_v31 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])

-- %32 = stablehlo.subtract %26, %31 : tensor<1024x128xf32>
def val_main_v32 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x128, .f32⟩ : BufTy).Contents (Elt F) :=
  subf (val_main_v26 (F := F) x0 x1 x2 x3 x4 x5 x6) (val_main_v31 (F := F) x0 x1 x2 x3 x4 x5 x6)
theorem val_main_v32_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x128.Idx) :
    val_main_v32 (F := F) x0 x1 x2 x3 x4 x5 x6 i = FloatOps.subf (val_main_v26 (F := F) x0 x1 x2 x3 x4 x5 x6 i) (val_main_v31 (F := F) x0 x1 x2 x3 x4 x5 x6 i) := rfl

-- %33 = chlo.square %32 : tensor<1024x128xf32> -> tensor<1024x128xf32>
def val_main_v33 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x128, .f32⟩ : BufTy).Contents (Elt F) :=
  mulf (val_main_v32 (F := F) x0 x1 x2 x3 x4 x5 x6) (val_main_v32 (F := F) x0 x1 x2 x3 x4 x5 x6)
theorem val_main_v33_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x128.Idx) :
    val_main_v33 (F := F) x0 x1 x2 x3 x4 x5 x6 i = FloatOps.mulf (val_main_v32 (F := F) x0 x1 x2 x3 x4 x5 x6 i) (val_main_v32 (F := F) x0 x1 x2 x3 x4 x5 x6 i) := rfl

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- %34 = stablehlo.reduce(%33 init: %cst_5) applies stablehlo.add across dimensions = [1] : (tensor<1024x128xf32>, tensor<f32>) -> tensor<1024xf32> {
def val_main_v34 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024, .f32⟩ : BufTy).Contents (Elt F) :=
  Host.reduceAdd (val_main_v33 (F := F) x0 x1 x2 x3 x4 x5 x6) (val_main_cst_5 (F := F)) reducesTo_S1024x128_S1024_d1 h_S_
abbrev idx_main_v34 (i : S1024.Idx) (k : Fin 128) : S1024x128.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v34_apply (x0 : (⟨S1024x128, .f32⟩ : BufTy).Contents (Elt Ideal)) (x1 : (⟨S1024x1024x128, .f32⟩ : BufTy).Contents (Elt Ideal)) (x2 x3 : (⟨S128x128, .f32⟩ : BufTy).Contents (Elt Ideal)) (x4 : (⟨S128x1, .f32⟩ : BufTy).Contents (Elt Ideal)) (x5 : (⟨S256x128, .f32⟩ : BufTy).Contents (Elt Ideal)) (x6 : (⟨S128, .f32⟩ : BufTy).Contents (Elt Ideal)) (i : S1024.Idx) :
    val_main_v34 (F := Ideal) x0 x1 x2 x3 x4 x5 x6 i = (val_main_cst_5 (F := Ideal)) (Shape.Idx.first h_S_) + ∑ k : Fin 128, (val_main_v33 (F := Ideal) x0 x1 x2 x3 x4 x5 x6) (idx_main_v34 i k) := by
  unfold val_main_v34
  generalize val_main_v33 (F := Ideal) x0 x1 x2 x3 x4 x5 x6 = y0
  simp only [Host.reduceAdd, Ideal.hostReduceAdd_def]
  rw [Ideal.hostReduceAdd_single reducesTo_S1024x128_S1024_d1 (by decide)]
  refine congrArg (_ + ·) (Finset.sum_congr rfl fun k _ => ?_)
  exact congrArg y0 (funext fun a => Fin.ext (by match a with | ⟨0, _⟩ => rfl | ⟨1, _⟩ => rfl))

-- %35 = stablehlo.broadcast_in_dim %34, dims = [0] : (tensor<1024xf32>) -> tensor<1024x1xf32>
def val_main_v35 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x1, .f32⟩ : BufTy).Contents (Elt F) :=
  broadcastInDim S1024x1 ![0] bcast_S1024_S1024x1_0 (val_main_v34 (F := F) x0 x1 x2 x3 x4 x5 x6)
abbrev idx_main_v35 (i : S1024x1.Idx) : S1024.Idx := fun a => match a with
  | ⟨0, _⟩ => ⟨(i 0).val, (i 0).isLt⟩
theorem val_main_v35_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x1.Idx) :
    val_main_v35 (F := F) x0 x1 x2 x3 x4 x5 x6 i = val_main_v34 (F := F) x0 x1 x2 x3 x4 x5 x6 (idx_main_v35 i) := by
  unfold val_main_v35
  generalize val_main_v34 (F := F) x0 x1 x2 x3 x4 x5 x6 = y
  exact broadcastInDim_apply _ bcast_S1024_S1024x1_0 y i (idx_main_v35 i) (fun a => match a with
    | ⟨0, _⟩ => by show (i 0).val = if (1024 : Nat) = 1 then 0 else (i 0).val; rw [if_neg (by decide)])

-- %cst_6 = stablehlo.constant dense<1.280000e+02> : tensor<f32>
def val_main_cst_6 : (⟨S_, .f32⟩ : BufTy).Contents (Elt F) :=
  constant S_ .f32 0x43000000#32
theorem val_main_cst_6_apply (i : S_.Idx) :
    val_main_cst_6 (F := F) i = FloatOps.ofBits .f32 0x43000000#32 := rfl

-- %36 = stablehlo.broadcast_in_dim %cst_6, dims = [] : (tensor<f32>) -> tensor<1024x1xf32>
def val_main_v36 : (⟨S1024x1, .f32⟩ : BufTy).Contents (Elt F) :=
  broadcastInDim S1024x1 ![] bcast_S_S1024x1 (val_main_cst_6 (F := F))
abbrev idx_main_v36 (i : S1024x1.Idx) : S_.Idx := fun a => a.elim0
theorem val_main_v36_apply (i : S1024x1.Idx) :
    val_main_v36 (F := F) i = val_main_cst_6 (F := F) (idx_main_v36 i) := by
  unfold val_main_v36
  generalize val_main_cst_6 (F := F) = y
  exact broadcastInDim_apply _ bcast_S_S1024x1 y i (idx_main_v36 i) (fun a => a.elim0)

-- %37 = stablehlo.divide %35, %36 : tensor<1024x1xf32>
def val_main_v37 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x1, .f32⟩ : BufTy).Contents (Elt F) :=
  Host.divf (val_main_v35 (F := F) x0 x1 x2 x3 x4 x5 x6) (val_main_v36 (F := F))
theorem val_main_v37_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x1.Idx) :
    val_main_v37 (F := F) x0 x1 x2 x3 x4 x5 x6 i = FloatOps.hostDivf (val_main_v35 (F := F) x0 x1 x2 x3 x4 x5 x6 i) (val_main_v36 (F := F) i) := rfl

-- %38 = stablehlo.broadcast_in_dim %30, dims = [0, 1] : (tensor<1024x1xf32>) -> tensor<1024x128xf32>
def val_main_v38 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x128, .f32⟩ : BufTy).Contents (Elt F) :=
  broadcastInDim S1024x128 ![0, 1] bcast_S1024x1_S1024x128_0_1 (val_main_v30 (F := F) x0 x1 x2 x3 x4 x5 x6)
abbrev idx_main_v38 (i : S1024x128.Idx) : S1024x1.Idx := fun a => match a with
  | ⟨0, _⟩ => ⟨(i 0).val, (i 0).isLt⟩
  | ⟨1, _⟩ => ⟨0, Nat.one_pos⟩
theorem val_main_v38_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x128.Idx) :
    val_main_v38 (F := F) x0 x1 x2 x3 x4 x5 x6 i = val_main_v30 (F := F) x0 x1 x2 x3 x4 x5 x6 (idx_main_v38 i) := by
  unfold val_main_v38
  generalize val_main_v30 (F := F) x0 x1 x2 x3 x4 x5 x6 = y
  exact broadcastInDim_apply _ bcast_S1024x1_S1024x128_0_1 y i (idx_main_v38 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])

-- %39 = stablehlo.subtract %26, %38 : tensor<1024x128xf32>
def val_main_v39 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x128, .f32⟩ : BufTy).Contents (Elt F) :=
  subf (val_main_v26 (F := F) x0 x1 x2 x3 x4 x5 x6) (val_main_v38 (F := F) x0 x1 x2 x3 x4 x5 x6)
theorem val_main_v39_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x128.Idx) :
    val_main_v39 (F := F) x0 x1 x2 x3 x4 x5 x6 i = FloatOps.subf (val_main_v26 (F := F) x0 x1 x2 x3 x4 x5 x6 i) (val_main_v38 (F := F) x0 x1 x2 x3 x4 x5 x6 i) := rfl

-- %cst_7 = stablehlo.constant dense<1.000000e-03> : tensor<f32>
def val_main_cst_7 : (⟨S_, .f32⟩ : BufTy).Contents (Elt F) :=
  constant S_ .f32 0x3A83126F#32
theorem val_main_cst_7_apply (i : S_.Idx) :
    val_main_cst_7 (F := F) i = FloatOps.ofBits .f32 0x3A83126F#32 := rfl

-- %40 = stablehlo.broadcast_in_dim %cst_7, dims = [] : (tensor<f32>) -> tensor<1024x1xf32>
def val_main_v40 : (⟨S1024x1, .f32⟩ : BufTy).Contents (Elt F) :=
  broadcastInDim S1024x1 ![] bcast_S_S1024x1 (val_main_cst_7 (F := F))
abbrev idx_main_v40 (i : S1024x1.Idx) : S_.Idx := fun a => a.elim0
theorem val_main_v40_apply (i : S1024x1.Idx) :
    val_main_v40 (F := F) i = val_main_cst_7 (F := F) (idx_main_v40 i) := by
  unfold val_main_v40
  generalize val_main_cst_7 (F := F) = y
  exact broadcastInDim_apply _ bcast_S_S1024x1 y i (idx_main_v40 i) (fun a => a.elim0)

-- %41 = stablehlo.add %37, %40 : tensor<1024x1xf32>
def val_main_v41 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x1, .f32⟩ : BufTy).Contents (Elt F) :=
  addf (val_main_v37 (F := F) x0 x1 x2 x3 x4 x5 x6) (val_main_v40 (F := F))
theorem val_main_v41_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x1.Idx) :
    val_main_v41 (F := F) x0 x1 x2 x3 x4 x5 x6 i = FloatOps.addf (val_main_v37 (F := F) x0 x1 x2 x3 x4 x5 x6 i) (val_main_v40 (F := F) i) := rfl

-- %42 = stablehlo.rsqrt %41 : tensor<1024x1xf32>
def val_main_v42 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x1, .f32⟩ : BufTy).Contents (Elt F) :=
  Host.rsqrt (val_main_v41 (F := F) x0 x1 x2 x3 x4 x5 x6)
theorem val_main_v42_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x1.Idx) :
    val_main_v42 (F := F) x0 x1 x2 x3 x4 x5 x6 i = FloatOps.hostUnary .rsqrt (val_main_v41 (F := F) x0 x1 x2 x3 x4 x5 x6 i) := rfl

-- %43 = stablehlo.broadcast_in_dim %42, dims = [0, 1] : (tensor<1024x1xf32>) -> tensor<1024x128xf32>
def val_main_v43 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x128, .f32⟩ : BufTy).Contents (Elt F) :=
  broadcastInDim S1024x128 ![0, 1] bcast_S1024x1_S1024x128_0_1 (val_main_v42 (F := F) x0 x1 x2 x3 x4 x5 x6)
abbrev idx_main_v43 (i : S1024x128.Idx) : S1024x1.Idx := fun a => match a with
  | ⟨0, _⟩ => ⟨(i 0).val, (i 0).isLt⟩
  | ⟨1, _⟩ => ⟨0, Nat.one_pos⟩
theorem val_main_v43_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x128.Idx) :
    val_main_v43 (F := F) x0 x1 x2 x3 x4 x5 x6 i = val_main_v42 (F := F) x0 x1 x2 x3 x4 x5 x6 (idx_main_v43 i) := by
  unfold val_main_v43
  generalize val_main_v42 (F := F) x0 x1 x2 x3 x4 x5 x6 = y
  exact broadcastInDim_apply _ bcast_S1024x1_S1024x128_0_1 y i (idx_main_v43 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])

-- %44 = stablehlo.multiply %39, %43 : tensor<1024x128xf32>
def val_main_v44 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) : (⟨S1024x128, .f32⟩ : BufTy).Contents (Elt F) :=
  mulf (val_main_v39 (F := F) x0 x1 x2 x3 x4 x5 x6) (val_main_v43 (F := F) x0 x1 x2 x3 x4 x5 x6)
theorem val_main_v44_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 : (⟨S128, .f32⟩ : BufTy).Contents (Elt F)) (i : S1024x128.Idx) :
    val_main_v44 (F := F) x0 x1 x2 x3 x4 x5 x6 i = FloatOps.mulf (val_main_v39 (F := F) x0 x1 x2 x3 x4 x5 x6 i) (val_main_v43 (F := F) x0 x1 x2 x3 x4 x5 x6 i) := rfl

-- %45 = stablehlo.broadcast_in_dim %arg7, dims = [1] : (tensor<128xf32>) -> tensor<1x128xf32>
def val_main_v45 (x7 : (⟨S128, .f32⟩ : BufTy).Contents (Elt F)) : (⟨S1x128, .f32⟩ : BufTy).Contents (Elt F) :=
  broadcastInDim S1x128 ![1] bcast_S128_S1x128_1 (x7)
abbrev idx_main_v45 (i : S1x128.Idx) : S128.Idx := fun a => match a with
  | ⟨0, _⟩ => ⟨(i 1).val, (i 1).isLt⟩
theorem val_main_v45_apply (x7 : (⟨S128, .f32⟩ : BufTy).Contents (Elt F)) (i : S1x128.Idx) :
    val_main_v45 (F := F) x7 i = x7 (idx_main_v45 i) := by
  unfold val_main_v45
  exact broadcastInDim_apply _ bcast_S128_S1x128_1 x7 i (idx_main_v45 i) (fun a => match a with
    | ⟨0, _⟩ => by show (i 1).val = if (128 : Nat) = 1 then 0 else (i 1).val; rw [if_neg (by decide)])

-- %46 = stablehlo.broadcast_in_dim %45, dims = [0, 1] : (tensor<1x128xf32>) -> tensor<1024x128xf32>
def val_main_v46 (x7 : (⟨S128, .f32⟩ : BufTy).Contents (Elt F)) : (⟨S1024x128, .f32⟩ : BufTy).Contents (Elt F) :=
  broadcastInDim S1024x128 ![0, 1] bcast_S1x128_S1024x128_0_1 (val_main_v45 (F := F) x7)
abbrev idx_main_v46 (i : S1024x128.Idx) : S1x128.Idx := fun a => match a with
  | ⟨0, _⟩ => ⟨0, Nat.one_pos⟩
  | ⟨1, _⟩ => ⟨(i 1).val, (i 1).isLt⟩
theorem val_main_v46_apply (x7 : (⟨S128, .f32⟩ : BufTy).Contents (Elt F)) (i : S1024x128.Idx) :
    val_main_v46 (F := F) x7 i = val_main_v45 (F := F) x7 (idx_main_v46 i) := by
  unfold val_main_v46
  generalize val_main_v45 (F := F) x7 = y
  exact broadcastInDim_apply _ bcast_S1x128_S1024x128_0_1 y i (idx_main_v46 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %47 = stablehlo.multiply %44, %46 : tensor<1024x128xf32>
def val_main_v47 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 x7 : (⟨S128, .f32⟩ : BufTy).Contents (Elt F)) : (⟨S1024x128, .f32⟩ : BufTy).Contents (Elt F) :=
  mulf (val_main_v44 (F := F) x0 x1 x2 x3 x4 x5 x6) (val_main_v46 (F := F) x7)
theorem val_main_v47_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 x7 : (⟨S128, .f32⟩ : BufTy).Contents (Elt F)) (i : S1024x128.Idx) :
    val_main_v47 (F := F) x0 x1 x2 x3 x4 x5 x6 x7 i = FloatOps.mulf (val_main_v44 (F := F) x0 x1 x2 x3 x4 x5 x6 i) (val_main_v46 (F := F) x7 i) := rfl

-- %48 = stablehlo.broadcast_in_dim %arg8, dims = [1] : (tensor<128xf32>) -> tensor<1x128xf32>
def val_main_v48 (x8 : (⟨S128, .f32⟩ : BufTy).Contents (Elt F)) : (⟨S1x128, .f32⟩ : BufTy).Contents (Elt F) :=
  broadcastInDim S1x128 ![1] bcast_S128_S1x128_1 (x8)
abbrev idx_main_v48 (i : S1x128.Idx) : S128.Idx := fun a => match a with
  | ⟨0, _⟩ => ⟨(i 1).val, (i 1).isLt⟩
theorem val_main_v48_apply (x8 : (⟨S128, .f32⟩ : BufTy).Contents (Elt F)) (i : S1x128.Idx) :
    val_main_v48 (F := F) x8 i = x8 (idx_main_v48 i) := by
  unfold val_main_v48
  exact broadcastInDim_apply _ bcast_S128_S1x128_1 x8 i (idx_main_v48 i) (fun a => match a with
    | ⟨0, _⟩ => by show (i 1).val = if (128 : Nat) = 1 then 0 else (i 1).val; rw [if_neg (by decide)])

-- %49 = stablehlo.broadcast_in_dim %48, dims = [0, 1] : (tensor<1x128xf32>) -> tensor<1024x128xf32>
def val_main_v49 (x8 : (⟨S128, .f32⟩ : BufTy).Contents (Elt F)) : (⟨S1024x128, .f32⟩ : BufTy).Contents (Elt F) :=
  broadcastInDim S1024x128 ![0, 1] bcast_S1x128_S1024x128_0_1 (val_main_v48 (F := F) x8)
abbrev idx_main_v49 (i : S1024x128.Idx) : S1x128.Idx := fun a => match a with
  | ⟨0, _⟩ => ⟨0, Nat.one_pos⟩
  | ⟨1, _⟩ => ⟨(i 1).val, (i 1).isLt⟩
theorem val_main_v49_apply (x8 : (⟨S128, .f32⟩ : BufTy).Contents (Elt F)) (i : S1024x128.Idx) :
    val_main_v49 (F := F) x8 i = val_main_v48 (F := F) x8 (idx_main_v49 i) := by
  unfold val_main_v49
  generalize val_main_v48 (F := F) x8 = y
  exact broadcastInDim_apply _ bcast_S1x128_S1024x128_0_1 y i (idx_main_v49 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %50 = stablehlo.add %47, %49 : tensor<1024x128xf32>
def val_main_v50 (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 x7 x8 : (⟨S128, .f32⟩ : BufTy).Contents (Elt F)) : (⟨S1024x128, .f32⟩ : BufTy).Contents (Elt F) :=
  addf (val_main_v47 (F := F) x0 x1 x2 x3 x4 x5 x6 x7) (val_main_v49 (F := F) x8)
theorem val_main_v50_apply (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 x7 x8 : (⟨S128, .f32⟩ : BufTy).Contents (Elt F)) (i : S1024x128.Idx) :
    val_main_v50 (F := F) x0 x1 x2 x3 x4 x5 x6 x7 x8 i = FloatOps.addf (val_main_v47 (F := F) x0 x1 x2 x3 x4 x5 x6 x7 i) (val_main_v49 (F := F) x8 i) := rfl

end Cert.Attn.RefRead

end
-- ==== Proof.RefRun.lean ====
/-
  The reference program as a list of its sixty host operations, and its run: every weakly fair execution ends
  with the result buffer at the last operation's value as a function of the nine argument arrays, the arguments
  unchanged.  The list is read in two stretches, cut before the concatenation of the context with the query
  array: the first stretch ends with the context, the second computes the result from the context and the
  arguments.
-/
import proofs.«138197_j28973849379558_2_alg».proof.Proof.RefRead
import Idealize.ShloMosaic.Lib.StableHlo.Run

noncomputable section

namespace Cert.Attn.RefRun

open Cert.ReferenceIdeal Cert.ReferenceIdeal.Gen Idealize.ShloMosaic Idealize.ShloMosaic.TcCoe Idealize.SL.Sem Idealize.ShloMosaic.StableHlo
open Cert.Attn.RefRead

variable {F : FTy → Type} [FloatOps F]

/-- The operations up to the context (the weighted sum over the sequence axis). -/
def ops1 : List (HloOp τ sig (Elt F)) :=
  [ binary main_arg0 main_arg2 main_v0 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    binary main_arg1 main_arg3 main_v1 ((fun l r => Host.dotGeneral dot_S1024x1024x128_S128x128_S1024x1024x128_2_0_01_1_n_n none l r) : (⟨S1024x1024x128, .f32⟩ : BufTy).Contents (Elt F) → (⟨S128x128, .f32⟩ : BufTy).Contents (Elt F) → (⟨S1024x1024x128, .f32⟩ : BufTy).Contents (Elt F)),
    unary main_v0 main_v2 (broadcastInDim S1024x1x128 ![0, 2] bcast_S1024x128_S1024x1x128_0_2 : (⟨S1024x128, .f32⟩ : BufTy).Contents (Elt F) → (⟨S1024x1x128, .f32⟩ : BufTy).Contents (Elt F)),
    unary main_v2 main_v3 (broadcastInDim S1024x1024x128 ![0, 1, 2] bcast_S1024x1x128_S1024x1024x128_0_1_2 : (⟨S1024x1x128, .f32⟩ : BufTy).Contents (Elt F) → (⟨S1024x1024x128, .f32⟩ : BufTy).Contents (Elt F)),
    binary main_v1 main_v3 main_v4 (addf : (⟨S1024x1024x128, .f32⟩ : BufTy).Contents (Elt F) → (⟨S1024x1024x128, .f32⟩ : BufTy).Contents (Elt F) → (⟨S1024x1024x128, .f32⟩ : BufTy).Contents (Elt F)),
    unary main_v4 main_v5 (Host.tanh : (⟨S1024x1024x128, .f32⟩ : BufTy).Contents (Elt F) → (⟨S1024x1024x128, .f32⟩ : BufTy).Contents (Elt F)),
    binary main_v5 main_arg4 main_v6 ((fun l r => Host.dotGeneral dot_S1024x1024x128_S128x1_S1024x1024x1_2_0_01_1_n_n none l r) : (⟨S1024x1024x128, .f32⟩ : BufTy).Contents (Elt F) → (⟨S128x1, .f32⟩ : BufTy).Contents (Elt F) → (⟨S1024x1024x1, .f32⟩ : BufTy).Contents (Elt F)),
    nullary main_cst (constant S_ .f32 0xFF800000#32),
    binary main_v6 main_cst main_v7 ((fun x v => Host.reduce FloatOps.maximumf x v reducesTo_S1024x1024x1_S1024x1_d1 h_S_) : (⟨S1024x1024x1, .f32⟩ : BufTy).Contents (Elt F) → (⟨S_, .f32⟩ : BufTy).Contents (Elt F) → (⟨S1024x1, .f32⟩ : BufTy).Contents (Elt F)),
    nullary main_cst_0 (constant S_ .f32 0xFF800000#32),
    unary main_cst_0 main_v8 (broadcastInDim S1024x1 ![] bcast_S_S1024x1 : (⟨S_, .f32⟩ : BufTy).Contents (Elt F) → (⟨S1024x1, .f32⟩ : BufTy).Contents (Elt F)),
    binary main_v8 main_v7 main_v9 (maximumf : (⟨S1024x1, .f32⟩ : BufTy).Contents (Elt F) → (⟨S1024x1, .f32⟩ : BufTy).Contents (Elt F) → (⟨S1024x1, .f32⟩ : BufTy).Contents (Elt F)),
    unary main_v9 main_v10 (broadcastInDim S1024x1x1 ![0, 2] bcast_S1024x1_S1024x1x1_0_2 : (⟨S1024x1, .f32⟩ : BufTy).Contents (Elt F) → (⟨S1024x1x1, .f32⟩ : BufTy).Contents (Elt F)),
    unary main_v10 main_v11 (broadcastInDim S1024x1024x1 ![0, 1, 2] bcast_S1024x1x1_S1024x1024x1_0_1_2 : (⟨S1024x1x1, .f32⟩ : BufTy).Contents (Elt F) → (⟨S1024x1024x1, .f32⟩ : BufTy).Contents (Elt F)),
    binary main_v6 main_v11 main_v12 (subf : (⟨S1024x1024x1, .f32⟩ : BufTy).Contents (Elt F) → (⟨S1024x1024x1, .f32⟩ : BufTy).Contents (Elt F) → (⟨S1024x1024x1, .f32⟩ : BufTy).Contents (Elt F)),
    unary main_v12 main_v13 (Host.exp : (⟨S1024x1024x1, .f32⟩ : BufTy).Contents (Elt F) → (⟨S1024x1024x1, .f32⟩ : BufTy).Contents (Elt F)),
    nullary main_cst_1 (constant S_ .f32 0x00000000#32),
    binary main_v13 main_cst_1 main_v14 ((fun x v => Host.reduceAdd x v reducesTo_S1024x1024x1_S1024x1_d1 h_S_) : (⟨S1024x1024x1, .f32⟩ : BufTy).Contents (Elt F) → (⟨S_, .f32⟩ : BufTy).Contents (Elt F) → (⟨S1024x1, .f32⟩ : BufTy).Contents (Elt F)),
    unary main_v14 main_v15 (broadcastInDim S1024x1x1 ![0, 2] bcast_S1024x1_S1024x1x1_0_2 : (⟨S1024x1, .f32⟩ : BufTy).Contents (Elt F) → (⟨S1024x1x1, .f32⟩ : BufTy).Contents (Elt F)),
    unary main_v15 main_v16 (broadcastInDim S1024x1024x1 ![0, 1, 2] bcast_S1024x1x1_S1024x1024x1_0_1_2 : (⟨S1024x1x1, .f32⟩ : BufTy).Contents (Elt F) → (⟨S1024x1024x1, .f32⟩ : BufTy).Contents (Elt F)),
    binary main_v13 main_v16 main_v17 (Host.divf : (⟨S1024x1024x1, .f32⟩ : BufTy).Contents (Elt F) → (⟨S1024x1024x1, .f32⟩ : BufTy).Contents (Elt F) → (⟨S1024x1024x1, .f32⟩ : BufTy).Contents (Elt F)),
    unary main_v17 main_v18 (broadcastInDim S1024x1024x128 ![0, 1, 2] bcast_S1024x1024x1_S1024x1024x128_0_1_2 : (⟨S1024x1024x1, .f32⟩ : BufTy).Contents (Elt F) → (⟨S1024x1024x128, .f32⟩ : BufTy).Contents (Elt F)),
    binary main_v18 main_arg1 main_v19 (mulf : (⟨S1024x1024x128, .f32⟩ : BufTy).Contents (Elt F) → (⟨S1024x1024x128, .f32⟩ : BufTy).Contents (Elt F) → (⟨S1024x1024x128, .f32⟩ : BufTy).Contents (Elt F)),
    nullary main_cst_2 (constant S_ .f32 0x00000000#32),
    binary main_v19 main_cst_2 main_v20 ((fun x v => Host.reduceAdd x v reducesTo_S1024x1024x128_S1024x128_d1 h_S_) : (⟨S1024x1024x128, .f32⟩ : BufTy).Contents (Elt F) → (⟨S_, .f32⟩ : BufTy).Contents (Elt F) → (⟨S1024x128, .f32⟩ : BufTy).Contents (Elt F)) ]

/-- The operations from the concatenation on. -/
def ops2 : List (HloOp τ sig (Elt F)) :=
  [ binary main_v20 main_arg0 main_v21 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_v21 main_arg5 main_v22 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    unary main_arg6 main_v23 (broadcastInDim S1x128 ![1] bcast_S128_S1x128_1 : (⟨S128, .f32⟩ : BufTy).Contents (Elt F) → (⟨S1x128, .f32⟩ : BufTy).Contents (Elt F)),
    unary main_v23 main_v24 (broadcastInDim S1024x128 ![0, 1] bcast_S1x128_S1024x128_0_1 : (⟨S1x128, .f32⟩ : BufTy).Contents (Elt F) → (⟨S1024x128, .f32⟩ : BufTy).Contents (Elt F)),
    binary main_v22 main_v24 main_v25 (addf : (⟨S1024x128, .f32⟩ : BufTy).Contents (Elt F) → (⟨S1024x128, .f32⟩ : BufTy).Contents (Elt F) → (⟨S1024x128, .f32⟩ : BufTy).Contents (Elt F)),
    unary main_v25 main_v26 (Host.tanh : (⟨S1024x128, .f32⟩ : BufTy).Contents (Elt F) → (⟨S1024x128, .f32⟩ : BufTy).Contents (Elt F)),
    nullary main_cst_3 (constant S_ .f32 0x00000000#32),
    binary main_v26 main_cst_3 main_v27 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_v27 main_v28 (broadcastInDim S1024x1 ![0] bcast_S1024_S1024x1_0 : (⟨S1024, .f32⟩ : BufTy).Contents (Elt F) → (⟨S1024x1, .f32⟩ : BufTy).Contents (Elt F)),
    nullary main_cst_4 (constant S_ .f32 0x43000000#32),
    unary main_cst_4 main_v29 (broadcastInDim S1024x1 ![] bcast_S_S1024x1 : (⟨S_, .f32⟩ : BufTy).Contents (Elt F) → (⟨S1024x1, .f32⟩ : BufTy).Contents (Elt F)),
    binary main_v28 main_v29 main_v30 (Host.divf : (⟨S1024x1, .f32⟩ : BufTy).Contents (Elt F) → (⟨S1024x1, .f32⟩ : BufTy).Contents (Elt F) → (⟨S1024x1, .f32⟩ : BufTy).Contents (Elt F)),
    unary main_v30 main_v31 (broadcastInDim S1024x128 ![0, 1] bcast_S1024x1_S1024x128_0_1 : (⟨S1024x1, .f32⟩ : BufTy).Contents (Elt F) → (⟨S1024x128, .f32⟩ : BufTy).Contents (Elt F)),
    binary main_v26 main_v31 main_v32 (subf : (⟨S1024x128, .f32⟩ : BufTy).Contents (Elt F) → (⟨S1024x128, .f32⟩ : BufTy).Contents (Elt F) → (⟨S1024x128, .f32⟩ : BufTy).Contents (Elt F)),
    binary main_v32 main_v32 main_v33 (mulf : (⟨S1024x128, .f32⟩ : BufTy).Contents (Elt F) → (⟨S1024x128, .f32⟩ : BufTy).Contents (Elt F) → (⟨S1024x128, .f32⟩ : BufTy).Contents (Elt F)),
    nullary main_cst_5 (constant S_ .f32 0x00000000#32),
    binary main_v33 main_cst_5 main_v34 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_v34 main_v35 (broadcastInDim S1024x1 ![0] bcast_S1024_S1024x1_0 : (⟨S1024, .f32⟩ : BufTy).Contents (Elt F) → (⟨S1024x1, .f32⟩ : BufTy).Contents (Elt F)),
    nullary main_cst_6 (constant S_ .f32 0x43000000#32),
    unary main_cst_6 main_v36 (broadcastInDim S1024x1 ![] bcast_S_S1024x1 : (⟨S_, .f32⟩ : BufTy).Contents (Elt F) → (⟨S1024x1, .f32⟩ : BufTy).Contents (Elt F)),
    binary main_v35 main_v36 main_v37 (Host.divf : (⟨S1024x1, .f32⟩ : BufTy).Contents (Elt F) → (⟨S1024x1, .f32⟩ : BufTy).Contents (Elt F) → (⟨S1024x1, .f32⟩ : BufTy).Contents (Elt F)),
    unary main_v30 main_v38 (broadcastInDim S1024x128 ![0, 1] bcast_S1024x1_S1024x128_0_1 : (⟨S1024x1, .f32⟩ : BufTy).Contents (Elt F) → (⟨S1024x128, .f32⟩ : BufTy).Contents (Elt F)),
    binary main_v26 main_v38 main_v39 (subf : (⟨S1024x128, .f32⟩ : BufTy).Contents (Elt F) → (⟨S1024x128, .f32⟩ : BufTy).Contents (Elt F) → (⟨S1024x128, .f32⟩ : BufTy).Contents (Elt F)),
    nullary main_cst_7 (constant S_ .f32 0x3A83126F#32),
    unary main_cst_7 main_v40 (broadcastInDim S1024x1 ![] bcast_S_S1024x1 : (⟨S_, .f32⟩ : BufTy).Contents (Elt F) → (⟨S1024x1, .f32⟩ : BufTy).Contents (Elt F)),
    binary main_v37 main_v40 main_v41 (addf : (⟨S1024x1, .f32⟩ : BufTy).Contents (Elt F) → (⟨S1024x1, .f32⟩ : BufTy).Contents (Elt F) → (⟨S1024x1, .f32⟩ : BufTy).Contents (Elt F)),
    unary main_v41 main_v42 (Host.rsqrt : (⟨S1024x1, .f32⟩ : BufTy).Contents (Elt F) → (⟨S1024x1, .f32⟩ : BufTy).Contents (Elt F)),
    unary main_v42 main_v43 (broadcastInDim S1024x128 ![0, 1] bcast_S1024x1_S1024x128_0_1 : (⟨S1024x1, .f32⟩ : BufTy).Contents (Elt F) → (⟨S1024x128, .f32⟩ : BufTy).Contents (Elt F)),
    binary main_v39 main_v43 main_v44 (mulf : (⟨S1024x128, .f32⟩ : BufTy).Contents (Elt F) → (⟨S1024x128, .f32⟩ : BufTy).Contents (Elt F) → (⟨S1024x128, .f32⟩ : BufTy).Contents (Elt F)),
    unary main_arg7 main_v45 (broadcastInDim S1x128 ![1] bcast_S128_S1x128_1 : (⟨S128, .f32⟩ : BufTy).Contents (Elt F) → (⟨S1x128, .f32⟩ : BufTy).Contents (Elt F)),
    unary main_v45 main_v46 (broadcastInDim S1024x128 ![0, 1] bcast_S1x128_S1024x128_0_1 : (⟨S1x128, .f32⟩ : BufTy).Contents (Elt F) → (⟨S1024x128, .f32⟩ : BufTy).Contents (Elt F)),
    binary main_v44 main_v46 main_v47 (mulf : (⟨S1024x128, .f32⟩ : BufTy).Contents (Elt F) → (⟨S1024x128, .f32⟩ : BufTy).Contents (Elt F) → (⟨S1024x128, .f32⟩ : BufTy).Contents (Elt F)),
    unary main_arg8 main_v48 (broadcastInDim S1x128 ![1] bcast_S128_S1x128_1 : (⟨S128, .f32⟩ : BufTy).Contents (Elt F) → (⟨S1x128, .f32⟩ : BufTy).Contents (Elt F)),
    unary main_v48 main_v49 (broadcastInDim S1024x128 ![0, 1] bcast_S1x128_S1024x128_0_1 : (⟨S1x128, .f32⟩ : BufTy).Contents (Elt F) → (⟨S1024x128, .f32⟩ : BufTy).Contents (Elt F)),
    binary main_v47 main_v49 main_v50 (addf : (⟨S1024x128, .f32⟩ : BufTy).Contents (Elt F) → (⟨S1024x128, .f32⟩ : BufTy).Contents (Elt F) → (⟨S1024x128, .f32⟩ : BufTy).Contents (Elt F)) ]

/-- @main's 60 operations, in order. -/
abbrev ops : List (HloOp τ sig (Elt F)) := ops1 ++ ops2

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨binary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., binary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Running two stretches one after the other. -/
theorem after_append (l1 l2 : List (HloOp τ sig (Elt F))) (V : Valuation τ sig (Elt F)) :
    after (l1 ++ l2) V = after l2 (after l1 V) := by
  induction l1 generalizing V with
  | nil => rfl
  | cons op l ih => exact ih _

set_option maxRecDepth 65536 in
set_option maxHeartbeats 2000000 in
/-- The first stretch leaves the context at its stage, -/
theorem first_v20 (m : (ℓ : Loc nD τ sig) → Buf (Elt F) ℓ) (c : Dev nD) :
    after ops1 (launchContents m c) (Proc.devRef .tc main_v20)
      = val_main_v20 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold ops1
  after_results_simp
  rfl

set_option maxRecDepth 65536 in
set_option maxHeartbeats 2000000 in
/-- and the arguments as launched. -/
theorem first_arg (m : (ℓ : Loc nD τ sig) → Buf (Elt F) ℓ) (c : Dev nD) :
    after ops1 (launchContents m c) (Proc.devRef .tc main_arg0) = m ((c.tc : Thread nD τ).loc main_arg0)
    ∧ after ops1 (launchContents m c) (Proc.devRef .tc main_arg5) = m ((c.tc : Thread nD τ).loc main_arg5)
    ∧ after ops1 (launchContents m c) (Proc.devRef .tc main_arg6) = m ((c.tc : Thread nD τ).loc main_arg6)
    ∧ after ops1 (launchContents m c) (Proc.devRef .tc main_arg7) = m ((c.tc : Thread nD τ).loc main_arg7)
    ∧ after ops1 (launchContents m c) (Proc.devRef .tc main_arg8) = m ((c.tc : Thread nD τ).loc main_arg8) := by
  unfold ops1
  refine ⟨?_, ?_, ?_, ?_, ?_⟩ <;> after_results_simp <;> rfl

set_option maxRecDepth 65536 in
set_option maxHeartbeats 2000000 in
/-- The second stretch, from any memory that holds the context and the arguments, ends at the last stage. -/
theorem second_v50 (W : Valuation τ sig (Elt F))
    (x0 : (⟨S1024x128, .f32⟩ : BufTy).Contents (Elt F)) (x1 : (⟨S1024x1024x128, .f32⟩ : BufTy).Contents (Elt F)) (x2 x3 : (⟨S128x128, .f32⟩ : BufTy).Contents (Elt F)) (x4 : (⟨S128x1, .f32⟩ : BufTy).Contents (Elt F)) (x5 : (⟨S256x128, .f32⟩ : BufTy).Contents (Elt F)) (x6 x7 x8 : (⟨S128, .f32⟩ : BufTy).Contents (Elt F))
    (h20 : W (Proc.devRef .tc main_v20) = val_main_v20 (F := F) x0 x1 x2 x3 x4)
    (h0 : W (Proc.devRef .tc main_arg0) = x0) (h5 : W (Proc.devRef .tc main_arg5) = x5) (h6 : W (Proc.devRef .tc main_arg6) = x6)
    (h7 : W (Proc.devRef .tc main_arg7) = x7) (h8 : W (Proc.devRef .tc main_arg8) = x8) :
    after ops2 W (Proc.devRef .tc main_v50) = val_main_v50 (F := F) x0 x1 x2 x3 x4 x5 x6 x7 x8 := by
  unfold ops2
  after_results_simp
  rw [h20, h0, h5, h6, h7, h8]
  rfl

set_option maxRecDepth 65536 in
set_option maxHeartbeats 2000000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v50).trans (by
        rw [after_append]
        exact second_v50 _ _ _ _ _ _ _ _ _ _ (first_v20 m c) (first_arg m c).1 (first_arg m c).2.1 (first_arg m c).2.2.1 (first_arg m c).2.2.2.1 (first_arg m c).2.2.2.2),
      (h c main_arg0).trans (by rw [after_append]; unfold ops1 ops2; after_results_simp),
      (h c main_arg1).trans (by rw [after_append]; unfold ops1 ops2; after_results_simp),
      (h c main_arg2).trans (by rw [after_append]; unfold ops1 ops2; after_results_simp),
      (h c main_arg3).trans (by rw [after_append]; unfold ops1 ops2; after_results_simp),
      (h c main_arg4).trans (by rw [after_append]; unfold ops1 ops2; after_results_simp),
      (h c main_arg5).trans (by rw [after_append]; unfold ops1 ops2; after_results_simp),
      (h c main_arg6).trans (by rw [after_append]; unfold ops1 ops2; after_results_simp),
      (h c main_arg7).trans (by rw [after_append]; unfold ops1 ops2; after_results_simp),
      (h c main_arg8).trans (by rw [after_append]; unfold ops1 ops2; after_results_simp)⟩)
    (run_seq scopedRefs_eq scopedSems_eq defs main (fun _ => ops) main_eq (fun _ => ops_sub) m ρ)

end Cert.Attn.RefRun

end
-- ==== Proof.RefSpec.lean ====
/-
  The reference program computes G.

  Each operation of the reference, read at an index, is an arithmetic expression in its operands read at
  indices. Followed from the arguments to the result, these readings give: the score of (b, s) is the sum
  over the hidden features of energy times Va; the shift of row b is the maximum of that row's scores joined
  with −∞; the softmax weight of (b, s) is the exponential of the shifted score divided by the row's sum of
  such exponentials; the context of (b, d) is the weighted sum of hs[b, ·, d]; and the result at (b, j) is the
  layer normalisation of the dense layer applied to the context row joined with the query row.
-/
import proofs.«138197_j28973849379558_2_alg».proof.Proof.RefRead
import proofs.«138197_j28973849379558_2_alg».proof.Proof.Spec
import Idealize.ShloMosaic.Lib.ValueIdx
import Idealize.ShloMosaic.Lib.Pipeline.Value
import Idealize.ShloMosaic.PureOps.Ideal
import Idealize.ShloMosaic.PureOps.Ideal.Laws
import Idealize.ShloMosaic.PureOps.Reduce

noncomputable section

open scoped BigOperators

namespace Cert.Attn.Ref

open Cert.ReferenceIdeal Cert.ReferenceIdeal.Gen Cert.Attn.RefRead Idealize.ShloMosaic Idealize.ShloMosaic.ValueIdx Cert.Attn

/-- The energy read at (b, s, h). -/
theorem energy_eq (x0 : Arr2 1024 128) (x1 : Arr3 1024 1024 128) (x2 x3 : Arr2 128 128) (b s : Fin 1024) (h : Fin 128) :
    val_main_v5 (F := Ideal) x0 x1 x2 x3 (ix3 b s h)
      = energy x2 x3 (fun d => x1 (ix3 b s d)) (fun d => x0 (ix2 b d)) h := by
  rw [val_main_v5_apply, val_main_v4_apply, val_main_v1_apply, val_main_v3_apply, val_main_v2_apply, val_main_v0_apply]
  unfold energy
  rw [Ideal.hostUnary_tanh_def, Ideal.addf_def]
  refine congrArg Ideal.tanh (congrArg₂ (· + ·) (Finset.sum_congr rfl fun d _ => ?_) (Finset.sum_congr rfl fun d _ => ?_))
  · have e1 : lidx_main_v1 (ix3 b s h) d = ix3 b s d := funext fun a => Fin.ext (by
      match a with | ⟨0, _⟩ => rfl | ⟨1, _⟩ => rfl | ⟨2, _⟩ => rfl)
    have e2 : ridx_main_v1 (ix3 b s h) d = ix2 d h := funext fun a => Fin.ext (by
      match a with | ⟨0, _⟩ => rfl | ⟨1, _⟩ => rfl)
    rw [e1, e2]
  · have e1 : lidx_main_v0 (idx_main_v2 (idx_main_v3 (ix3 b s h))) d = ix2 b d := funext fun a => Fin.ext (by
      match a with | ⟨0, _⟩ => rfl | ⟨1, _⟩ => rfl)
    have e2 : ridx_main_v0 (idx_main_v2 (idx_main_v3 (ix3 b s h))) d = ix2 d h := funext fun a => Fin.ext (by
      match a with | ⟨0, _⟩ => rfl | ⟨1, _⟩ => rfl)
    rw [e1, e2]

/-- The score read at (b, s, 0). -/
theorem score_eq (x0 : Arr2 1024 128) (x1 : Arr3 1024 1024 128) (x2 x3 : Arr2 128 128) (x4 : Arr2 128 1) (b s : Fin 1024) :
    val_main_v6 (F := Ideal) x0 x1 x2 x3 x4 (ix3 b s 0) = score x0 x1 x2 x3 x4 b s := by
  rw [val_main_v6_apply]
  unfold score scoreRow
  refine Finset.sum_congr rfl fun h _ => ?_
  have e1 : lidx_main_v6 (ix3 b s 0) h = ix3 b s h := funext fun a => Fin.ext (by
    match a with | ⟨0, _⟩ => rfl | ⟨1, _⟩ => rfl | ⟨2, _⟩ => rfl)
  have e2 : ridx_main_v6 (ix3 b s 0) h = ix2 h 0 := funext fun a => Fin.ext (by
    match a with | ⟨0, _⟩ => rfl | ⟨1, _⟩ => rfl)
  rw [e1, e2, energy_eq]

/-- The reduced index (b, 0) with position k put back is (b, k, 0). -/
theorem lift_v7 (h : S1024x1024x1.Reduces [1] S1024x1) (b : Fin 1024) (k : Fin (S1024x1024x1.size 1)) :
    h.lift (ix2 b (0 : Fin 1)) k = ix3 b (⟨k.val, k.isLt⟩ : Fin 1024) (0 : Fin 1) := by
  funext c; apply Fin.ext
  fin_cases c <;> rfl

/-- The shift read at (b, 0). -/
theorem shift_eq (x0 : Arr2 1024 128) (x1 : Arr3 1024 1024 128) (x2 x3 : Arr2 128 128) (x4 : Arr2 128 1) (b : Fin 1024) :
    val_main_v9 (F := Ideal) x0 x1 x2 x3 x4 (ix2 b 0) = shiftRef (score x0 x1 x2 x3 x4 b) := by
  have hr : S1024x1024x1.Reduces [1] S1024x1 := by decide
  rw [val_main_v9_apply, val_main_v8_apply, val_main_cst_0_apply, Ideal.maximumf_def, Ideal.ofBits_def]
  unfold shiftRef val_main_v7
  rw [Host.reduce_eq_fold_single FloatOps.maximumf _ _ reducesTo_S1024x1024x1_S1024x1_d1 hr h_S_]
  have hf : (val_main_v6 (F := Ideal) x0 x1 x2 x3 x4 ∘ hr.lift (ix2 b 0)) = fun k : Fin 1024 => score x0 x1 x2 x3 x4 b k :=
    funext fun k => (congrArg (val_main_v6 (F := Ideal) x0 x1 x2 x3 x4) (lift_v7 hr b k)).trans (score_eq x0 x1 x2 x3 x4 b ⟨k.val, k.isLt⟩)
  exact congrArg (fun f => max (Ideal.ofBits FTy.f32 0xFF800000#32)
    (Finset.fold max (Ideal.ofBits FTy.f32 0xFF800000#32) f (Finset.univ : Finset (Fin 1024)))) hf

/-- The exponential of the shifted score, read at (b, s, 0). -/
theorem exp_eq (x0 : Arr2 1024 128) (x1 : Arr3 1024 1024 128) (x2 x3 : Arr2 128 128) (x4 : Arr2 128 1) (b s : Fin 1024) :
    val_main_v13 (F := Ideal) x0 x1 x2 x3 x4 (ix3 b s 0)
      = Ideal.exp (score x0 x1 x2 x3 x4 b s - shiftRef (score x0 x1 x2 x3 x4 b)) := by
  rw [val_main_v13_apply, val_main_v12_apply, val_main_v11_apply, val_main_v10_apply, Ideal.hostUnary_exp_def, Ideal.subf_def, score_eq]
  have e : idx_main_v10 (idx_main_v11 (ix3 b s (0 : Fin 1))) = ix2 b (0 : Fin 1) := funext fun a => Fin.ext (by
    match a with | ⟨0, _⟩ => rfl | ⟨1, _⟩ => rfl)
  rw [e, shift_eq]

/-- The softmax denominator, read at (b, 0). -/
theorem denom_eq (x0 : Arr2 1024 128) (x1 : Arr3 1024 1024 128) (x2 x3 : Arr2 128 128) (x4 : Arr2 128 1) (b : Fin 1024) :
    val_main_v14 (F := Ideal) x0 x1 x2 x3 x4 (ix2 b 0)
      = ∑ s' : Fin 1024, Ideal.exp (score x0 x1 x2 x3 x4 b s' - shiftRef (score x0 x1 x2 x3 x4 b)) := by
  rw [val_main_v14_apply, val_main_cst_1_apply, Ideal.ofBits_def, Ideal.ofBits_zero_f32, zero_add]
  refine Finset.sum_congr rfl fun k _ => ?_
  have e : idx_main_v14 (ix2 b (0 : Fin 1)) k = ix3 b k (0 : Fin 1) := funext fun a => Fin.ext (by
    match a with | ⟨0, _⟩ => rfl | ⟨1, _⟩ => rfl | ⟨2, _⟩ => rfl)
  rw [e, exp_eq]

/-- The softmax weight, read at (b, s, 0). -/
theorem weight_eq (x0 : Arr2 1024 128) (x1 : Arr3 1024 1024 128) (x2 x3 : Arr2 128 128) (x4 : Arr2 128 1) (b s : Fin 1024) :
    val_main_v17 (F := Ideal) x0 x1 x2 x3 x4 (ix3 b s 0)
      = Ideal.div (Ideal.exp (score x0 x1 x2 x3 x4 b s - shiftRef (score x0 x1 x2 x3 x4 b)))
          (∑ s' : Fin 1024, Ideal.exp (score x0 x1 x2 x3 x4 b s' - shiftRef (score x0 x1 x2 x3 x4 b))) := by
  rw [val_main_v17_apply, val_main_v16_apply, val_main_v15_apply, Ideal.hostDivf_def, exp_eq]
  have e : idx_main_v15 (idx_main_v16 (ix3 b s (0 : Fin 1))) = ix2 b (0 : Fin 1) := funext fun a => Fin.ext (by
    match a with | ⟨0, _⟩ => rfl | ⟨1, _⟩ => rfl)
  rw [e, denom_eq]

/-- The context read at (b, d). -/
theorem ctx_eq (x0 : Arr2 1024 128) (x1 : Arr3 1024 1024 128) (x2 x3 : Arr2 128 128) (x4 : Arr2 128 1) (b : Fin 1024) (d : Fin 128) :
    val_main_v20 (F := Ideal) x0 x1 x2 x3 x4 (ix2 b d)
      = ctxRef (score x0 x1 x2 x3 x4 b) (fun s => x1 (ix3 b s d)) (shiftRef (score x0 x1 x2 x3 x4 b)) := by
  rw [val_main_v20_apply, val_main_cst_2_apply, Ideal.ofBits_def, Ideal.ofBits_zero_f32, zero_add]
  unfold ctxRef
  refine Finset.sum_congr rfl fun k _ => ?_
  have e : idx_main_v20 (ix2 b d) k = ix3 b k d := funext fun a => Fin.ext (by
    match a with | ⟨0, _⟩ => rfl | ⟨1, _⟩ => rfl | ⟨2, _⟩ => rfl)
  have e' : idx_main_v18 (ix3 b k d) = ix3 b k (0 : Fin 1) := funext fun a => Fin.ext (by
    match a with | ⟨0, _⟩ => rfl | ⟨1, _⟩ => rfl | ⟨2, _⟩ => rfl)
  rw [e, val_main_v19_apply, val_main_v18_apply, e', weight_eq, Ideal.mulf_def]

/-- The joined array read at (b, k): the context row for k < 128, the query row after. -/
theorem concat_eq (x0 : Arr2 1024 128) (x1 : Arr3 1024 1024 128) (x2 x3 : Arr2 128 128) (x4 : Arr2 128 1) (b : Fin 1024) (k : Fin 256) :
    val_main_v21 (F := Ideal) x0 x1 x2 x3 x4 (ix2 b k)
      = joined (fun d => val_main_v20 (F := Ideal) x0 x1 x2 x3 x4 (ix2 b d)) (fun d => x0 (ix2 b d)) k := by
  unfold val_main_v21 joined
  by_cases hk : k.val < 128
  · rw [dif_pos hk]
    exact concatenate_pair_apply_left (1 : Fin S1024x256.rank) _ _ concatenates_S1024x128_S1024x128_S1024x256_d1 (ix2 b k) rfl
      (ix2 b (⟨k.val, hk⟩ : Fin 128)) (fun a => by match a with | ⟨0, _⟩ => rfl | ⟨1, _⟩ => rfl)
  · rw [dif_neg hk]
    exact concatenate_pair_apply_right (1 : Fin S1024x256.rank) _ _ concatenates_S1024x128_S1024x128_S1024x256_d1 (ix2 b k) rfl rfl
      (ix2 b (⟨k.val - 128, by have := k.isLt; omega⟩ : Fin 128))
      (fun a => by match a with | ⟨0, _⟩ => (intro _; rfl) | ⟨1, _⟩ => (intro h; exact absurd rfl h))
      (by show k.val - 128 + 128 = k.val; omega)

/-- The dense layer with tanh read at (b, j). -/
theorem attn_eq (x0 : Arr2 1024 128) (x1 : Arr3 1024 1024 128) (x2 x3 : Arr2 128 128) (x4 : Arr2 128 1) (x5 : Arr2 256 128)
    (x6 : Arr1 128) (b : Fin 1024) (j : Fin 128) :
    val_main_v26 (F := Ideal) x0 x1 x2 x3 x4 x5 x6 (ix2 b j)
      = attnVec x5 x6 (fun d => val_main_v20 (F := Ideal) x0 x1 x2 x3 x4 (ix2 b d)) (fun d => x0 (ix2 b d)) j := by
  rw [val_main_v26_apply, val_main_v25_apply, val_main_v22_apply, val_main_v24_apply, val_main_v23_apply,
    Ideal.hostUnary_tanh_def, Ideal.addf_def]
  unfold attnVec
  have e6 : idx_main_v23 (idx_main_v24 (ix2 b j)) = ix1 j := funext fun a => Fin.ext (by
    match a with | ⟨0, _⟩ => rfl)
  rw [e6]
  refine congrArg Ideal.tanh (congrArg (· + x6 (ix1 j)) (Finset.sum_congr rfl fun k _ => ?_))
  have e1 : lidx_main_v22 (ix2 b j) k = ix2 b k := funext fun a => Fin.ext (by
    match a with | ⟨0, _⟩ => rfl | ⟨1, _⟩ => rfl)
  have e2 : ridx_main_v22 (ix2 b j) k = ix2 k j := funext fun a => Fin.ext (by
    match a with | ⟨0, _⟩ => rfl | ⟨1, _⟩ => rfl)
  rw [e1, e2, concat_eq]

/-- The row mean read at (b, 0). -/
theorem mean_eq (x0 : Arr2 1024 128) (x1 : Arr3 1024 1024 128) (x2 x3 : Arr2 128 128) (x4 : Arr2 128 1) (x5 : Arr2 256 128)
    (x6 : Arr1 128) (b : Fin 1024) :
    val_main_v30 (F := Ideal) x0 x1 x2 x3 x4 x5 x6 (ix2 b 0)
      = mean128 (attnVec x5 x6 (fun d => val_main_v20 (F := Ideal) x0 x1 x2 x3 x4 (ix2 b d)) (fun d => x0 (ix2 b d))) := by
  rw [val_main_v30_apply, val_main_v28_apply, val_main_v29_apply, val_main_cst_4_apply, val_main_v27_apply, val_main_cst_3_apply,
    Ideal.hostDivf_def, Ideal.ofBits_def, Ideal.ofBits_def, Ideal.ofBits_zero_f32, zero_add]
  unfold mean128
  refine congrArg (fun t => Ideal.div t c128) (Finset.sum_congr rfl fun k _ => ?_)
  have e : idx_main_v27 (idx_main_v28 (ix2 b (0 : Fin 1))) k = ix2 b k := funext fun a => Fin.ext (by
    match a with | ⟨0, _⟩ => rfl | ⟨1, _⟩ => rfl)
  rw [e, attn_eq]

/-- The centred value read at (b, j) (the operand of the square). -/
theorem centred_eq (x0 : Arr2 1024 128) (x1 : Arr3 1024 1024 128) (x2 x3 : Arr2 128 128) (x4 : Arr2 128 1) (x5 : Arr2 256 128)
    (x6 : Arr1 128) (b : Fin 1024) (j : Fin 128) :
    val_main_v32 (F := Ideal) x0 x1 x2 x3 x4 x5 x6 (ix2 b j)
      = attnVec x5 x6 (fun d => val_main_v20 (F := Ideal) x0 x1 x2 x3 x4 (ix2 b d)) (fun d => x0 (ix2 b d)) j
        - mean128 (attnVec x5 x6 (fun d => val_main_v20 (F := Ideal) x0 x1 x2 x3 x4 (ix2 b d)) (fun d => x0 (ix2 b d))) := by
  rw [val_main_v32_apply, val_main_v31_apply, Ideal.subf_def, attn_eq]
  have e : idx_main_v31 (ix2 b j) = ix2 b (0 : Fin 1) := funext fun a => Fin.ext (by
    match a with | ⟨0, _⟩ => rfl | ⟨1, _⟩ => rfl)
  rw [e, mean_eq]

/-- The centred value read at (b, j) (the operand of the scaling). -/
theorem centred_eq' (x0 : Arr2 1024 128) (x1 : Arr3 1024 1024 128) (x2 x3 : Arr2 128 128) (x4 : Arr2 128 1) (x5 : Arr2 256 128)
    (x6 : Arr1 128) (b : Fin 1024) (j : Fin 128) :
    val_main_v39 (F := Ideal) x0 x1 x2 x3 x4 x5 x6 (ix2 b j)
      = attnVec x5 x6 (fun d => val_main_v20 (F := Ideal) x0 x1 x2 x3 x4 (ix2 b d)) (fun d => x0 (ix2 b d)) j
        - mean128 (attnVec x5 x6 (fun d => val_main_v20 (F := Ideal) x0 x1 x2 x3 x4 (ix2 b d)) (fun d => x0 (ix2 b d))) := by
  rw [val_main_v39_apply, val_main_v38_apply, Ideal.subf_def, attn_eq]
  have e : idx_main_v38 (ix2 b j) = ix2 b (0 : Fin 1) := funext fun a => Fin.ext (by
    match a with | ⟨0, _⟩ => rfl | ⟨1, _⟩ => rfl)
  rw [e, mean_eq]

/-- The row variance read at (b, 0). -/
theorem var_eq (x0 : Arr2 1024 128) (x1 : Arr3 1024 1024 128) (x2 x3 : Arr2 128 128) (x4 : Arr2 128 1) (x5 : Arr2 256 128)
    (x6 : Arr1 128) (b : Fin 1024) :
    val_main_v37 (F := Ideal) x0 x1 x2 x3 x4 x5 x6 (ix2 b 0)
      = mean128 (fun j' =>
          (attnVec x5 x6 (fun d => val_main_v20 (F := Ideal) x0 x1 x2 x3 x4 (ix2 b d)) (fun d => x0 (ix2 b d)) j'
            - mean128 (attnVec x5 x6 (fun d => val_main_v20 (F := Ideal) x0 x1 x2 x3 x4 (ix2 b d)) (fun d => x0 (ix2 b d))))
          * (attnVec x5 x6 (fun d => val_main_v20 (F := Ideal) x0 x1 x2 x3 x4 (ix2 b d)) (fun d => x0 (ix2 b d)) j'
            - mean128 (attnVec x5 x6 (fun d => val_main_v20 (F := Ideal) x0 x1 x2 x3 x4 (ix2 b d)) (fun d => x0 (ix2 b d))))) := by
  rw [val_main_v37_apply, val_main_v35_apply, val_main_v36_apply, val_main_cst_6_apply, val_main_v34_apply, val_main_cst_5_apply,
    Ideal.hostDivf_def, Ideal.ofBits_def, Ideal.ofBits_def, Ideal.ofBits_zero_f32, zero_add]
  unfold mean128
  refine congrArg (fun t => Ideal.div t c128) (Finset.sum_congr rfl fun k _ => ?_)
  have e : idx_main_v34 (idx_main_v35 (ix2 b (0 : Fin 1))) k = ix2 b k := funext fun a => Fin.ext (by
    match a with | ⟨0, _⟩ => rfl | ⟨1, _⟩ => rfl)
  rw [e, val_main_v33_apply, Ideal.mulf_def, centred_eq]
  rfl

/-- The result read at (b, j): the layer normalisation of the dense layer's row. -/
theorem tail_eq (x0 : Arr2 1024 128) (x1 : Arr3 1024 1024 128) (x2 x3 : Arr2 128 128) (x4 : Arr2 128 1) (x5 : Arr2 256 128)
    (x6 x7 x8 : Arr1 128) (b : Fin 1024) (j : Fin 128) :
    val_main_v50 (F := Ideal) x0 x1 x2 x3 x4 x5 x6 x7 x8 (ix2 b j)
      = rowOut x5 x6 x7 x8 (fun d => val_main_v20 (F := Ideal) x0 x1 x2 x3 x4 (ix2 b d)) (fun d => x0 (ix2 b d)) j := by
  rw [val_main_v50_apply, val_main_v47_apply, val_main_v44_apply, val_main_v43_apply, val_main_v42_apply, val_main_v41_apply,
    val_main_v40_apply, val_main_cst_7_apply, val_main_v46_apply, val_main_v45_apply, val_main_v49_apply, val_main_v48_apply,
    Ideal.addf_def, Ideal.mulf_def, Ideal.mulf_def, Ideal.hostUnary_rsqrt_def, Ideal.addf_def, Ideal.ofBits_def, centred_eq']
  have e7 : idx_main_v45 (idx_main_v46 (ix2 b j)) = ix1 j := funext fun a => Fin.ext (by
    match a with | ⟨0, _⟩ => rfl)
  have e8 : idx_main_v48 (idx_main_v49 (ix2 b j)) = ix1 j := funext fun a => Fin.ext (by
    match a with | ⟨0, _⟩ => rfl)
  have e : idx_main_v43 (ix2 b j) = ix2 b (0 : Fin 1) := funext fun a => Fin.ext (by
    match a with | ⟨0, _⟩ => rfl | ⟨1, _⟩ => rfl)
  rw [e7, e8, e, var_eq]
  rfl

/-- The reference program's result is G. -/
theorem ref_eq (x0 : Arr2 1024 128) (x1 : Arr3 1024 1024 128) (x2 x3 : Arr2 128 128) (x4 : Arr2 128 1) (x5 : Arr2 256 128)
    (x6 x7 x8 : Arr1 128) :
    val_main_v50 (F := Ideal) x0 x1 x2 x3 x4 x5 x6 x7 x8 = G x0 x1 x2 x3 x4 x5 x6 x7 x8 := by
  funext i
  obtain ⟨b, j, rfl⟩ : ∃ (b : Fin 1024) (j : Fin 128), i = ix2 b j := ⟨i 0, i 1, eq_ix2 i⟩
  rw [tail_eq]
  have hc : (fun d : Fin 128 => val_main_v20 (F := Ideal) x0 x1 x2 x3 x4 (ix2 b d))
      = fun d => ctxRef (score x0 x1 x2 x3 x4 b) (fun s => x1 (ix3 b s d)) (shiftRef (score x0 x1 x2 x3 x4 b)) :=
    funext fun d => ctx_eq x0 x1 x2 x3 x4 b d
  rw [hc]
  rfl

end Cert.Attn.Ref

end
-- ==== Proof.lean ====
/-
  Additive attention with a dense / tanh / layer-normalisation epilogue: a tiled kernel against the plain program.

  The kernel walks the sequence axis in eight tiles per batch block, carrying a running shift, a running sum of
  shifted exponentials and a running weighted sum (rescaled whenever the shift moves), and divides at the last tile.
  The reference takes the softmax over the whole axis with the row maximum as shift.  Both shifts are real numbers
  when the inputs are finite, and a softmax-weighted sum does not depend on the shift, so the two contexts agree;
  the epilogue is the same row function on both sides.  The frames are the generated ones (the reference's is its
  run with the result dropped); nothing was rewritten in the idealization, so there is nothing to preserve.
-/
import proofs.«138197_j28973849379558_2_alg».proof.Defs
import proofs.«138197_j28973849379558_2_alg».proof.Proof.Gen.Kernel
import proofs.«138197_j28973849379558_2_alg».proof.Proof.Gen.Kernel.Skeleton
import proofs.«138197_j28973849379558_2_alg».proof.Proof.Gen.Kernel.Launch
import proofs.«138197_j28973849379558_2_alg».proof.Proof.Gen.Kernel.Points
import proofs.«138197_j28973849379558_2_alg».proof.Proof.Gen.Kernel.Frame
import proofs.«138197_j28973849379558_2_alg».proof.Proof.Gen.KernelIdeal
import proofs.«138197_j28973849379558_2_alg».proof.Proof.Gen.KernelIdeal.Skeleton
import proofs.«138197_j28973849379558_2_alg».proof.Proof.Gen.KernelIdeal.Launch
import proofs.«138197_j28973849379558_2_alg».proof.Proof.Gen.KernelIdeal.Points
import proofs.«138197_j28973849379558_2_alg».proof.Proof.Gen.KernelIdeal.Frame
import proofs.«138197_j28973849379558_2_alg».proof.Proof.Gen.ReferenceIdeal
import proofs.«138197_j28973849379558_2_alg».proof.Proof.Gen.Pre_finite_inputs
import proofs.«138197_j28973849379558_2_alg».proof.Proof.Gen.KernelIdeal.Value
import proofs.«138197_j28973849379558_2_alg».proof.Proof.Final
import proofs.«138197_j28973849379558_2_alg».proof.Proof.Finite
import proofs.«138197_j28973849379558_2_alg».proof.Proof.RefRun
import proofs.«138197_j28973849379558_2_alg».proof.Proof.RefSpec
import Idealize.ShloMosaic.Adequacy
import Idealize.ShloMosaic.Init

noncomputable section

namespace Cert.Proof

open Idealize.ShloMosaic Idealize.SL.Sem Cert.Kernel

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.Attn.RefRun.run (F := Ideal) m ρ)

/-- From memories agreeing on the nine arguments, with finite entries, both programs end with the result array at
    the one function G of the arguments. -/
theorem algebraic : Cert.algebraic_KernelIdeal_ReferenceIdeal := by
  intro m ρ m' ρ' hpre hagree
  have hfin := fun c => Cert.Attn.Fin.finite_of_pre _ _ _ _ _ _ _ _ _ (hpre c)
  refine ⟨fun c => Cert.Attn.Online.GG m c, ?_, ?_⟩
  · exact Cert.Attn.Final.run m ρ (fun c => (hfin c).1) (fun c => (hfin c).2)
  · refine (θ_run Cert.ReferenceIdeal.defs _ _).mono (fun _ h c => ⟨(h c).1.trans ?_, (h c).2⟩)
      (Cert.Attn.RefRun.run (F := Ideal) m' ρ')
    rw [Cert.Attn.Ref.ref_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
